-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256 : Shape := ⟨2, ![512, 256]⟩
abbrev S512 : Shape := ⟨1, ![512]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) (main_arg1 : IVec S512 32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Kernel.lean ====
abbrev S512x256 : Shape := ⟨2, ![512, 256]⟩
abbrev S512 : Shape := ⟨1, ![512]⟩
abbrev S512x512 : Shape := ⟨2, ![512, 512]⟩
abbrev S256x512 : Shape := ⟨2, ![256, 512]⟩
abbrev S512x1 : Shape := ⟨2, ![512, 1]⟩
abbrev S1x512 : Shape := ⟨2, ![1, 512]⟩
abbrev S1x1 : Shape := ⟨2, ![1, 1]⟩
abbrev S32x128 : Shape := ⟨2, ![32, 128]⟩
abbrev S32x1 : Shape := ⟨2, ![32, 1]⟩
abbrev S1x128 : Shape := ⟨2, ![1, 128]⟩
abbrev S32x128x1 : Shape := ⟨3, ![32, 128, 1]⟩
abbrev S32x1x128 : Shape := ⟨3, ![32, 1, 128]⟩
abbrev S32x128x128 : Shape := ⟨3, ![32, 128, 128]⟩
abbrev S32x1x1 : Shape := ⟨3, ![32, 1, 1]⟩
abbrev S1x1x1 : Shape := ⟨3, ![1, 1, 1]⟩
abbrev S_ : Shape := ⟨0, ![]⟩

abbrev nBuf : Space → Nat
  | .hbm => 10
  | .vmem => 14
  | .smem => 0
  | _ => 0

abbrev bufTy : (tb : Table) → Fin (tcTables nBuf tb) → BufTy
  | .hbm, ⟨0, _⟩ => ⟨S512x256, .f32⟩
  | .hbm, ⟨1, _⟩ => ⟨S512, .i32⟩
  | .hbm, ⟨2, _⟩ => ⟨S512x512, .f32⟩
  | .hbm, ⟨3, _⟩ => ⟨S512x1, .i32⟩
  | .hbm, ⟨4, _⟩ => ⟨S1x512, .i32⟩
  | .hbm, ⟨5, _⟩ => ⟨S1x1, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S512x256, .f32⟩
  | .local _ .vmem, ⟨1, _⟩ => ⟨S512x512, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x1, .i32⟩
  | .local _ .vmem, ⟨7, _⟩ => ⟨S32x1, .i32⟩
  | .local _ .vmem, ⟨8, _⟩ => ⟨S1x128, .i32⟩
  | .local _ .vmem, ⟨9, _⟩ => ⟨S1x128, .i32⟩
  | .local _ .vmem, ⟨10, _⟩ => ⟨S1x128, .i32⟩
  | .local _ .vmem, ⟨11, _⟩ => ⟨S1x128, .i32⟩
  | .local _ .vmem, ⟨12, _⟩ => ⟨S1x1, .f32⟩
  | .local _ .vmem, ⟨13, _⟩ => ⟨S1x1, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg6_0 : Ref sig .tc := ⟨.vmem, 13, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem6_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨3, ![16, 4, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S32x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S32x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S32x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1x128 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1x128 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, false, true]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false, false]

class Facts₀ : Prop where
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  transposes_S512x256_p1_0_S256x512 : S512x256.Transposes [1, 0] S256x512
  reduces_S512x256_S512 : S512x256.Reduces [1] S512
  shapeCasts_S512_S512x1 : S512.ShapeCasts S512x1
  transposes_S512x1_p1_0_S1x512 : S512x1.Transposes [1, 0] S1x512
  broadcasts_S512x1_S512x512 : S512x1.Broadcasts S512x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S512_S1x512 : S512.ShapeCasts S1x512
  inb_S1x1_S1x1_0_0 : ∀ a, (![0, 0] : Fin 2 → Nat) a + S1x1.size a ≤ S1x1.size a
  h_S1x1 : 0 < S1x1.numel
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  iota_S32x1_d0_w32 : S32x1.Iotas .tc 32 [0]
  iota_S1x128_d1_w32 : S1x128.Iotas .tc 32 [1]
  broadcasts_S32x1_S32x128 : S32x1.Broadcasts S32x128
  broadcasts_S1x128_S32x128 : S1x128.Broadcasts S32x128
  natLt_1_32 : 1 < 32
  shapeCasts_S32x128_S32x128x1 : S32x128.ShapeCasts S32x128x1
  shapeCasts_S32x128_S32x1x128 : S32x128.ShapeCasts S32x1x128
  broadcasts_S32x128x1_S32x128x128 : S32x128x1.Broadcasts S32x128x128
  broadcasts_S32x1x128_S32x128x128 : S32x1x128.Broadcasts S32x128x128
  reduces_S32x128x128_S32x128 : S32x128x128.Reduces [2] S32x128
  reduces_S32x128x1_S32x1 : S32x128x1.Reduces [1] S32x1
  shapeCasts_S32x1_S32x1x1 : S32x1.ShapeCasts S32x1x1
  reduces_S32x1x1_S1x1 : S32x1x1.Reduces [0] S1x1
  shapeCasts_S1x1_S1x1x1 : S1x1.ShapeCasts S1x1x1
  shapeCasts_S1x1x1_S1x1 : S1x1x1.ShapeCasts S1x1
  shapeCasts_S1x1_S1x1 : S1x1.ShapeCasts S1x1
  shapeCasts_S1x1_S_ : S1x1.ShapeCasts S_
  dot_S512x256_S256x512_S512x512_1_0_0_1_n_n_wf : DotDims.WF S512x256 S256x512 S512x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S512x256.size a
  hwx0_0 : ∀ i : grid0.Coords, EltTy.bits .f32 = 32 ∨ (Rect.block (s := S512x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x128.size a ≤ S512x512.size a
  hwx1_0 : ∀ i : grid1.Coords, EltTy.bits .f32 = 32 ∨ (Rect.block (s := S512x512) S32x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x128.size a ≤ S512x512.size a
  hwx1_1 : ∀ i : grid1.Coords, EltTy.bits .f32 = 32 ∨ (Rect.block (s := S512x512) S32x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x1.size a ≤ S512x1.size a
  hwx1_2 : ∀ i : grid1.Coords, EltTy.bits .i32 = 32 ∨ (Rect.block (s := S512x1) S32x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x512.size a
  hwx1_3 : ∀ i : grid1.Coords, EltTy.bits .i32 = 32 ∨ (Rect.block (s := S1x512) S1x128.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x512.size a
  hwx1_4 : ∀ i : grid1.Coords, EltTy.bits .i32 = 32 ∨ (Rect.block (s := S1x512) S1x128.size (cc1_transform_4 i) (hinb1_4 i)).WholeWords (EltTy.packing .i32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.ofSpec (Memref.whole main_arg0) S512x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S32x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S32x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S32x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3_0) S1x1.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3_1) S1x1.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S512x256 : Shape := ⟨2, ![512, 256]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S256x512 : Shape := ⟨2, ![256, 512]⟩
abbrev S512x512x1 : Shape := ⟨3, ![512, 512, 1]⟩
abbrev S512x1x512 : Shape := ⟨3, ![512, 1, 512]⟩
abbrev S512x512x512 : Shape := ⟨3, ![512, 512, 512]⟩

abbrev nBuf : Space → Nat
  | .hbm => 72
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512, .i32⟩
  | .hbm, ⟨2, _⟩ => ⟨S512x256, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S1x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S256x512, .f32⟩
  | .hbm, ⟨11, _⟩ => ⟨S512x512, .f32⟩
  | .hbm, ⟨12, _⟩ => ⟨S_, .f32⟩
  | .hbm, ⟨13, _⟩ => ⟨S512x512, .f32⟩
  | .hbm, ⟨14, _⟩ => ⟨S512x512, .f32⟩
  | .hbm, ⟨15, _⟩ => ⟨S512x512, .f32⟩
  | .hbm, ⟨16, _⟩ => ⟨S_, .f32⟩
  | .hbm, ⟨17, _⟩ => ⟨S512x512, .f32⟩
  | .hbm, ⟨18, _⟩ => ⟨S512x512, .f32⟩
  | .hbm, ⟨19, _⟩ => ⟨S_, .f32⟩
  | .hbm, ⟨20, _⟩ => ⟨S512x512, .f32⟩
  | .hbm, ⟨21, _⟩ => ⟨S512x512, .i1⟩
  | .hbm, ⟨22, _⟩ => ⟨S_, .f32⟩
  | .hbm, ⟨23, _⟩ => ⟨S_, .f32⟩
  | .hbm, ⟨24, _⟩ => ⟨S512x512, .f32⟩
  | .hbm, ⟨25, _⟩ => ⟨S512x512, .f32⟩
  | .hbm, ⟨26, _⟩ => ⟨S512x512, .f32⟩
  | .hbm, ⟨27, _⟩ => ⟨S_, .f32⟩
  | .hbm, ⟨28, _⟩ => ⟨S_, .f32⟩
  | .hbm, ⟨29, _⟩ => ⟨S512x512, .f32⟩
  | .hbm, ⟨30, _⟩ => ⟨S512x512, .f32⟩
  | .hbm, ⟨31, _⟩ => ⟨S512x1, .i32⟩
  | .hbm, ⟨32, _⟩ => ⟨S1x512, .i32⟩
  | .hbm, ⟨33, _⟩ => ⟨S512x512, .i32⟩
  | .hbm, ⟨34, _⟩ => ⟨S512x512, .i32⟩
  | .hbm, ⟨35, _⟩ => ⟨S512x512, .i1⟩
  | .hbm, ⟨36, _⟩ => ⟨S512x512, .i32⟩
  | .hbm, ⟨37, _⟩ => ⟨S512x512, .i32⟩
  | .hbm, ⟨38, _⟩ => ⟨S_, .i32⟩
  | .hbm, ⟨39, _⟩ => ⟨S512x512, .i32⟩
  | .hbm, ⟨40, _⟩ => ⟨S512x512, .i32⟩
  | .hbm, ⟨41, _⟩ => ⟨S512x512, .i1⟩
  | .hbm, ⟨42, _⟩ => ⟨S512x512, .i1⟩
  | .hbm, ⟨43, _⟩ => ⟨S512x512, .i1⟩
  | .hbm, ⟨44, _⟩ => ⟨S512x512, .i1⟩
  | .hbm, ⟨45, _⟩ => ⟨S512x512x1, .f32⟩
  | .hbm, ⟨46, _⟩ => ⟨S512x1x512, .f32⟩
  | .hbm, ⟨47, _⟩ => ⟨S512x512x512, .f32⟩
  | .hbm, ⟨48, _⟩ => ⟨S512x512x512, .f32⟩
  | .hbm, ⟨49, _⟩ => ⟨S512x512x512, .f32⟩
  | .hbm, ⟨50, _⟩ => ⟨S_, .f32⟩
  | .hbm, ⟨51, _⟩ => ⟨S512x512x512, .f32⟩
  | .hbm, ⟨52, _⟩ => ⟨S512x512x512, .f32⟩
  | .hbm, ⟨53, _⟩ => ⟨S_, .f32⟩
  | .hbm, ⟨54, _⟩ => ⟨S512x512x512, .f32⟩
  | .hbm, ⟨55, _⟩ => ⟨S512x512x512, .f32⟩
  | .hbm, ⟨56, _⟩ => ⟨S512x512x1, .i1⟩
  | .hbm, ⟨57, _⟩ => ⟨S512x1x512, .i1⟩
  | .hbm, ⟨58, _⟩ => ⟨S512x512x512, .i1⟩
  | .hbm, ⟨59, _⟩ => ⟨S512x512x512, .i1⟩
  | .hbm, ⟨60, _⟩ => ⟨S512x512x512, .i1⟩
  | .hbm, ⟨61, _⟩ => ⟨S_, .f32⟩
  | .hbm, ⟨62, _⟩ => ⟨S_, .f32⟩
  | .hbm, ⟨63, _⟩ => ⟨S512x512x512, .f32⟩
  | .hbm, ⟨64, _⟩ => ⟨S512x512x512, .f32⟩
  | .hbm, ⟨65, _⟩ => ⟨S_, .f32⟩
  | .hbm, ⟨66, _⟩ => ⟨S_, .f32⟩
  | .hbm, ⟨67, _⟩ => ⟨S512x512x512, .i32⟩
  | .hbm, ⟨68, _⟩ => ⟨S_, .i32⟩
  | .hbm, ⟨69, _⟩ => ⟨S_, .i32⟩
  | .hbm, ⟨70, _⟩ => ⟨S_, .f32⟩
  | .hbm, ⟨71, _⟩ => ⟨S_, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_call2_cst : Ref sig .tc := ⟨.hbm, 53, rfl⟩
abbrev main_call2_v0 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_6 : Ref sig .tc := ⟨.hbm, 61, rfl⟩
abbrev main_call3_v0 : Ref sig .tc := ⟨.hbm, 62, rfl⟩
abbrev main_call3_v1 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩

abbrev nD : Nat := 1
abbrev τ : Topo := Topo.v7x

variable {F : FTy → Type} [FloatOps F]

class Facts₀ : Prop where
  reducesTo_S512x256_S512_d1 : S512x256.ReducesTo [1] S512
  h_S_ : 0 < S_.numel
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  transposes_S512x256_S256x512_1_0 : S512x256.Transposes [1, 0] S256x512
  bcast_S_S512x512 : S_.BroadcastsInDim S512x512 (![] : Fin 0 → Fin S512x512.rank)
  bcast_S512x512_S512x512x1_0_1 : S512x512.BroadcastsInDim S512x512x1 (![0, 1] : Fin 2 → Fin S512x512x1.rank)
  bcast_S512x512_S512x1x512_0_2 : S512x512.BroadcastsInDim S512x1x512 (![0, 2] : Fin 2 → Fin S512x1x512.rank)
  bcast_S512x512x1_S512x512x512_0_1_2 : S512x512x1.BroadcastsInDim S512x512x512 (![0, 1, 2] : Fin 3 → Fin S512x512x512.rank)
  bcast_S512x1x512_S512x512x512_0_1_2 : S512x1x512.BroadcastsInDim S512x512x512 (![0, 1, 2] : Fin 3 → Fin S512x512x512.rank)
  bcast_S_S512x512x512 : S_.BroadcastsInDim S512x512x512 (![] : Fin 0 → Fin S512x512x512.rank)
  reducesTo_S512x512x512_S_d0_1_2 : S512x512x512.ReducesTo [0, 1, 2] S_
  natLt_1_32 : 1 < 32
  dot_S512x256_S256x512_S512x512_1_0_0_1_n_n_wf : DotDims.WF S512x256 S256x512 S512x512 [1] [0] [0] [1] [] []

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

class Facts : Prop extends Facts₀ where

variable [Facts]
-- ==== Proof.KRunCond.lean ====
/-
  The program's run from one record per kernel region. @main is: the first kernel region, two host reshapes of the
  labels, the second kernel region, two host reshapes and a division. Given, for each region, a segment record entered
  from the buffers' contents before it and left at the contents after it, every weakly fair execution of @main
  terminates, the result buffer holds what the last host stretch computes from what the second region left, and the
  two argument arrays end as launched.
-/
import proofs.«108056_j2293512536517_2_alg».proof.Proof.Gen.Kernel.Regions

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

variable (m : (ℓ : Loc nD τ sig) → Buf (Elt F) ℓ)

set_option backward.isDefEq.respectTransparency.types false in
/-- The run, given the regions' records: the result buffer ends at the last boundary's contents, the arguments as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c)) :
    θ_run defs (onTc (τ := τ) (main (F := F))) ⟨m, fun _ => 0, ρ⟩ (fun r => ∀ c : Dev nD,
      r.2.mem ((c.tc : Thread nD τ).loc main_v6) = V4 m outs c main_v6
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m outs c))
    (hch := fun c => ⟨hpre0 c, hpost0 c, hpre1 c, hpost1 c, sep_mono .rfl (hE2 c)⟩)
    (hinit := ?_) (QY := fun c s => s.mem ((c.tc : Thread nD τ).loc main_v6) = V4 m outs c main_v6 ∧ s.mem ((c.tc : Thread nD τ).loc main_arg0) = m ((c.tc : Thread nD τ).loc main_arg0) ∧ s.mem ((c.tc : Thread nD τ).loc main_arg1) = m ((c.tc : Thread nD τ).loc main_arg1))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V4 m outs c) s') $$ [Hh HSI]
    · isplitl [Hh] <;> iassumption
    icases Hr with ⟨%h, HSI⟩
    imodintro
    isplitr
    · ipureintro
      exact ⟨h (Proc.devRef .tc main_v6) (Finset.mem_filter.mpr ⟨StableHlo.devRef_mem_tcRefs main_v6, by decide⟩),
        (h (Proc.devRef .tc main_arg0) (Finset.mem_filter.mpr ⟨StableHlo.devRef_mem_tcRefs main_arg0, by decide⟩)).trans (V4_main_arg0 m outs c),
        (h (Proc.devRef .tc main_arg1) (Finset.mem_filter.mpr ⟨StableHlo.devRef_mem_tcRefs main_arg1, by decide⟩)).trans (V4_main_arg1 m outs c)⟩
    · iexact HSI

end Cert.Kernel.Hand

end
-- ==== Proof.KR1Shares.lean ====
/-
  The second kernel reads the distance matrix through two windows (the anchor-positive tile and the anchor-negative tile)
  and the label row through two windows; each of the two windows on one array holds half of the array's share.
-/
import proofs.«108056_j2293512536517_2_alg».proof.Proof.Gen.Kernel.Launch

noncomputable section

namespace Cert.Kernel.Hand

open Idealize.ShloMosaic Idealize.SL Idealize.SL.RA

/-- The share of its array each input window of the second kernel holds: the two windows on the distance matrix
    (0 and 1) and the two on the label row (3 and 4) a half each, the label column's window (2) the whole. -/
def q1 : Fin 7 → PosShare TreeShare
  | ⟨0, _⟩ => fullShare.left
  | ⟨1, _⟩ => fullShare.right
  | ⟨2, _⟩ => fullShare
  | ⟨3, _⟩ => fullShare.left
  | ⟨4, _⟩ => fullShare.right
  | ⟨5, _⟩ => fullShare
  | ⟨6, _⟩ => fullShare

end Cert.Kernel.Hand

end
-- ==== Proof.KR0Body.lean ====
/- REGION 0 of @main (the pairwise-distance kernel), its separation-logic half: at a parameter `V`, the buffer
   contents when the region is entered, each window's block at the region's one point, what the body leaves in the
   output window's buffer (its one store over the payload of its one input load), the body's triple, the proof data
   and the body obligation. Generic in the float instance. -/
import proofs.«108056_j2293512536517_2_alg».proof.Proof.Gen.Kernel.Launch
import proofs.«108056_j2293512536517_2_alg».proof.Proof.Gen.Kernel.Skeleton
import proofs.«108056_j2293512536517_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): the window is uncut and
    never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole input block: the rectangle of the body's one load of its input. -/
abbrev r0_0 : Rect S512x256 := Rect.unit (s := S512x256) ![0, 0] S512x256.size inb_S512x256_S512x256_0_0
/-- The whole output block: the rectangle of the body's one store (and of its unused load of the output). -/
abbrev r0_1 : Rect S512x512 := Rect.unit (s := S512x512) ![0, 0] S512x512.size inb_S512x512_S512x512_0_0

/-! ## What the body leaves in the output window's buffer -/

/-- Window 1's staging buffer after the body, from the input window's block: its one store as a piece, over the
    payload of the one load. -/
def out0_1 (x0 : Vec F S512x256 .f32) : Vec F S512x512 .f32 :=
  View.canon [⟨r0_1, k0_pay1 (View.ld x0 r0_0)⟩]

/-- The store tiles the buffer (checked by evaluation), so it covers it. -/
theorem cover0_1 (p0 : Vec F S512x512 .f32) (y : S512x512.Idx) :
    ∃ pc ∈ ([⟨r0_1, p0⟩] : List (View.Piece (Elt F) S512x512 .f32)), y ∈ pc.1.set :=
  View.cover_of_tiled [⟨r0_1, p0⟩] S512x512.size (by rfl) y

/-! ## The body's triple -/

set_option maxHeartbeats 1000000 in
/-- The kernel body on whole staging memrefs, the input's at read contents `x0` and the output's at anything, runs to
    the continuation holding the input's as it was and the output's at `out0_1` of the input's. The body also reads
    the output buffer before storing into it; the value read is not used. -/
theorem sound_kernel0 (c : Dev nD) (E : Set ℕ) (i : grid0.Coords) (arg1 : Memref sig .tc .vmem S512x256 .f32) (harg1 : arg1.IsWhole) (arg2 : Memref sig .tc .vmem S512x512 .f32) (harg2 : arg2.IsWhole)
    (x0 : Vec F S512x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__pairwise_dist_kernel i arg1 harg1 arg2 harg2) K := by
  simp only [cc0__pairwise_dist_kernel_eq_skeleton]; unfold cc0__pairwise_dist_kernel_skel
  unfold owns
  iintro ⟨⟨%f0, %hf0, H0⟩, ⟨%d1, %f1, %hf1, H1⟩, Hk⟩
  subst hf0
  subst hf1
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of pipeline 0 on core `c`: the arrays as the region finds them (`V`); after the body at
    point `t` the input's buffer at its block and the output's at `out0_1` of the input block; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block (`before0_0`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.KR0Value.lean ====
/- REGION 0 of @main (the pairwise-distance kernel), its value: the one store covers the whole output buffer and
   the one load reads the whole input block, so what the body leaves is the payload of its input; the region has one
   point whose blocks are the whole arrays, so the output array after the region is the payload of the whole input
   array, and the input array is as the region found it. -/
import proofs.«108056_j2293512536517_2_alg».proof.Proof.KR0Body
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The body's rectangles start at the origin. -/
theorem hz0 : (![0, 0] : Fin 2 → Nat) = fun _ => 0 := funext fun a => by fin_cases a <;> rfl

/-- What the body leaves in the output buffer is the payload of the input block: the one store covers the whole
    buffer, the one load reads the whole block. -/
theorem out0_1_eq (x0 : Vec F S512x256 .f32) : out0_1 x0 = k0_pay1 x0 := by
  unfold out0_1
  rw [View.canon_unit_zero hz0]
  exact congrArg k0_pay1 (View.ld_unit_zero (S := S512x256) hz0 _ x0)

section Regions
variable (V : (c : Dev nD) → (b : Ref sig .tc) → Buf (Elt F) ((c : Thread nD τ).loc b))

/-- The printed index maps, decided over the grid: at the one point both windows' blocks sit at the origin. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- Window 0's block at a point, read back, is the whole input array. -/
theorem iblk0_0_eq (c : Dev nD) (t : Fin cfg0.N) : (iblk0 V c 0 t : S512x256.Idx → Elt F .f32) = V c main_arg0 := by
  obtain ⟨e0, e1, -, -⟩ := idx_facts0 t
  funext y
  show V c main_arg0 (((cfg0.win 0).blk t).view.emb y) = V c main_arg0 y
  refine congrArg (V c main_arg0) ?_
  funext a; apply Fin.ext
  match a with
  | ⟨0, _⟩ => show win0_0.index t (0 : Fin 2) * 512 + 1 * (y 0).val = (y 0).val; omega
  | ⟨1, _⟩ => show win0_0.index t (1 : Fin 2) * 256 + 1 * (y 1).val = (y 1).val; omega

/-- What a point writes back is its block of the payload of the whole input array. -/
theorem flushed0_1_eq (c : Dev nD) (t : Fin cfg0.N) :
    (dat0 V c).flushed 1 t = ((cfg0.win 1).blk t).view.read (Elt F) (k0_pay1 (V c main_arg0) : Vec F S512x512 .f32) := by
  show (cfg0.win 1).cut (grid0.coords t) ((dat0 V c).after 1 t) = _
  rw [after0_1, out0_1_eq, iblk0_0_eq]
  obtain ⟨-, -, e2, e3⟩ := idx_facts0 t
  funext j
  show k0_pay1 (V c main_arg0) j = k0_pay1 (V c main_arg0) (((cfg0.win 1).blk t).view.emb j)
  refine congrArg (k0_pay1 (V c main_arg0)) ?_
  funext a; apply Fin.ext
  match a with
  | ⟨0, _⟩ => show (j 0).val = win0_1.index t (0 : Fin 2) * 512 + 1 * (j 0).val; omega
  | ⟨1, _⟩ => show (j 1).val = win0_1.index t (1 : Fin 2) * 512 + 1 * (j 1).val; omega

/-- An index of the output array is in a point's block iff each coordinate is in the block's range on its axis. -/
theorem mem_blk0_1 (t : Fin cfg0.N) (i : S512x512.Idx) :
    i ∈ ((cfg0.win 1).blk t).view.set ↔ ∀ a : Fin 2, win0_1.index t a * S512x512.size a ≤ (i a).val ∧ (i a).val < win0_1.index t a * S512x512.size a + S512x512.size a := by
  show i ∈ ((View.whole main_v0).slice (win0_1.rect t)).set ↔ _
  rw [View.set_slice_whole, Rect.mem_set_unit]
  exact Iff.rfl

/-- The one point's block covers the output array. -/
theorem cover0_1_arr (i : S512x512.Idx) :
    ∃ t : Fin cfg0.N, (cfg0.win 1).flush t = true ∧ i ∈ ((cfg0.win 1).blk t).view.set := by
  refine ⟨t0_0, flush0_1 t0_0, ?_⟩
  obtain ⟨-, -, e2, e3⟩ := idx_facts0 t0_0
  rw [mem_blk0_1]
  intro a
  match a with
  | ⟨0, _⟩ => show win0_1.index t0_0 (0 : Fin 2) * 512 ≤ (i 0).val ∧ (i 0).val < win0_1.index t0_0 (0 : Fin 2) * 512 + 512; have hi0 : (i 0).val < 512 := (i 0).isLt; omega
  | ⟨1, _⟩ => show win0_1.index t0_0 (1 : Fin 2) * 512 ≤ (i 1).val ∧ (i 1).val < win0_1.index t0_0 (1 : Fin 2) * 512 + 512; have hi1 : (i 1).val < 512 := (i 1).isLt; omega

/-- The output array after the region's one point is the payload of the whole input array. -/
theorem final0 (c : Dev nD) : (dat0 V c).arrAt 1 cfg0.N = (k0_pay1 (V c main_arg0) : Vec F S512x512 .f32) :=
  (dat0 V c).arrAt_eq_of_cover 1 (k0_pay1 (V c main_arg0) : Vec F S512x512 .f32) (fun t _ => flushed0_1_eq V c t) (cover0_1_arr)

/-- The input array is never written back: after the region it is as the region found it. -/
theorem kept0 (c : Dev nD) : (dat0 V c).arrAt 0 cfg0.N = V c main_arg0 :=
  ((dat0 V c).arrAt_in 0 rfl cfg0.N).trans (A_eq0 V c 0)

end Regions

end Cert.Kernel.Hand

end
-- ==== Proof.KR1Runs.lean ====
/-
  The second kernel's body in its two control cases. At every point of the 16 x 4 x 4 grid the body adds to two
  one-element accumulators the masked hinge sum and the mask count of the point's tile of triplets; at the first
  point only it stores zero into both before adding. Here: the two payloads as functions of the five input blocks
  and of what the accumulator held (`step5`, `step6`), the condition of the body's one conditional in closed form
  over the 256 points, and the body's triple in each case, on any whole staging buffers: the inputs are left as they
  were and each accumulator ends at its payload, over zero at the first point and over its previous contents at every
  other. Everything is generic in the float instance.
-/
import proofs.«108056_j2293512536517_2_alg».proof.Proof.Gen.Kernel.Launch
import proofs.«108056_j2293512536517_2_alg».proof.Proof.Gen.Kernel.Skeleton
import proofs.«108056_j2293512536517_2_alg».proof.Proof.Gen.Kernel.Points
import proofs.«108056_j2293512536517_2_alg».proof.Proof.KR1Shares
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The payload the body adds to the first accumulator at a point: the masked hinge sum of the tile, over what
    the accumulator held. -/
def step5 (i : grid1.Coords) (x0 x1 : Vec F S32x128 .f32) (x2 : Vec F S32x1 .i32) (x3 x4 : Vec F S1x128 .i32) (prev : Vec F S1x1 .f32) : Vec F S1x1 .f32 :=
  k1_pay2 (k1_pay6 x0) (k1_pay7 x1) (k1_pay9 x2 x4) (k1_pay10 i x2 x3) prev

/-- The payload the body adds to the second accumulator at a point: the mask count of the tile, over what the
    accumulator held. -/
def step6 (i : grid1.Coords) (x2 : Vec F S32x1 .i32) (x3 x4 : Vec F S1x128 .i32) (prev : Vec F S1x1 .f32) : Vec F S1x1 .f32 :=
  k1_pay3 (k1_pay9 x2 x4) (k1_pay10 i x2 x3) prev

/-- The condition of the body's one conditional: the point is the first in all three coordinates (the scalar
    chain over the grid coordinates, substituted). -/
abbrev cond1_0 (i : grid1.Coords) : Prop :=
  (Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32) = 1#1

/-- It holds at the first point only: decided over the 256 points. -/
theorem hcond1_0 : ∀ t : Fin cfg1.N, cond1_0 (grid1.coords t) ↔ t.val % 256 = 0 :=
  (by decide +kernel : ∀ t : Fin grid1.N, cond1_0 (grid1.coords t) ↔ t.val % 256 = 0)

/-- The zero offsets of a whole-buffer access, however spelt. -/
theorem hz2 : (![0, 0] : Fin 2 → Nat) = fun _ => 0 := funext fun a => by fin_cases a <;> rfl

/-- A list of writes whose last is a store through the whole buffer covers the buffer. -/
theorem cover_unit_zero {S : Shape} {e : EltTy} {Val : EltTy → Type} {off : Fin S.rank → Nat} (h : off = fun _ => 0)
    (inb : ∀ a, off a + S.size a ≤ S.size a) (w : S.Idx → Val e) (L : List (View.Piece Val S e)) (y : S.Idx) :
    ∃ p ∈ ((⟨Rect.unit off S.size inb, w⟩ : View.Piece Val S e) :: L), y ∈ p.1.set :=
  ⟨_, List.Mem.head _, View.mem_set_unit_zero h inb y⟩

set_option maxHeartbeats 1000000 in
/-- THE FIRST POINT. On whole staging buffers, the five inputs' at their contents and the two accumulators' at
    anything, the body runs to the continuation holding the inputs' as they were and each accumulator at its tile's
    sum over zero: the conditional is taken, the accumulators are zeroed, and the value each is then added to is
    the zero just stored. -/
theorem sound_kernel1_A (c : Dev nD) (E : Set ℕ) (i : grid1.Coords) (arg3 : Memref sig .tc .vmem S32x128 .f32) (harg3 : arg3.IsWhole) (arg4 : Memref sig .tc .vmem S32x128 .f32) (harg4 : arg4.IsWhole) (arg5 : Memref sig .tc .vmem S32x1 .i32) (harg5 : arg5.IsWhole) (arg6 : Memref sig .tc .vmem S1x128 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S1x1 .f32) (harg9 : arg9.IsWhole) (hc0 : cond1_0 i)
    (x0 x1 : Vec F S32x128 .f32) (x2 : Vec F S32x1 .i32) (x3 x4 : Vec F S1x128 .i32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (step5 i x0 x1 x2 x3 x4 k1_pay4)
            ∗ owns (c : Thread nD τ) arg9 fullShare (step6 i x2 x3 x4 k1_pay5)) -∗ K ⟨⟩))
      ⊢ wp frame (wpE (defs₀ (F := F)) Variants.none c none) E (cc1_kernel i arg3 harg3 arg4 harg4 arg5 harg5 arg6 harg6 arg7 harg7 arg8 harg8 arg9 harg9) K := by
  simp only [cc1_kernel_eq_skeleton]; unfold cc1_kernel_skel
  simp only [k1_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  obtain rfl := harg3.eq_unread hf3; obtain rfl := harg4.eq_unread hf4; obtain rfl := harg5.eq_unread hf5
  obtain rfl := harg6.eq_unread hf6; obtain rfl := harg7.eq_unread hf7
  sl_exec (disch := first | exact hc0)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    sl_unfold_words
    refine (View.read_writes_eq_canon _ _ _ (cover_unit_zero (S := S1x1) hz2 _ _ _)).trans ?_
    rw [View.canon_cons_unit_zero (S := S1x1) hz2, View.readCov_unit_zero (S := S1x1) _ hz2]
    simp only [View.readAt_eq_ld, harg3.read_unread, harg4.read_unread, harg5.read_unread, harg6.read_unread, harg7.read_unread,
      View.ld_unit_zero (S := S32x128) hz2, View.ld_unit_zero (S := S32x1) hz2, View.ld_unit_zero (S := S1x128) hz2]
    rfl
  iexists _; isplitr
  swap; · iexact H9
  ipureintro
  sl_unfold_words
  refine (View.read_writes_eq_canon _ _ _ (cover_unit_zero (S := S1x1) hz2 _ _ _)).trans ?_
  rw [View.canon_cons_unit_zero (S := S1x1) hz2, View.readCov_unit_zero (S := S1x1) _ hz2]
  simp only [View.readAt_eq_ld, harg3.read_unread, harg4.read_unread, harg5.read_unread, harg6.read_unread, harg7.read_unread,
      View.ld_unit_zero (S := S32x128) hz2, View.ld_unit_zero (S := S32x1) hz2, View.ld_unit_zero (S := S1x128) hz2]
  rfl

set_option maxHeartbeats 1000000 in
/-- EVERY LATER POINT. The conditional is not taken: each accumulator ends at its tile's sum over what it held. -/
theorem sound_kernel1_B (c : Dev nD) (E : Set ℕ) (i : grid1.Coords) (arg3 : Memref sig .tc .vmem S32x128 .f32) (harg3 : arg3.IsWhole) (arg4 : Memref sig .tc .vmem S32x128 .f32) (harg4 : arg4.IsWhole) (arg5 : Memref sig .tc .vmem S32x1 .i32) (harg5 : arg5.IsWhole) (arg6 : Memref sig .tc .vmem S1x128 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S1x1 .f32) (harg9 : arg9.IsWhole) (hc0 : ¬cond1_0 i)
    (x0 x1 : Vec F S32x128 .f32) (x2 : Vec F S32x1 .i32) (x3 x4 : Vec F S1x128 .i32) (p5 p6 : Vec F S1x1 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ owns (c : Thread nD τ) arg8 fullShare p5 ∗ owns (c : Thread nD τ) arg9 fullShare p6
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (step5 i x0 x1 x2 x3 x4 p5)
            ∗ owns (c : Thread nD τ) arg9 fullShare (step6 i x2 x3 x4 p6)) -∗ K ⟨⟩))
      ⊢ wp frame (wpE (defs₀ (F := F)) Variants.none c none) E (cc1_kernel i arg3 harg3 arg4 harg4 arg5 harg5 arg6 harg6 arg7 harg7 arg8 harg8 arg9 harg9) K := by
  simp only [cc1_kernel_eq_skeleton]; unfold cc1_kernel_skel
  simp only [k1_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5
  obtain rfl := harg6.eq_unread hf6; obtain rfl := harg7.eq_unread hf7
  obtain rfl := harg8.eq_unread hf8; obtain rfl := harg9.eq_unread hf9
  sl_exec (disch := first | exact hc0)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    sl_unfold_words
    refine (View.read_writes_eq_canon _ _ _ (cover_unit_zero (S := S1x1) hz2 _ _ _)).trans ?_
    rw [View.canon_unit_zero (S := S1x1) hz2]
    simp only [View.readAt_eq_ld, harg3.read_unread, harg4.read_unread, harg5.read_unread, harg6.read_unread, harg7.read_unread,
      View.ld_unit_zero (S := S32x128) hz2, View.ld_unit_zero (S := S32x1) hz2, View.ld_unit_zero (S := S1x128) hz2, harg8.read_unread, View.ld_unit_zero (S := S1x1) hz2]
    rfl
  iexists _; isplitr
  swap; · iexact H9
  ipureintro
  sl_unfold_words
  refine (View.read_writes_eq_canon _ _ _ (cover_unit_zero (S := S1x1) hz2 _ _ _)).trans ?_
  rw [View.canon_unit_zero (S := S1x1) hz2]
  simp only [View.readAt_eq_ld, harg3.read_unread, harg4.read_unread, harg5.read_unread, harg6.read_unread, harg7.read_unread,
      View.ld_unit_zero (S := S32x128) hz2, View.ld_unit_zero (S := S32x1) hz2, View.ld_unit_zero (S := S1x128) hz2, harg9.read_unread, View.ld_unit_zero (S := S1x1) hz2]
  rfl

end Cert.Kernel.Hand

end
-- ==== Proof.KR1Body.lean ====
/-
  The second kernel's pipeline, its separation-logic half: the proof data over the buffer contents `V` the region is
  entered with, and the body obligation at every point of the 16 x 4 x 4 grid. After the body at point `t` each of
  the five input windows' staging buffers holds its block of its array, and the two accumulators' hold the running
  sums `acc5`, `acc6`: the first point's payload over zero, every later point's over what the point before left
  (the accumulators are written back at the last point only, so nothing touches them in between). Generic in the
  float instance.
-/
import proofs.«108056_j2293512536517_2_alg».proof.Proof.KR1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The two running sums, point by point -/

/-- What the first accumulator holds after the body at position `n`: the first point adds its tile's masked hinge
    sum to zero, every later point adds its own to what the point before left. -/
def acc5 (c : Dev nD) : (n : ℕ) → n < cfg1.N → Vec F S1x1 .f32
  | 0, h => step5 (grid1.coords ⟨0, h⟩) (iblk1 V c 0 ⟨0, h⟩) (iblk1 V c 1 ⟨0, h⟩) (iblk1 V c 2 ⟨0, h⟩) (iblk1 V c 3 ⟨0, h⟩) (iblk1 V c 4 ⟨0, h⟩) k1_pay4
  | n + 1, h => step5 (grid1.coords ⟨n + 1, h⟩) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (acc5 c n (Nat.lt_of_succ_lt h))

/-- What the second accumulator holds after the body at position `n`: the mask counts of the tiles so far. -/
def acc6 (c : Dev nD) : (n : ℕ) → n < cfg1.N → Vec F S1x1 .f32
  | 0, h => step6 (grid1.coords ⟨0, h⟩) (iblk1 V c 2 ⟨0, h⟩) (iblk1 V c 3 ⟨0, h⟩) (iblk1 V c 4 ⟨0, h⟩) k1_pay5
  | n + 1, h => step6 (grid1.coords ⟨n + 1, h⟩) (iblk1 V c 2 ⟨n + 1, h⟩) (iblk1 V c 3 ⟨n + 1, h⟩) (iblk1 V c 4 ⟨n + 1, h⟩) (acc6 c n (Nat.lt_of_succ_lt h))

/-- The first accumulator at the first point: the tile's sum over zero. -/
theorem acc5_A (c : Dev nD) (t : Fin cfg1.N) (h0 : t.val % 256 = 0) :
    acc5 V c t.val t.isLt = step5 (grid1.coords t) (iblk1 V c 0 t) (iblk1 V c 1 t) (iblk1 V c 2 t) (iblk1 V c 3 t) (iblk1 V c 4 t) k1_pay4 := by
  have hN : t.val < 256 := lt_of_lt_of_eq t.isLt (show cfg1.N = 256 from N_1)
  obtain ⟨n, hn⟩ := t
  cases n with
  | zero => exact rfl
  | succ n => exact (by exfalso; dsimp only at h0 hN; omega)

/-- The first accumulator at a later point: the tile's sum over what the point before left. -/
theorem acc5_B (c : Dev nD) (t : Fin cfg1.N) (h0 : ¬t.val % 256 = 0) :
    acc5 V c t.val t.isLt = step5 (grid1.coords t) (iblk1 V c 0 t) (iblk1 V c 1 t) (iblk1 V c 2 t) (iblk1 V c 3 t) (iblk1 V c 4 t) (acc5 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-- The second accumulator at the first point. -/
theorem acc6_A (c : Dev nD) (t : Fin cfg1.N) (h0 : t.val % 256 = 0) :
    acc6 V c t.val t.isLt = step6 (grid1.coords t) (iblk1 V c 2 t) (iblk1 V c 3 t) (iblk1 V c 4 t) k1_pay5 := by
  have hN : t.val < 256 := lt_of_lt_of_eq t.isLt (show cfg1.N = 256 from N_1)
  obtain ⟨n, hn⟩ := t
  cases n with
  | zero => exact rfl
  | succ n => exact (by exfalso; dsimp only at h0 hN; omega)

/-- The second accumulator at a later point. -/
theorem acc6_B (c : Dev nD) (t : Fin cfg1.N) (h0 : ¬t.val % 256 = 0) :
    acc6 V c t.val t.isLt = step6 (grid1.coords t) (iblk1 V c 2 t) (iblk1 V c 3 t) (iblk1 V c 4 t) (acc6 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-! ## The pipeline's proof data -/

/-- The proof data of the second kernel's pipeline on core `c`: the arrays as the region finds them (`V`); after the
    body at point `t` each input's buffer at its block and the two outputs' at the running sums; the invariant the
    scoped rest and the generator register; nothing owed; the two windows on one array a half share each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => acc5 V c t.val t.isLt
    | ⟨6, _⟩ => acc6 V c t.val t.isLt
  Φ _ := Pipeline.ΦA spec1 c
  q := q1
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = acc5 V c t.val t.isLt := by dsimp only [dat1]
theorem after1_6 (c : Dev nD) (t : Fin cfg1.N) : (dat1 V c).after 6 t = acc6 V c t.val t.isLt := by dsimp only [dat1]

/-- Each input's current staging buffer holds its block at every point, fetched there or not: unfetched, the block
    index has not moved since the point that fetched it, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-- At a point after the first the first accumulator's staging buffer holds what the body left at the point before:
    the buffer is written back at the last point only. -/
theorem before1_5_B (c : Dev nD) (t : Fin cfg1.N) (h0 : ¬t.val % 256 = 0) (d) :
    (dat1 V c).before 5 t d = acc5 V c (t.val - 1) (Nat.lt_of_le_of_lt (Nat.sub_le _ _) t.isLt) := by
  have hN : t.val < 256 := lt_of_lt_of_eq t.isLt (show cfg1.N = 256 from N_1)
  rw [Dat.before_out_kept _ 5 rfl t (by omega) (Bool.eq_false_iff.mpr fun h => by have := (flush1_5 _).mp h; dsimp only at this; omega)
    (fun _ => rfl) (fun _ _ => rfl)]
  dsimp only [dat1]

/-- Likewise the second accumulator's. -/
theorem before1_6_B (c : Dev nD) (t : Fin cfg1.N) (h0 : ¬t.val % 256 = 0) (d) :
    (dat1 V c).before 6 t d = acc6 V c (t.val - 1) (Nat.lt_of_le_of_lt (Nat.sub_le _ _) t.isLt) := by
  have hN : t.val < 256 := lt_of_lt_of_eq t.isLt (show cfg1.N = 256 from N_1)
  rw [Dat.before_out_kept _ 6 rfl t (by omega) (Bool.eq_false_iff.mpr fun h => by have := (flush1_6 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 800000 in
/-- The body at any point: the inputs' buffers hold their blocks; at the first point the two accumulators are
    zeroed before they are added to, at every other point they hold what the point before left; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  by_cases h0 : t.val % 256 = 0
  · rw [acc5_A V c t h0, acc6_A V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel1_A c Set.univ (grid1.coords t) _ _ _ _ _ _ _ _ _ _ _ _ _ _ ((hcond1_0 t).mpr h0)
      (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [acc5_B V c t h0, acc6_B V c t h0]
    simp only [before1_5_B V c t h0, before1_6_B V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel1_B c Set.univ (grid1.coords t) _ _ _ _ _ _ _ _ _ _ _ _ _ _ (fun h => h0 ((hcond1_0 t).mp h))
      (iblk1 V c 0 t) (iblk1 V c 1 t) (iblk1 V c 2 t) (iblk1 V c 3 t) (iblk1 V c 4 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.KRun.lean ====
/-
  The program's run, region by region. @main is: the pairwise-distance kernel (one grid point: the whole embedding array
  in, the whole distance matrix out); two reshapes of the label vector to a column and a row; the triplet-reduction
  kernel over the 16 × 4 × 4 grid, which reads the distance matrix through two windows (the anchor-positive tile and the
  anchor-negative tile) and the label row through two windows, and accumulates the loss and the count in two [1,1]
  results written back at the last point; two reshapes to scalars and their quotient. Here: the buffers' contents at the
  boundaries between these five items, each region as a segment record over its proof data (for the second region the
  two windows on one array each hold half of the array's share at entry and give it back at exit), and the run:
  every execution terminates, the result is the last stretch's value of what the second region left, the arguments end
  as launched. Generic in the float instance.
-/
import proofs.«108056_j2293512536517_2_alg».proof.Proof.KRunCond
import proofs.«108056_j2293512536517_2_alg».proof.Proof.KR1Shares
import proofs.«108056_j2293512536517_2_alg».proof.Proof.Gen.Kernel.Skeleton
import proofs.«108056_j2293512536517_2_alg».proof.Proof.Gen.Kernel.Points
import proofs.«108056_j2293512536517_2_alg».proof.Proof.KR0Body
import proofs.«108056_j2293512536517_2_alg».proof.Proof.KR0Value
import proofs.«108056_j2293512536517_2_alg».proof.Proof.KR1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers as launched, read at the TensorCore's references: what the first region is entered from. -/
abbrev VA : (c : Dev nD) → (b : Ref sig .tc) → Buf (Elt F) ((c : Thread nD τ).loc b) := fun c b => V0 m c b

/-- What the first region leaves in the distance matrix's array. -/
def o1 (c : Dev nD) : Buf (Elt F) ((c : Thread nD τ).loc main_v0) := (dat0 (VA m) c).arrAt 1 cfg0.N

/-- The contents the regions leave, the first region's only. -/
def outsA : Outs (F := F) := fun _ r c => if h : r = main_v0 then h ▸ o1 m c else m ((c : Thread nD τ).loc r)

theorem outsA_v0 (c : Dev nD) : outsA m 1 main_v0 c = o1 m c := by
  unfold outsA; rw [dif_pos rfl]

/-- The buffers when the second region is entered: the distance matrix written, the labels reshaped. -/
abbrev VB : (c : Dev nD) → (b : Ref sig .tc) → Buf (Elt F) ((c : Thread nD τ).loc b) := fun c b => V2 m (outsA m) c b

def o5 (c : Dev nD) : Buf (Elt F) ((c : Thread nD τ).loc main_v3_0) := (dat1 (VB m) c).arrAt 5 cfg1.N
def o6 (c : Dev nD) : Buf (Elt F) ((c : Thread nD τ).loc main_v3_1) := (dat1 (VB m) c).arrAt 6 cfg1.N

/-- The contents both regions leave. -/
def outs : Outs (F := F) := fun _ r c =>
  if h : r = main_v0 then h ▸ o1 m c
  else if h : r = main_v3_0 then h ▸ o5 m c
  else if h : r = main_v3_1 then h ▸ o6 m c
  else m ((c : Thread nD τ).loc r)

theorem outs_v0 (c : Dev nD) : outs m 1 main_v0 c = o1 m c := by
  unfold outs; rw [dif_pos rfl]
theorem outs_v3_0 (c : Dev nD) : outs m 3 main_v3_0 c = o5 m c := by
  unfold outs; rw [dif_neg (by decide), dif_pos rfl]
theorem outs_v3_1 (c : Dev nD) : outs m 3 main_v3_1 c = o6 m c := by
  unfold outs; rw [dif_neg (by decide), dif_neg (by decide), dif_pos rfl]

theorem V1_outs (c : Dev nD) : V1 m (outs m) c = V1 m (outsA m) c := by
  unfold V1; rw [outs_v0, outsA_v0]
theorem V2_outs (c : Dev nD) : V2 m (outs m) c = V2 m (outsA m) c := by
  unfold V2; rw [V1_outs]

end Cert.Kernel.Hand

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first region's exit contents read at the TensorCore's references. -/
abbrev VA1 : (c : Dev nD) → (b : Ref sig .tc) → Buf (Elt F) ((c : Thread nD τ).loc b) := fun c b => V1 m (outs m) c b
/-- The second region's exit contents read at the TensorCore's references. -/
abbrev VB3 : (c : Dev nD) → (b : Ref sig .tc) → Buf (Elt F) ((c : Thread nD τ).loc b) := fun c b => V3 m (outs m) c b

theorem VA1_v0 (c : Dev nD) : VA1 m c main_v0 = o1 m c := by
  show Function.update (V0 m c) main_v0 (outs m 1 main_v0 c) main_v0 = _
  rw [Function.update_self, outs_v0]

/-- At the first region's exit each of its arrays holds what the pipeline leaves, -/
theorem hF0 (c : Dev nD) (w : Fin cfg0.W) : (dat0 (VA m) c).arrAt w cfg0.N = VA1 m c (Pipeline.arrRef spec0 w) := by
  match w with
  | ⟨0, _⟩ => exact (kept0 (VA m) c).trans (V1_of m (outs m) c main_arg0 (by decide)).symm
  | ⟨1, _⟩ => exact (VA1_v0 m c).symm
/-- and every other buffer what it held at entry. -/
theorem hrest0 (c : Dev nD) : ∀ b, b ∉ Finset.univ.image (Pipeline.arrRef spec0) → VA1 m c b = VA m c b :=
  fun b hb => V1_of m (outs m) c b (by
    intro h
    refine hb (Finset.mem_image.mpr ⟨1, Finset.mem_univ _, ?_⟩)
    rcases List.mem_singleton.mp h with rfl
    rfl)

/-- Every pipeline's proof data, each at its region's entry contents. -/
def pdats : (p : Fin 2) → (c : Dev nD) → Dat τ (Elt F) Unit ℕ (UR sig nD τ) ℕ (cfgs p) c
  | ⟨0, _⟩ => fun c => dat0 (VA m) c
  | ⟨1, _⟩ => fun c => dat1 (VB m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

set_option backward.isDefEq.respectTransparency.types false in
/-- The first region over the thread state: entered from every unscoped buffer as launched, left with the distance
    matrix's array at what the pipeline wrote back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (VA1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A window's whole array, held at a share: the points-to of the buffer behind it. -/
theorem arr1_pt (c : Dev nD) (w : Fin 7) (q : PosShare TreeShare) (G : Buf (Elt F) ((cfg1.win w).arr.view.loc (c.tc : Thread nD τ))) :
    ((cfg1.win w).arr.view.loc (c.tc : Thread nD τ) ↦[(cfg1.win w).arr.view.set]{q} G : sProp 𝕄)
      = (((c.tc : Thread nD τ).loc (Pipeline.arrRef spec1 w)) ↦{q} G : sProp 𝕄) := by
  rw [(arr_whole1 w).set_eq_univ]

/-- The shares the second region's proof data hold their arrays at. -/
theorem share1 (V : (c : Dev nD) → (b : Ref sig .tc) → Buf (Elt F) ((c : Thread nD τ).loc b)) (c : Dev nD) :
    (dat1 V c).share 0 = fullShare.left ∧ (dat1 V c).share 1 = fullShare.right ∧ (dat1 V c).share 2 = fullShare
      ∧ (dat1 V c).share 3 = fullShare.left ∧ (dat1 V c).share 4 = fullShare.right ∧ (dat1 V c).share 5 = fullShare
      ∧ (dat1 V c).share 6 = fullShare :=
  ⟨rfl, rfl, rfl, rfl, rfl, rfl, rfl⟩

/-- The buffers behind the second region's arrays, one by one: the distance matrix, the label column, the label row,
    the two results. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0) ↦{fullShare} V main_v0) ∗ (((c : Thread nD τ).loc main_v1) ↦{fullShare} V main_v1)
          ∗ (((c : Thread nD τ).loc main_v2) ↦{fullShare} V main_v2) ∗ (((c : Thread nD τ).loc main_v3_0) ↦{fullShare} V main_v3_0)
          ∗ (((c : Thread nD τ).loc main_v3_1) ↦{fullShare} V main_v3_1)) :=
  bigSep_eq_bigSepL_of_eq [main_v0, main_v1, main_v2, main_v3_0, main_v3_1] (by decide) (by decide) _

/-- At entry the buffers behind the second region's arrays are its windows' arrays: the distance matrix and the label
    row each split in two halves, one per window on it. -/
theorem arrays1_split (c : Dev nD) :
    (Pipeline.arrBufs (Ix := Unit) (Name := ℕ) (U := UR sig nD τ) (Lvl := ℕ) spec1 c (VB m c) : sProp 𝕄)
      ⊢ (dat1 (VB m) c).arrays ((dat1 (VB m) c).arrAt · 0) := by
  rw [arrBufs1_eq]
  unfold Dat.arrays
  rw [bigSep_W1]
  obtain ⟨s0, s1, s2, s3, s4, s5, s6⟩ := share1 (VB m) c
  rw [s0, s1, s2, s3, s4, s5, s6, arr1_pt, arr1_pt, arr1_pt, arr1_pt, arr1_pt, arr1_pt, arr1_pt]
  iintro ⟨H0, H1, H2, H5, H6⟩
  ihave H0' := (pointsTo_share (PosShare.mem_left_op_right fullShare)).1 $$ H0
  icases H0' with ⟨H0a, H0b⟩
  ihave H2' := (pointsTo_share (PosShare.mem_left_op_right fullShare)).1 $$ H2
  icases H2' with ⟨H2a, H2b⟩
  isplitl [H0a]; · iexact H0a
  isplitl [H0b]; · iexact H0b
  isplitl [H1]; · iexact H1
  isplitl [H2a]; · iexact H2a
  isplitl [H2b]; · iexact H2b
  isplitl [H5]; · iexact H5
  iexact H6

/-- Off the two result buffers the second region's exit contents are its entry contents. -/
theorem VB3_in (c : Dev nD) (b : Ref sig .tc) (h : b ∉ ([main_v3_0, main_v3_1] : List (Ref sig .tc))) : VB3 m c b = VB m c b := by
  show V3 m (outs m) c b = V2 m (outsA m) c b
  rw [V3_of m (outs m) c b h, V2_outs]
theorem VB3_v3_0 (c : Dev nD) : VB3 m c main_v3_0 = o5 m c := by
  show Function.update (Function.update (V2 m (outs m) c) main_v3_0 (outs m 3 main_v3_0 c)) main_v3_1 (outs m 3 main_v3_1 c) main_v3_0 = _
  rw [Function.update_of_ne (StableHlo.devRef_ne_of_ne (by decide) : (Proc.devRef .tc main_v3_0 : DevRef τ sig) ≠ Proc.devRef .tc main_v3_1),
    Function.update_self, outs_v3_0]
theorem VB3_v3_1 (c : Dev nD) : VB3 m c main_v3_1 = o6 m c := by
  show Function.update (Function.update (V2 m (outs m) c) main_v3_0 (outs m 3 main_v3_0 c)) main_v3_1 (outs m 3 main_v3_1 c) main_v3_1 = _
  rw [Function.update_self, outs_v3_1]

/-- At the second region's exit each of its arrays holds what the pipeline leaves: the inputs as entered, the two
    results what the last point wrote back. -/
theorem hG1 (c : Dev nD) (w : Fin cfg1.W) : (dat1 (VB m) c).arrAt w cfg1.N = VB3 m c (Pipeline.arrRef spec1 w) := by
  match w with
  | ⟨0, _⟩ => exact ((dat1 (VB m) c).arrAt_in 0 rfl _).trans ((A_eq1 (VB m) c 0).trans (VB3_in m c main_v0 (by decide)).symm)
  | ⟨1, _⟩ => exact ((dat1 (VB m) c).arrAt_in 1 rfl _).trans ((A_eq1 (VB m) c 1).trans (VB3_in m c main_v0 (by decide)).symm)
  | ⟨2, _⟩ => exact ((dat1 (VB m) c).arrAt_in 2 rfl _).trans ((A_eq1 (VB m) c 2).trans (VB3_in m c main_v1 (by decide)).symm)
  | ⟨3, _⟩ => exact ((dat1 (VB m) c).arrAt_in 3 rfl _).trans ((A_eq1 (VB m) c 3).trans (VB3_in m c main_v2 (by decide)).symm)
  | ⟨4, _⟩ => exact ((dat1 (VB m) c).arrAt_in 4 rfl _).trans ((A_eq1 (VB m) c 4).trans (VB3_in m c main_v2 (by decide)).symm)
  | ⟨5, _⟩ => exact (VB3_v3_0 m c).symm
  | ⟨6, _⟩ => exact (VB3_v3_1 m c).symm

/-- At exit the windows' arrays are the buffers behind them at the exit contents: the halves joined. -/
theorem arrays1_join (c : Dev nD) :
    (dat1 (VB m) c).arrays ((dat1 (VB m) c).arrAt · cfg1.N)
      ⊢ (Pipeline.arrBufs (Ix := Unit) (Name := ℕ) (U := UR sig nD τ) (Lvl := ℕ) spec1 c (VB3 m c) : sProp 𝕄) := by
  rw [arrBufs1_eq]
  unfold Dat.arrays
  rw [bigSep_W1]
  obtain ⟨s0, s1, s2, s3, s4, s5, s6⟩ := share1 (VB m) c
  rw [s0, s1, s2, s3, s4, s5, s6, arr1_pt, arr1_pt, arr1_pt, arr1_pt, arr1_pt, arr1_pt, arr1_pt]
  dsimp only
  rw [hG1 m c 0, hG1 m c 1, hG1 m c 2, hG1 m c 3, hG1 m c 4, hG1 m c 5, hG1 m c 6]
  iintro ⟨H0a, H0b, H1, H2a, H2b, H5, H6⟩
  ihave H0 := (pointsTo_share (PosShare.mem_left_op_right fullShare)).2 $$ [H0a H0b]
  · isplitl [H0a] <;> iassumption
  ihave H2 := (pointsTo_share (PosShare.mem_left_op_right fullShare)).2 $$ [H2a H2b]
  · isplitl [H2a] <;> iassumption
  isplitl [H0]; · iexact H0
  isplitl [H1]; · iexact H1
  isplitl [H2]; · iexact H2
  isplitl [H5]; · iexact H5
  iexact H6

/-- The unscoped buffers that are no array of the second region hold at its exit what they held at its entry. -/
theorem rest1_eq (c : Dev nD) :
    (Pipeline.unscopedRest (Ix := Unit) (Name := ℕ) (U := UR sig nD τ) (Lvl := ℕ) spec1 c (VB3 m c) : sProp 𝕄)
      = Pipeline.unscopedRest (Ix := Unit) (Name := ℕ) (U := UR sig nD τ) (Lvl := ℕ) spec1 c (VB m c) := by
  unfold Pipeline.unscopedRest
  refine bigSep_congr fun b hb => ?_
  rw [VB3_in m c b (fun h => (Finset.mem_sdiff.mp hb).2 (by
    rcases List.mem_cons.mp h with rfl | h
    · exact Finset.mem_image.mpr ⟨5, Finset.mem_univ _, rfl⟩
    · rcases List.mem_singleton.mp h with rfl
      exact Finset.mem_image.mpr ⟨6, Finset.mem_univ _, rfl⟩))]

set_option backward.isDefEq.respectTransparency.types false in
/-- The second region over the thread state: entered from every unscoped buffer after the label reshapes, left with the
    two result buffers at what the last grid point wrote back. The distance matrix and the label row are each read
    through two windows, each holding half of the array's share. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (V2 m (outs m) c) ∗ R c)
  post c := iprop(StableHlo.held (c : Thread nD τ) (Pipeline.ucRefs τ sig) (V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none, V2_outs]
    have hsp := Pipeline.unscopedBufs_split₀ (Ix := Unit) (Name := ℕ) (U := UR sig nD τ) (Lvl := ℕ) cfgs 1 winFacts₀1.arr_unscoped c (VB m c)
    rw [Pipeline.unscopedBufs_held] at hsp
    have hsp' := Entails.of_eq hsp
    iintro ⟨⟨Hub, Hp, HO⟩, -, -⟩
    ihave H := hsp' $$ Hub
    icases H with ⟨Ha, Hrest⟩
    ihave Ha' := arrays1_split m c $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hsp := Pipeline.unscopedBufs_split₀ (Ix := Unit) (Name := ℕ) (U := UR sig nD τ) (Lvl := ℕ) cfgs 1 winFacts₀1.arr_unscoped c (VB3 m c)
    rw [Pipeline.unscopedBufs_held, show Pipeline.unscopedRest (Ix := Unit) (Name := ℕ) (U := UR sig nD τ) (Lvl := ℕ) (cfgs 1).spec c (VB3 m c) = _ from rest1_eq m c] at hsp
    have hsp' := Entails.of_eq hsp.symm
    show iprop((dat1 (VB m) c).arrays ((dat1 (VB m) c).arrAt · cfg1.N) ∗ (dat1 (VB m) c).owesAt () (Fin.last cfg1.N)
      ∗ (∃ r, prngReg c r) ∗ Pipeline.unscopedRest (Ix := Unit) (Name := ℕ) (U := UR sig nD τ) (Lvl := ℕ) spec1 c (VB m c)) ⊢ _
    iintro ⟨Ha, HO, HY, Hrest⟩
    ihave Ha' := arrays1_join m c $$ Ha
    imodintro
    isplitl [Ha' Hrest]
    · iapply hsp'; isplitl [Ha'] <;> iassumption
    isplitl [HY]; · iexact HY
    unfold Pipeline.Dat.owesAt Pipeline.owesWithin
    icases HO with ⟨%W, -, HO⟩; iexists W; iexact HO

/-- What the launch leaves on a core besides its buffers makes the rest the segments carry: the generator register, and
    the core owing nothing. -/
theorem launch_rest (c : Dev nD) :
    iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄)) ⊢ (R c : sProp 𝕄) := by
  iintro ⟨-, HO, -, Hp, -⟩
  isplitl [Hp]; · iexists _; iexact Hp
  iexists ∅; iexact HO

set_option backward.isDefEq.respectTransparency.types false in
/-- THE RUN. At the compiled mesh, from any memory with zero counters, every weakly fair execution of @main terminates,
    nothing faulting; the result buffer ends at what the last host stretch computes from what the second region left in
    its two result arrays, and the two argument arrays end as launched. -/
theorem run_main : θ_run defs (onTc (τ := τ) (main (F := F))) ⟨m, fun _ => 0, ρ⟩ (fun r => ∀ c : Dev nD,
      r.2.mem ((c.tc : Thread nD τ).loc main_v6) = V4 m (outs m) c main_v6
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_cond m emb₁ () 𝒱₀ L lv (fun _ _ => rfl) ρ (outs m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      have hmono : (bigSep (Finset.univ : Finset (Dev nD)) fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ (BI.emp : sProp 𝕄)))
          ⊢ (bigSep (Finset.univ : Finset (Dev nD)) fun c : Dev nD => R c : sProp 𝕄) :=
        bigSep_mono fun c _ => launch_rest ρ c
      iintro ⟨H, -⟩
      imodintro
      iapply hmono
      iexact H)
    (hE2 := fun c => by
      iintro ⟨-, H⟩; iexact H)
    (reg0 m) (fun _ => .rfl) (fun _ => .rfl) (reg1 m) (fun _ => .rfl) (fun _ => .rfl)

end Cert.Kernel.Hand

end
-- ==== Proof.RunCond.lean ====
/-
  The program's run from one record per kernel region. @main is: the first kernel region, two host reshapes of the
  labels, the second kernel region, two host reshapes and a division. Given, for each region, a segment record entered
  from the buffers' contents before it and left at the contents after it, every weakly fair execution of @main
  terminates, the result buffer holds what the last host stretch computes from what the second region left, and the
  two argument arrays end as launched.
-/
import proofs.«108056_j2293512536517_2_alg».proof.Proof.Gen.KernelIdeal.Regions

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

variable (m : (ℓ : Loc nD τ sig) → Buf (Elt F) ℓ)

set_option backward.isDefEq.respectTransparency.types false in
/-- The run, given the regions' records: the result buffer ends at the last boundary's contents, the arguments as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c)) :
    θ_run defs (onTc (τ := τ) (main (F := F))) ⟨m, fun _ => 0, ρ⟩ (fun r => ∀ c : Dev nD,
      r.2.mem ((c.tc : Thread nD τ).loc main_v6) = V4 m outs c main_v6
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m outs c))
    (hch := fun c => ⟨hpre0 c, hpost0 c, hpre1 c, hpost1 c, sep_mono .rfl (hE2 c)⟩)
    (hinit := ?_) (QY := fun c s => s.mem ((c.tc : Thread nD τ).loc main_v6) = V4 m outs c main_v6 ∧ s.mem ((c.tc : Thread nD τ).loc main_arg0) = m ((c.tc : Thread nD τ).loc main_arg0) ∧ s.mem ((c.tc : Thread nD τ).loc main_arg1) = m ((c.tc : Thread nD τ).loc main_arg1))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V4 m outs c) s') $$ [Hh HSI]
    · isplitl [Hh] <;> iassumption
    icases Hr with ⟨%h, HSI⟩
    imodintro
    isplitr
    · ipureintro
      exact ⟨h (Proc.devRef .tc main_v6) (Finset.mem_filter.mpr ⟨StableHlo.devRef_mem_tcRefs main_v6, by decide⟩),
        (h (Proc.devRef .tc main_arg0) (Finset.mem_filter.mpr ⟨StableHlo.devRef_mem_tcRefs main_arg0, by decide⟩)).trans (V4_main_arg0 m outs c),
        (h (Proc.devRef .tc main_arg1) (Finset.mem_filter.mpr ⟨StableHlo.devRef_mem_tcRefs main_arg1, by decide⟩)).trans (V4_main_arg1 m outs c)⟩
    · iexact HSI

end Cert.KernelIdeal.Hand

end
-- ==== Proof.R1Shares.lean ====
/-
  The second kernel reads the distance matrix through two windows (the anchor-positive tile and the anchor-negative tile)
  and the label row through two windows; each of the two windows on one array holds half of the array's share.
-/
import proofs.«108056_j2293512536517_2_alg».proof.Proof.Gen.KernelIdeal.Launch

noncomputable section

namespace Cert.KernelIdeal.Hand

open Idealize.ShloMosaic Idealize.SL Idealize.SL.RA

/-- The share of its array each input window of the second kernel holds: the two windows on the distance matrix
    (0 and 1) and the two on the label row (3 and 4) a half each, the label column's window (2) the whole. -/
def q1 : Fin 7 → PosShare TreeShare
  | ⟨0, _⟩ => fullShare.left
  | ⟨1, _⟩ => fullShare.right
  | ⟨2, _⟩ => fullShare
  | ⟨3, _⟩ => fullShare.left
  | ⟨4, _⟩ => fullShare.right
  | ⟨5, _⟩ => fullShare
  | ⟨6, _⟩ => fullShare

end Cert.KernelIdeal.Hand

end
-- ==== Proof.R0Body.lean ====
/- REGION 0 of @main (the pairwise-distance kernel), its separation-logic half: at a parameter `V`, the buffer
   contents when the region is entered, each window's block at the region's one point, what the body leaves in the
   output window's buffer (its one store over the payload of its one input load), the body's triple, the proof data
   and the body obligation. Generic in the float instance. -/
import proofs.«108056_j2293512536517_2_alg».proof.Proof.Gen.KernelIdeal.Launch
import proofs.«108056_j2293512536517_2_alg».proof.Proof.Gen.KernelIdeal.Skeleton
import proofs.«108056_j2293512536517_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): the window is uncut and
    never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole input block: the rectangle of the body's one load of its input. -/
abbrev r0_0 : Rect S512x256 := Rect.unit (s := S512x256) ![0, 0] S512x256.size inb_S512x256_S512x256_0_0
/-- The whole output block: the rectangle of the body's one store (and of its unused load of the output). -/
abbrev r0_1 : Rect S512x512 := Rect.unit (s := S512x512) ![0, 0] S512x512.size inb_S512x512_S512x512_0_0

/-! ## What the body leaves in the output window's buffer -/

/-- Window 1's staging buffer after the body, from the input window's block: its one store as a piece, over the
    payload of the one load. -/
def out0_1 (x0 : Vec F S512x256 .f32) : Vec F S512x512 .f32 :=
  View.canon [⟨r0_1, k0_pay1 (View.ld x0 r0_0)⟩]

/-- The store tiles the buffer (checked by evaluation), so it covers it. -/
theorem cover0_1 (p0 : Vec F S512x512 .f32) (y : S512x512.Idx) :
    ∃ pc ∈ ([⟨r0_1, p0⟩] : List (View.Piece (Elt F) S512x512 .f32)), y ∈ pc.1.set :=
  View.cover_of_tiled [⟨r0_1, p0⟩] S512x512.size (by rfl) y

/-! ## The body's triple -/

set_option maxHeartbeats 1000000 in
/-- The kernel body on whole staging memrefs, the input's at read contents `x0` and the output's at anything, runs to
    the continuation holding the input's as it was and the output's at `out0_1` of the input's. The body also reads
    the output buffer before storing into it; the value read is not used. -/
theorem sound_kernel0 (c : Dev nD) (E : Set ℕ) (i : grid0.Coords) (arg1 : Memref sig .tc .vmem S512x256 .f32) (harg1 : arg1.IsWhole) (arg2 : Memref sig .tc .vmem S512x512 .f32) (harg2 : arg2.IsWhole)
    (x0 : Vec F S512x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__pairwise_dist_kernel i arg1 harg1 arg2 harg2) K := by
  simp only [cc0__pairwise_dist_kernel_eq_skeleton]; unfold cc0__pairwise_dist_kernel_skel
  unfold owns
  iintro ⟨⟨%f0, %hf0, H0⟩, ⟨%d1, %f1, %hf1, H1⟩, Hk⟩
  subst hf0
  subst hf1
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of pipeline 0 on core `c`: the arrays as the region finds them (`V`); after the body at
    point `t` the input's buffer at its block and the output's at `out0_1` of the input block; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block (`before0_0`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.R0Value.lean ====
/- REGION 0 of @main (the pairwise-distance kernel), its value: the one store covers the whole output buffer and
   the one load reads the whole input block, so what the body leaves is the payload of its input; the region has one
   point whose blocks are the whole arrays, so the output array after the region is the payload of the whole input
   array, and the input array is as the region found it. -/
import proofs.«108056_j2293512536517_2_alg».proof.Proof.R0Body
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The body's rectangles start at the origin. -/
theorem hz0 : (![0, 0] : Fin 2 → Nat) = fun _ => 0 := funext fun a => by fin_cases a <;> rfl

/-- What the body leaves in the output buffer is the payload of the input block: the one store covers the whole
    buffer, the one load reads the whole block. -/
theorem out0_1_eq (x0 : Vec F S512x256 .f32) : out0_1 x0 = k0_pay1 x0 := by
  unfold out0_1
  rw [View.canon_unit_zero hz0]
  exact congrArg k0_pay1 (View.ld_unit_zero (S := S512x256) hz0 _ x0)

section Regions
variable (V : (c : Dev nD) → (b : Ref sig .tc) → Buf (Elt F) ((c : Thread nD τ).loc b))

/-- The printed index maps, decided over the grid: at the one point both windows' blocks sit at the origin. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- Window 0's block at a point, read back, is the whole input array. -/
theorem iblk0_0_eq (c : Dev nD) (t : Fin cfg0.N) : (iblk0 V c 0 t : S512x256.Idx → Elt F .f32) = V c main_arg0 := by
  obtain ⟨e0, e1, -, -⟩ := idx_facts0 t
  funext y
  show V c main_arg0 (((cfg0.win 0).blk t).view.emb y) = V c main_arg0 y
  refine congrArg (V c main_arg0) ?_
  funext a; apply Fin.ext
  match a with
  | ⟨0, _⟩ => show win0_0.index t (0 : Fin 2) * 512 + 1 * (y 0).val = (y 0).val; omega
  | ⟨1, _⟩ => show win0_0.index t (1 : Fin 2) * 256 + 1 * (y 1).val = (y 1).val; omega

/-- What a point writes back is its block of the payload of the whole input array. -/
theorem flushed0_1_eq (c : Dev nD) (t : Fin cfg0.N) :
    (dat0 V c).flushed 1 t = ((cfg0.win 1).blk t).view.read (Elt F) (k0_pay1 (V c main_arg0) : Vec F S512x512 .f32) := by
  show (cfg0.win 1).cut (grid0.coords t) ((dat0 V c).after 1 t) = _
  rw [after0_1, out0_1_eq, iblk0_0_eq]
  obtain ⟨-, -, e2, e3⟩ := idx_facts0 t
  funext j
  show k0_pay1 (V c main_arg0) j = k0_pay1 (V c main_arg0) (((cfg0.win 1).blk t).view.emb j)
  refine congrArg (k0_pay1 (V c main_arg0)) ?_
  funext a; apply Fin.ext
  match a with
  | ⟨0, _⟩ => show (j 0).val = win0_1.index t (0 : Fin 2) * 512 + 1 * (j 0).val; omega
  | ⟨1, _⟩ => show (j 1).val = win0_1.index t (1 : Fin 2) * 512 + 1 * (j 1).val; omega

/-- An index of the output array is in a point's block iff each coordinate is in the block's range on its axis. -/
theorem mem_blk0_1 (t : Fin cfg0.N) (i : S512x512.Idx) :
    i ∈ ((cfg0.win 1).blk t).view.set ↔ ∀ a : Fin 2, win0_1.index t a * S512x512.size a ≤ (i a).val ∧ (i a).val < win0_1.index t a * S512x512.size a + S512x512.size a := by
  show i ∈ ((View.whole main_v0).slice (win0_1.rect t)).set ↔ _
  rw [View.set_slice_whole, Rect.mem_set_unit]
  exact Iff.rfl

/-- The one point's block covers the output array. -/
theorem cover0_1_arr (i : S512x512.Idx) :
    ∃ t : Fin cfg0.N, (cfg0.win 1).flush t = true ∧ i ∈ ((cfg0.win 1).blk t).view.set := by
  refine ⟨t0_0, flush0_1 t0_0, ?_⟩
  obtain ⟨-, -, e2, e3⟩ := idx_facts0 t0_0
  rw [mem_blk0_1]
  intro a
  match a with
  | ⟨0, _⟩ => show win0_1.index t0_0 (0 : Fin 2) * 512 ≤ (i 0).val ∧ (i 0).val < win0_1.index t0_0 (0 : Fin 2) * 512 + 512; have hi0 : (i 0).val < 512 := (i 0).isLt; omega
  | ⟨1, _⟩ => show win0_1.index t0_0 (1 : Fin 2) * 512 ≤ (i 1).val ∧ (i 1).val < win0_1.index t0_0 (1 : Fin 2) * 512 + 512; have hi1 : (i 1).val < 512 := (i 1).isLt; omega

/-- The output array after the region's one point is the payload of the whole input array. -/
theorem final0 (c : Dev nD) : (dat0 V c).arrAt 1 cfg0.N = (k0_pay1 (V c main_arg0) : Vec F S512x512 .f32) :=
  (dat0 V c).arrAt_eq_of_cover 1 (k0_pay1 (V c main_arg0) : Vec F S512x512 .f32) (fun t _ => flushed0_1_eq V c t) (cover0_1_arr)

/-- The input array is never written back: after the region it is as the region found it. -/
theorem kept0 (c : Dev nD) : (dat0 V c).arrAt 0 cfg0.N = V c main_arg0 :=
  ((dat0 V c).arrAt_in 0 rfl cfg0.N).trans (A_eq0 V c 0)

end Regions

end Cert.KernelIdeal.Hand

end
-- ==== Proof.R1Runs.lean ====
/-
  The second kernel's body in its two control cases. At every point of the 16 x 4 x 4 grid the body adds to two
  one-element accumulators the masked hinge sum and the mask count of the point's tile of triplets; at the first
  point only it stores zero into both before adding. Here: the two payloads as functions of the five input blocks
  and of what the accumulator held (`step5`, `step6`), the condition of the body's one conditional in closed form
  over the 256 points, and the body's triple in each case, on any whole staging buffers: the inputs are left as they
  were and each accumulator ends at its payload, over zero at the first point and over its previous contents at every
  other. Everything is generic in the float instance.
-/
import proofs.«108056_j2293512536517_2_alg».proof.Proof.Gen.KernelIdeal.Launch
import proofs.«108056_j2293512536517_2_alg».proof.Proof.Gen.KernelIdeal.Skeleton
import proofs.«108056_j2293512536517_2_alg».proof.Proof.Gen.KernelIdeal.Points
import proofs.«108056_j2293512536517_2_alg».proof.Proof.R1Shares
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The payload the body adds to the first accumulator at a point: the masked hinge sum of the tile, over what
    the accumulator held. -/
def step5 (i : grid1.Coords) (x0 x1 : Vec F S32x128 .f32) (x2 : Vec F S32x1 .i32) (x3 x4 : Vec F S1x128 .i32) (prev : Vec F S1x1 .f32) : Vec F S1x1 .f32 :=
  k1_pay2 (k1_pay6 x0) (k1_pay7 x1) (k1_pay9 x2 x4) (k1_pay10 i x2 x3) prev

/-- The payload the body adds to the second accumulator at a point: the mask count of the tile, over what the
    accumulator held. -/
def step6 (i : grid1.Coords) (x2 : Vec F S32x1 .i32) (x3 x4 : Vec F S1x128 .i32) (prev : Vec F S1x1 .f32) : Vec F S1x1 .f32 :=
  k1_pay3 (k1_pay9 x2 x4) (k1_pay10 i x2 x3) prev

/-- The condition of the body's one conditional: the point is the first in all three coordinates (the scalar
    chain over the grid coordinates, substituted). -/
abbrev cond1_0 (i : grid1.Coords) : Prop :=
  (Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32) = 1#1

/-- It holds at the first point only: decided over the 256 points. -/
theorem hcond1_0 : ∀ t : Fin cfg1.N, cond1_0 (grid1.coords t) ↔ t.val % 256 = 0 :=
  (by decide +kernel : ∀ t : Fin grid1.N, cond1_0 (grid1.coords t) ↔ t.val % 256 = 0)

/-- The zero offsets of a whole-buffer access, however spelt. -/
theorem hz2 : (![0, 0] : Fin 2 → Nat) = fun _ => 0 := funext fun a => by fin_cases a <;> rfl

/-- A list of writes whose last is a store through the whole buffer covers the buffer. -/
theorem cover_unit_zero {S : Shape} {e : EltTy} {Val : EltTy → Type} {off : Fin S.rank → Nat} (h : off = fun _ => 0)
    (inb : ∀ a, off a + S.size a ≤ S.size a) (w : S.Idx → Val e) (L : List (View.Piece Val S e)) (y : S.Idx) :
    ∃ p ∈ ((⟨Rect.unit off S.size inb, w⟩ : View.Piece Val S e) :: L), y ∈ p.1.set :=
  ⟨_, List.Mem.head _, View.mem_set_unit_zero h inb y⟩

set_option maxHeartbeats 1000000 in
/-- THE FIRST POINT. On whole staging buffers, the five inputs' at their contents and the two accumulators' at
    anything, the body runs to the continuation holding the inputs' as they were and each accumulator at its tile's
    sum over zero: the conditional is taken, the accumulators are zeroed, and the value each is then added to is
    the zero just stored. -/
theorem sound_kernel1_A (c : Dev nD) (E : Set ℕ) (i : grid1.Coords) (arg3 : Memref sig .tc .vmem S32x128 .f32) (harg3 : arg3.IsWhole) (arg4 : Memref sig .tc .vmem S32x128 .f32) (harg4 : arg4.IsWhole) (arg5 : Memref sig .tc .vmem S32x1 .i32) (harg5 : arg5.IsWhole) (arg6 : Memref sig .tc .vmem S1x128 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S1x1 .f32) (harg9 : arg9.IsWhole) (hc0 : cond1_0 i)
    (x0 x1 : Vec F S32x128 .f32) (x2 : Vec F S32x1 .i32) (x3 x4 : Vec F S1x128 .i32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (step5 i x0 x1 x2 x3 x4 k1_pay4)
            ∗ owns (c : Thread nD τ) arg9 fullShare (step6 i x2 x3 x4 k1_pay5)) -∗ K ⟨⟩))
      ⊢ wp frame (wpE (defs₀ (F := F)) Variants.none c none) E (cc1_kernel i arg3 harg3 arg4 harg4 arg5 harg5 arg6 harg6 arg7 harg7 arg8 harg8 arg9 harg9) K := by
  simp only [cc1_kernel_eq_skeleton]; unfold cc1_kernel_skel
  simp only [k1_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  obtain rfl := harg3.eq_unread hf3; obtain rfl := harg4.eq_unread hf4; obtain rfl := harg5.eq_unread hf5
  obtain rfl := harg6.eq_unread hf6; obtain rfl := harg7.eq_unread hf7
  sl_exec (disch := first | exact hc0)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    sl_unfold_words
    refine (View.read_writes_eq_canon _ _ _ (cover_unit_zero (S := S1x1) hz2 _ _ _)).trans ?_
    rw [View.canon_cons_unit_zero (S := S1x1) hz2, View.readCov_unit_zero (S := S1x1) _ hz2]
    simp only [View.readAt_eq_ld, harg3.read_unread, harg4.read_unread, harg5.read_unread, harg6.read_unread, harg7.read_unread,
      View.ld_unit_zero (S := S32x128) hz2, View.ld_unit_zero (S := S32x1) hz2, View.ld_unit_zero (S := S1x128) hz2]
    rfl
  iexists _; isplitr
  swap; · iexact H9
  ipureintro
  sl_unfold_words
  refine (View.read_writes_eq_canon _ _ _ (cover_unit_zero (S := S1x1) hz2 _ _ _)).trans ?_
  rw [View.canon_cons_unit_zero (S := S1x1) hz2, View.readCov_unit_zero (S := S1x1) _ hz2]
  simp only [View.readAt_eq_ld, harg3.read_unread, harg4.read_unread, harg5.read_unread, harg6.read_unread, harg7.read_unread,
      View.ld_unit_zero (S := S32x128) hz2, View.ld_unit_zero (S := S32x1) hz2, View.ld_unit_zero (S := S1x128) hz2]
  rfl

set_option maxHeartbeats 1000000 in
/-- EVERY LATER POINT. The conditional is not taken: each accumulator ends at its tile's sum over what it held. -/
theorem sound_kernel1_B (c : Dev nD) (E : Set ℕ) (i : grid1.Coords) (arg3 : Memref sig .tc .vmem S32x128 .f32) (harg3 : arg3.IsWhole) (arg4 : Memref sig .tc .vmem S32x128 .f32) (harg4 : arg4.IsWhole) (arg5 : Memref sig .tc .vmem S32x1 .i32) (harg5 : arg5.IsWhole) (arg6 : Memref sig .tc .vmem S1x128 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S1x1 .f32) (harg9 : arg9.IsWhole) (hc0 : ¬cond1_0 i)
    (x0 x1 : Vec F S32x128 .f32) (x2 : Vec F S32x1 .i32) (x3 x4 : Vec F S1x128 .i32) (p5 p6 : Vec F S1x1 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ owns (c : Thread nD τ) arg8 fullShare p5 ∗ owns (c : Thread nD τ) arg9 fullShare p6
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (step5 i x0 x1 x2 x3 x4 p5)
            ∗ owns (c : Thread nD τ) arg9 fullShare (step6 i x2 x3 x4 p6)) -∗ K ⟨⟩))
      ⊢ wp frame (wpE (defs₀ (F := F)) Variants.none c none) E (cc1_kernel i arg3 harg3 arg4 harg4 arg5 harg5 arg6 harg6 arg7 harg7 arg8 harg8 arg9 harg9) K := by
  simp only [cc1_kernel_eq_skeleton]; unfold cc1_kernel_skel
  simp only [k1_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5
  obtain rfl := harg6.eq_unread hf6; obtain rfl := harg7.eq_unread hf7
  obtain rfl := harg8.eq_unread hf8; obtain rfl := harg9.eq_unread hf9
  sl_exec (disch := first | exact hc0)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    sl_unfold_words
    refine (View.read_writes_eq_canon _ _ _ (cover_unit_zero (S := S1x1) hz2 _ _ _)).trans ?_
    rw [View.canon_unit_zero (S := S1x1) hz2]
    simp only [View.readAt_eq_ld, harg3.read_unread, harg4.read_unread, harg5.read_unread, harg6.read_unread, harg7.read_unread,
      View.ld_unit_zero (S := S32x128) hz2, View.ld_unit_zero (S := S32x1) hz2, View.ld_unit_zero (S := S1x128) hz2, harg8.read_unread, View.ld_unit_zero (S := S1x1) hz2]
    rfl
  iexists _; isplitr
  swap; · iexact H9
  ipureintro
  sl_unfold_words
  refine (View.read_writes_eq_canon _ _ _ (cover_unit_zero (S := S1x1) hz2 _ _ _)).trans ?_
  rw [View.canon_unit_zero (S := S1x1) hz2]
  simp only [View.readAt_eq_ld, harg3.read_unread, harg4.read_unread, harg5.read_unread, harg6.read_unread, harg7.read_unread,
      View.ld_unit_zero (S := S32x128) hz2, View.ld_unit_zero (S := S32x1) hz2, View.ld_unit_zero (S := S1x128) hz2, harg9.read_unread, View.ld_unit_zero (S := S1x1) hz2]
  rfl

end Cert.KernelIdeal.Hand

end
-- ==== Proof.R1Body.lean ====
/-
  The second kernel's pipeline, its separation-logic half: the proof data over the buffer contents `V` the region is
  entered with, and the body obligation at every point of the 16 x 4 x 4 grid. After the body at point `t` each of
  the five input windows' staging buffers holds its block of its array, and the two accumulators' hold the running
  sums `acc5`, `acc6`: the first point's payload over zero, every later point's over what the point before left
  (the accumulators are written back at the last point only, so nothing touches them in between). Generic in the
  float instance.
-/
import proofs.«108056_j2293512536517_2_alg».proof.Proof.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The two running sums, point by point -/

/-- What the first accumulator holds after the body at position `n`: the first point adds its tile's masked hinge
    sum to zero, every later point adds its own to what the point before left. -/
def acc5 (c : Dev nD) : (n : ℕ) → n < cfg1.N → Vec F S1x1 .f32
  | 0, h => step5 (grid1.coords ⟨0, h⟩) (iblk1 V c 0 ⟨0, h⟩) (iblk1 V c 1 ⟨0, h⟩) (iblk1 V c 2 ⟨0, h⟩) (iblk1 V c 3 ⟨0, h⟩) (iblk1 V c 4 ⟨0, h⟩) k1_pay4
  | n + 1, h => step5 (grid1.coords ⟨n + 1, h⟩) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (acc5 c n (Nat.lt_of_succ_lt h))

/-- What the second accumulator holds after the body at position `n`: the mask counts of the tiles so far. -/
def acc6 (c : Dev nD) : (n : ℕ) → n < cfg1.N → Vec F S1x1 .f32
  | 0, h => step6 (grid1.coords ⟨0, h⟩) (iblk1 V c 2 ⟨0, h⟩) (iblk1 V c 3 ⟨0, h⟩) (iblk1 V c 4 ⟨0, h⟩) k1_pay5
  | n + 1, h => step6 (grid1.coords ⟨n + 1, h⟩) (iblk1 V c 2 ⟨n + 1, h⟩) (iblk1 V c 3 ⟨n + 1, h⟩) (iblk1 V c 4 ⟨n + 1, h⟩) (acc6 c n (Nat.lt_of_succ_lt h))

/-- The first accumulator at the first point: the tile's sum over zero. -/
theorem acc5_A (c : Dev nD) (t : Fin cfg1.N) (h0 : t.val % 256 = 0) :
    acc5 V c t.val t.isLt = step5 (grid1.coords t) (iblk1 V c 0 t) (iblk1 V c 1 t) (iblk1 V c 2 t) (iblk1 V c 3 t) (iblk1 V c 4 t) k1_pay4 := by
  have hN : t.val < 256 := lt_of_lt_of_eq t.isLt (show cfg1.N = 256 from N_1)
  obtain ⟨n, hn⟩ := t
  cases n with
  | zero => exact rfl
  | succ n => exact (by exfalso; dsimp only at h0 hN; omega)

/-- The first accumulator at a later point: the tile's sum over what the point before left. -/
theorem acc5_B (c : Dev nD) (t : Fin cfg1.N) (h0 : ¬t.val % 256 = 0) :
    acc5 V c t.val t.isLt = step5 (grid1.coords t) (iblk1 V c 0 t) (iblk1 V c 1 t) (iblk1 V c 2 t) (iblk1 V c 3 t) (iblk1 V c 4 t) (acc5 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-- The second accumulator at the first point. -/
theorem acc6_A (c : Dev nD) (t : Fin cfg1.N) (h0 : t.val % 256 = 0) :
    acc6 V c t.val t.isLt = step6 (grid1.coords t) (iblk1 V c 2 t) (iblk1 V c 3 t) (iblk1 V c 4 t) k1_pay5 := by
  have hN : t.val < 256 := lt_of_lt_of_eq t.isLt (show cfg1.N = 256 from N_1)
  obtain ⟨n, hn⟩ := t
  cases n with
  | zero => exact rfl
  | succ n => exact (by exfalso; dsimp only at h0 hN; omega)

/-- The second accumulator at a later point. -/
theorem acc6_B (c : Dev nD) (t : Fin cfg1.N) (h0 : ¬t.val % 256 = 0) :
    acc6 V c t.val t.isLt = step6 (grid1.coords t) (iblk1 V c 2 t) (iblk1 V c 3 t) (iblk1 V c 4 t) (acc6 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-! ## The pipeline's proof data -/

/-- The proof data of the second kernel's pipeline on core `c`: the arrays as the region finds them (`V`); after the
    body at point `t` each input's buffer at its block and the two outputs' at the running sums; the invariant the
    scoped rest and the generator register; nothing owed; the two windows on one array a half share each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => acc5 V c t.val t.isLt
    | ⟨6, _⟩ => acc6 V c t.val t.isLt
  Φ _ := Pipeline.ΦA spec1 c
  q := q1
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = acc5 V c t.val t.isLt := by dsimp only [dat1]
theorem after1_6 (c : Dev nD) (t : Fin cfg1.N) : (dat1 V c).after 6 t = acc6 V c t.val t.isLt := by dsimp only [dat1]

/-- Each input's current staging buffer holds its block at every point, fetched there or not: unfetched, the block
    index has not moved since the point that fetched it, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-- At a point after the first the first accumulator's staging buffer holds what the body left at the point before:
    the buffer is written back at the last point only. -/
theorem before1_5_B (c : Dev nD) (t : Fin cfg1.N) (h0 : ¬t.val % 256 = 0) (d) :
    (dat1 V c).before 5 t d = acc5 V c (t.val - 1) (Nat.lt_of_le_of_lt (Nat.sub_le _ _) t.isLt) := by
  have hN : t.val < 256 := lt_of_lt_of_eq t.isLt (show cfg1.N = 256 from N_1)
  rw [Dat.before_out_kept _ 5 rfl t (by omega) (Bool.eq_false_iff.mpr fun h => by have := (flush1_5 _).mp h; dsimp only at this; omega)
    (fun _ => rfl) (fun _ _ => rfl)]
  dsimp only [dat1]

/-- Likewise the second accumulator's. -/
theorem before1_6_B (c : Dev nD) (t : Fin cfg1.N) (h0 : ¬t.val % 256 = 0) (d) :
    (dat1 V c).before 6 t d = acc6 V c (t.val - 1) (Nat.lt_of_le_of_lt (Nat.sub_le _ _) t.isLt) := by
  have hN : t.val < 256 := lt_of_lt_of_eq t.isLt (show cfg1.N = 256 from N_1)
  rw [Dat.before_out_kept _ 6 rfl t (by omega) (Bool.eq_false_iff.mpr fun h => by have := (flush1_6 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 800000 in
/-- The body at any point: the inputs' buffers hold their blocks; at the first point the two accumulators are
    zeroed before they are added to, at every other point they hold what the point before left; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  by_cases h0 : t.val % 256 = 0
  · rw [acc5_A V c t h0, acc6_A V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel1_A c Set.univ (grid1.coords t) _ _ _ _ _ _ _ _ _ _ _ _ _ _ ((hcond1_0 t).mpr h0)
      (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [acc5_B V c t h0, acc6_B V c t h0]
    simp only [before1_5_B V c t h0, before1_6_B V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel1_B c Set.univ (grid1.coords t) _ _ _ _ _ _ _ _ _ _ _ _ _ _ (fun h => h0 ((hcond1_0 t).mp h))
      (iblk1 V c 0 t) (iblk1 V c 1 t) (iblk1 V c 2 t) (iblk1 V c 3 t) (iblk1 V c 4 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.Run.lean ====
/-
  The program's run, region by region. @main is: the pairwise-distance kernel (one grid point: the whole embedding array
  in, the whole distance matrix out); two reshapes of the label vector to a column and a row; the triplet-reduction
  kernel over the 16 × 4 × 4 grid, which reads the distance matrix through two windows (the anchor-positive tile and the
  anchor-negative tile) and the label row through two windows, and accumulates the loss and the count in two [1,1]
  results written back at the last point; two reshapes to scalars and their quotient. Here: the buffers' contents at the
  boundaries between these five items, each region as a segment record over its proof data (for the second region the
  two windows on one array each hold half of the array's share at entry and give it back at exit), and the run:
  every execution terminates, the result is the last stretch's value of what the second region left, the arguments end
  as launched. Generic in the float instance.
-/
import proofs.«108056_j2293512536517_2_alg».proof.Proof.RunCond
import proofs.«108056_j2293512536517_2_alg».proof.Proof.R1Shares
import proofs.«108056_j2293512536517_2_alg».proof.Proof.Gen.KernelIdeal.Skeleton
import proofs.«108056_j2293512536517_2_alg».proof.Proof.Gen.KernelIdeal.Points
import proofs.«108056_j2293512536517_2_alg».proof.Proof.R0Body
import proofs.«108056_j2293512536517_2_alg».proof.Proof.R0Value
import proofs.«108056_j2293512536517_2_alg».proof.Proof.R1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers as launched, read at the TensorCore's references: what the first region is entered from. -/
abbrev VA : (c : Dev nD) → (b : Ref sig .tc) → Buf (Elt F) ((c : Thread nD τ).loc b) := fun c b => V0 m c b

/-- What the first region leaves in the distance matrix's array. -/
def o1 (c : Dev nD) : Buf (Elt F) ((c : Thread nD τ).loc main_v0) := (dat0 (VA m) c).arrAt 1 cfg0.N

/-- The contents the regions leave, the first region's only. -/
def outsA : Outs (F := F) := fun _ r c => if h : r = main_v0 then h ▸ o1 m c else m ((c : Thread nD τ).loc r)

theorem outsA_v0 (c : Dev nD) : outsA m 1 main_v0 c = o1 m c := by
  unfold outsA; rw [dif_pos rfl]

/-- The buffers when the second region is entered: the distance matrix written, the labels reshaped. -/
abbrev VB : (c : Dev nD) → (b : Ref sig .tc) → Buf (Elt F) ((c : Thread nD τ).loc b) := fun c b => V2 m (outsA m) c b

def o5 (c : Dev nD) : Buf (Elt F) ((c : Thread nD τ).loc main_v3_0) := (dat1 (VB m) c).arrAt 5 cfg1.N
def o6 (c : Dev nD) : Buf (Elt F) ((c : Thread nD τ).loc main_v3_1) := (dat1 (VB m) c).arrAt 6 cfg1.N

/-- The contents both regions leave. -/
def outs : Outs (F := F) := fun _ r c =>
  if h : r = main_v0 then h ▸ o1 m c
  else if h : r = main_v3_0 then h ▸ o5 m c
  else if h : r = main_v3_1 then h ▸ o6 m c
  else m ((c : Thread nD τ).loc r)

theorem outs_v0 (c : Dev nD) : outs m 1 main_v0 c = o1 m c := by
  unfold outs; rw [dif_pos rfl]
theorem outs_v3_0 (c : Dev nD) : outs m 3 main_v3_0 c = o5 m c := by
  unfold outs; rw [dif_neg (by decide), dif_pos rfl]
theorem outs_v3_1 (c : Dev nD) : outs m 3 main_v3_1 c = o6 m c := by
  unfold outs; rw [dif_neg (by decide), dif_neg (by decide), dif_pos rfl]

theorem V1_outs (c : Dev nD) : V1 m (outs m) c = V1 m (outsA m) c := by
  unfold V1; rw [outs_v0, outsA_v0]
theorem V2_outs (c : Dev nD) : V2 m (outs m) c = V2 m (outsA m) c := by
  unfold V2; rw [V1_outs]

end Cert.KernelIdeal.Hand

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first region's exit contents read at the TensorCore's references. -/
abbrev VA1 : (c : Dev nD) → (b : Ref sig .tc) → Buf (Elt F) ((c : Thread nD τ).loc b) := fun c b => V1 m (outs m) c b
/-- The second region's exit contents read at the TensorCore's references. -/
abbrev VB3 : (c : Dev nD) → (b : Ref sig .tc) → Buf (Elt F) ((c : Thread nD τ).loc b) := fun c b => V3 m (outs m) c b

theorem VA1_v0 (c : Dev nD) : VA1 m c main_v0 = o1 m c := by
  show Function.update (V0 m c) main_v0 (outs m 1 main_v0 c) main_v0 = _
  rw [Function.update_self, outs_v0]

/-- At the first region's exit each of its arrays holds what the pipeline leaves, -/
theorem hF0 (c : Dev nD) (w : Fin cfg0.W) : (dat0 (VA m) c).arrAt w cfg0.N = VA1 m c (Pipeline.arrRef spec0 w) := by
  match w with
  | ⟨0, _⟩ => exact (kept0 (VA m) c).trans (V1_of m (outs m) c main_arg0 (by decide)).symm
  | ⟨1, _⟩ => exact (VA1_v0 m c).symm
/-- and every other buffer what it held at entry. -/
theorem hrest0 (c : Dev nD) : ∀ b, b ∉ Finset.univ.image (Pipeline.arrRef spec0) → VA1 m c b = VA m c b :=
  fun b hb => V1_of m (outs m) c b (by
    intro h
    refine hb (Finset.mem_image.mpr ⟨1, Finset.mem_univ _, ?_⟩)
    rcases List.mem_singleton.mp h with rfl
    rfl)

/-- Every pipeline's proof data, each at its region's entry contents. -/
def pdats : (p : Fin 2) → (c : Dev nD) → Dat τ (Elt F) Unit ℕ (UR sig nD τ) ℕ (cfgs p) c
  | ⟨0, _⟩ => fun c => dat0 (VA m) c
  | ⟨1, _⟩ => fun c => dat1 (VB m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

set_option backward.isDefEq.respectTransparency.types false in
/-- The first region over the thread state: entered from every unscoped buffer as launched, left with the distance
    matrix's array at what the pipeline wrote back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (VA1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A window's whole array, held at a share: the points-to of the buffer behind it. -/
theorem arr1_pt (c : Dev nD) (w : Fin 7) (q : PosShare TreeShare) (G : Buf (Elt F) ((cfg1.win w).arr.view.loc (c.tc : Thread nD τ))) :
    ((cfg1.win w).arr.view.loc (c.tc : Thread nD τ) ↦[(cfg1.win w).arr.view.set]{q} G : sProp 𝕄)
      = (((c.tc : Thread nD τ).loc (Pipeline.arrRef spec1 w)) ↦{q} G : sProp 𝕄) := by
  rw [(arr_whole1 w).set_eq_univ]

/-- The shares the second region's proof data hold their arrays at. -/
theorem share1 (V : (c : Dev nD) → (b : Ref sig .tc) → Buf (Elt F) ((c : Thread nD τ).loc b)) (c : Dev nD) :
    (dat1 V c).share 0 = fullShare.left ∧ (dat1 V c).share 1 = fullShare.right ∧ (dat1 V c).share 2 = fullShare
      ∧ (dat1 V c).share 3 = fullShare.left ∧ (dat1 V c).share 4 = fullShare.right ∧ (dat1 V c).share 5 = fullShare
      ∧ (dat1 V c).share 6 = fullShare :=
  ⟨rfl, rfl, rfl, rfl, rfl, rfl, rfl⟩

/-- The buffers behind the second region's arrays, one by one: the distance matrix, the label column, the label row,
    the two results. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0) ↦{fullShare} V main_v0) ∗ (((c : Thread nD τ).loc main_v1) ↦{fullShare} V main_v1)
          ∗ (((c : Thread nD τ).loc main_v2) ↦{fullShare} V main_v2) ∗ (((c : Thread nD τ).loc main_v3_0) ↦{fullShare} V main_v3_0)
          ∗ (((c : Thread nD τ).loc main_v3_1) ↦{fullShare} V main_v3_1)) :=
  bigSep_eq_bigSepL_of_eq [main_v0, main_v1, main_v2, main_v3_0, main_v3_1] (by decide) (by decide) _

/-- At entry the buffers behind the second region's arrays are its windows' arrays: the distance matrix and the label
    row each split in two halves, one per window on it. -/
theorem arrays1_split (c : Dev nD) :
    (Pipeline.arrBufs (Ix := Unit) (Name := ℕ) (U := UR sig nD τ) (Lvl := ℕ) spec1 c (VB m c) : sProp 𝕄)
      ⊢ (dat1 (VB m) c).arrays ((dat1 (VB m) c).arrAt · 0) := by
  rw [arrBufs1_eq]
  unfold Dat.arrays
  rw [bigSep_W1]
  obtain ⟨s0, s1, s2, s3, s4, s5, s6⟩ := share1 (VB m) c
  rw [s0, s1, s2, s3, s4, s5, s6, arr1_pt, arr1_pt, arr1_pt, arr1_pt, arr1_pt, arr1_pt, arr1_pt]
  iintro ⟨H0, H1, H2, H5, H6⟩
  ihave H0' := (pointsTo_share (PosShare.mem_left_op_right fullShare)).1 $$ H0
  icases H0' with ⟨H0a, H0b⟩
  ihave H2' := (pointsTo_share (PosShare.mem_left_op_right fullShare)).1 $$ H2
  icases H2' with ⟨H2a, H2b⟩
  isplitl [H0a]; · iexact H0a
  isplitl [H0b]; · iexact H0b
  isplitl [H1]; · iexact H1
  isplitl [H2a]; · iexact H2a
  isplitl [H2b]; · iexact H2b
  isplitl [H5]; · iexact H5
  iexact H6

/-- Off the two result buffers the second region's exit contents are its entry contents. -/
theorem VB3_in (c : Dev nD) (b : Ref sig .tc) (h : b ∉ ([main_v3_0, main_v3_1] : List (Ref sig .tc))) : VB3 m c b = VB m c b := by
  show V3 m (outs m) c b = V2 m (outsA m) c b
  rw [V3_of m (outs m) c b h, V2_outs]
theorem VB3_v3_0 (c : Dev nD) : VB3 m c main_v3_0 = o5 m c := by
  show Function.update (Function.update (V2 m (outs m) c) main_v3_0 (outs m 3 main_v3_0 c)) main_v3_1 (outs m 3 main_v3_1 c) main_v3_0 = _
  rw [Function.update_of_ne (StableHlo.devRef_ne_of_ne (by decide) : (Proc.devRef .tc main_v3_0 : DevRef τ sig) ≠ Proc.devRef .tc main_v3_1),
    Function.update_self, outs_v3_0]
theorem VB3_v3_1 (c : Dev nD) : VB3 m c main_v3_1 = o6 m c := by
  show Function.update (Function.update (V2 m (outs m) c) main_v3_0 (outs m 3 main_v3_0 c)) main_v3_1 (outs m 3 main_v3_1 c) main_v3_1 = _
  rw [Function.update_self, outs_v3_1]

/-- At the second region's exit each of its arrays holds what the pipeline leaves: the inputs as entered, the two
    results what the last point wrote back. -/
theorem hG1 (c : Dev nD) (w : Fin cfg1.W) : (dat1 (VB m) c).arrAt w cfg1.N = VB3 m c (Pipeline.arrRef spec1 w) := by
  match w with
  | ⟨0, _⟩ => exact ((dat1 (VB m) c).arrAt_in 0 rfl _).trans ((A_eq1 (VB m) c 0).trans (VB3_in m c main_v0 (by decide)).symm)
  | ⟨1, _⟩ => exact ((dat1 (VB m) c).arrAt_in 1 rfl _).trans ((A_eq1 (VB m) c 1).trans (VB3_in m c main_v0 (by decide)).symm)
  | ⟨2, _⟩ => exact ((dat1 (VB m) c).arrAt_in 2 rfl _).trans ((A_eq1 (VB m) c 2).trans (VB3_in m c main_v1 (by decide)).symm)
  | ⟨3, _⟩ => exact ((dat1 (VB m) c).arrAt_in 3 rfl _).trans ((A_eq1 (VB m) c 3).trans (VB3_in m c main_v2 (by decide)).symm)
  | ⟨4, _⟩ => exact ((dat1 (VB m) c).arrAt_in 4 rfl _).trans ((A_eq1 (VB m) c 4).trans (VB3_in m c main_v2 (by decide)).symm)
  | ⟨5, _⟩ => exact (VB3_v3_0 m c).symm
  | ⟨6, _⟩ => exact (VB3_v3_1 m c).symm

/-- At exit the windows' arrays are the buffers behind them at the exit contents: the halves joined. -/
theorem arrays1_join (c : Dev nD) :
    (dat1 (VB m) c).arrays ((dat1 (VB m) c).arrAt · cfg1.N)
      ⊢ (Pipeline.arrBufs (Ix := Unit) (Name := ℕ) (U := UR sig nD τ) (Lvl := ℕ) spec1 c (VB3 m c) : sProp 𝕄) := by
  rw [arrBufs1_eq]
  unfold Dat.arrays
  rw [bigSep_W1]
  obtain ⟨s0, s1, s2, s3, s4, s5, s6⟩ := share1 (VB m) c
  rw [s0, s1, s2, s3, s4, s5, s6, arr1_pt, arr1_pt, arr1_pt, arr1_pt, arr1_pt, arr1_pt, arr1_pt]
  dsimp only
  rw [hG1 m c 0, hG1 m c 1, hG1 m c 2, hG1 m c 3, hG1 m c 4, hG1 m c 5, hG1 m c 6]
  iintro ⟨H0a, H0b, H1, H2a, H2b, H5, H6⟩
  ihave H0 := (pointsTo_share (PosShare.mem_left_op_right fullShare)).2 $$ [H0a H0b]
  · isplitl [H0a] <;> iassumption
  ihave H2 := (pointsTo_share (PosShare.mem_left_op_right fullShare)).2 $$ [H2a H2b]
  · isplitl [H2a] <;> iassumption
  isplitl [H0]; · iexact H0
  isplitl [H1]; · iexact H1
  isplitl [H2]; · iexact H2
  isplitl [H5]; · iexact H5
  iexact H6

/-- The unscoped buffers that are no array of the second region hold at its exit what they held at its entry. -/
theorem rest1_eq (c : Dev nD) :
    (Pipeline.unscopedRest (Ix := Unit) (Name := ℕ) (U := UR sig nD τ) (Lvl := ℕ) spec1 c (VB3 m c) : sProp 𝕄)
      = Pipeline.unscopedRest (Ix := Unit) (Name := ℕ) (U := UR sig nD τ) (Lvl := ℕ) spec1 c (VB m c) := by
  unfold Pipeline.unscopedRest
  refine bigSep_congr fun b hb => ?_
  rw [VB3_in m c b (fun h => (Finset.mem_sdiff.mp hb).2 (by
    rcases List.mem_cons.mp h with rfl | h
    · exact Finset.mem_image.mpr ⟨5, Finset.mem_univ _, rfl⟩
    · rcases List.mem_singleton.mp h with rfl
      exact Finset.mem_image.mpr ⟨6, Finset.mem_univ _, rfl⟩))]

set_option backward.isDefEq.respectTransparency.types false in
/-- The second region over the thread state: entered from every unscoped buffer after the label reshapes, left with the
    two result buffers at what the last grid point wrote back. The distance matrix and the label row are each read
    through two windows, each holding half of the array's share. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (V2 m (outs m) c) ∗ R c)
  post c := iprop(StableHlo.held (c : Thread nD τ) (Pipeline.ucRefs τ sig) (V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none, V2_outs]
    have hsp := Pipeline.unscopedBufs_split₀ (Ix := Unit) (Name := ℕ) (U := UR sig nD τ) (Lvl := ℕ) cfgs 1 winFacts₀1.arr_unscoped c (VB m c)
    rw [Pipeline.unscopedBufs_held] at hsp
    have hsp' := Entails.of_eq hsp
    iintro ⟨⟨Hub, Hp, HO⟩, -, -⟩
    ihave H := hsp' $$ Hub
    icases H with ⟨Ha, Hrest⟩
    ihave Ha' := arrays1_split m c $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hsp := Pipeline.unscopedBufs_split₀ (Ix := Unit) (Name := ℕ) (U := UR sig nD τ) (Lvl := ℕ) cfgs 1 winFacts₀1.arr_unscoped c (VB3 m c)
    rw [Pipeline.unscopedBufs_held, show Pipeline.unscopedRest (Ix := Unit) (Name := ℕ) (U := UR sig nD τ) (Lvl := ℕ) (cfgs 1).spec c (VB3 m c) = _ from rest1_eq m c] at hsp
    have hsp' := Entails.of_eq hsp.symm
    show iprop((dat1 (VB m) c).arrays ((dat1 (VB m) c).arrAt · cfg1.N) ∗ (dat1 (VB m) c).owesAt () (Fin.last cfg1.N)
      ∗ (∃ r, prngReg c r) ∗ Pipeline.unscopedRest (Ix := Unit) (Name := ℕ) (U := UR sig nD τ) (Lvl := ℕ) spec1 c (VB m c)) ⊢ _
    iintro ⟨Ha, HO, HY, Hrest⟩
    ihave Ha' := arrays1_join m c $$ Ha
    imodintro
    isplitl [Ha' Hrest]
    · iapply hsp'; isplitl [Ha'] <;> iassumption
    isplitl [HY]; · iexact HY
    unfold Pipeline.Dat.owesAt Pipeline.owesWithin
    icases HO with ⟨%W, -, HO⟩; iexists W; iexact HO

/-- What the launch leaves on a core besides its buffers makes the rest the segments carry: the generator register, and
    the core owing nothing. -/
theorem launch_rest (c : Dev nD) :
    iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄)) ⊢ (R c : sProp 𝕄) := by
  iintro ⟨-, HO, -, Hp, -⟩
  isplitl [Hp]; · iexists _; iexact Hp
  iexists ∅; iexact HO

set_option backward.isDefEq.respectTransparency.types false in
/-- THE RUN. At the compiled mesh, from any memory with zero counters, every weakly fair execution of @main terminates,
    nothing faulting; the result buffer ends at what the last host stretch computes from what the second region left in
    its two result arrays, and the two argument arrays end as launched. -/
theorem run_main : θ_run defs (onTc (τ := τ) (main (F := F))) ⟨m, fun _ => 0, ρ⟩ (fun r => ∀ c : Dev nD,
      r.2.mem ((c.tc : Thread nD τ).loc main_v6) = V4 m (outs m) c main_v6
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_cond m emb₁ () 𝒱₀ L lv (fun _ _ => rfl) ρ (outs m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      have hmono : (bigSep (Finset.univ : Finset (Dev nD)) fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ (BI.emp : sProp 𝕄)))
          ⊢ (bigSep (Finset.univ : Finset (Dev nD)) fun c : Dev nD => R c : sProp 𝕄) :=
        bigSep_mono fun c _ => launch_rest ρ c
      iintro ⟨H, -⟩
      imodintro
      iapply hmono
      iexact H)
    (hE2 := fun c => by
      iintro ⟨-, H⟩; iexact H)
    (reg0 m) (fun _ => .rfl) (fun _ => .rfl) (reg1 m) (fun _ => .rfl) (fun _ => .rfl)

end Cert.KernelIdeal.Hand

end
-- ==== Proof.HostReads.lean ====
/- The host stretches of @main read back. Between its two kernel regions @main reshapes the label vector to a column
   and to a row; after the second region it reshapes the two [1,1] sums to scalars and divides. Over the buffers'
   contents at @main's boundaries (the launch contents, then what each item leaves, the regions' outputs at unknowns):
   the first region's output reaches the second region as the first region left it; the label column and the label row
   read at an index are the label vector's entries; the final scalar is the host quotient of the two sums the second
   region left. Generic in the float instance. -/
import proofs.«108056_j2293512536517_2_alg».proof.Proof.Gen.KernelIdeal.Regions
import Idealize.ShloMosaic.Lib.StableHlo.Run
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable {F : FTy → Type} [FloatOps F]
variable (m : (ℓ : Loc nD τ sig) → Buf (Elt F) ℓ) (outs : Outs (F := F)) (c : Dev nD)

/-- The distance matrix reaches the second region as the first region left it: the first host stretch does not
    write it. -/
theorem V2_main_v0 : V2 m outs c main_v0 = outs 1 main_v0 c := by
  refine (V2_of m outs c main_v0 (by decide)).trans ?_
  exact Function.update_self ..

/-- The label vector is as launched when the first host stretch reads it: the first region does not change it. -/
theorem V1_main_arg1 : V1 m outs c main_arg1 = m ((c : Thread nD τ).loc main_arg1) :=
  (V1_of m outs c main_arg1 (by decide)).trans rfl

/-- The label column is the label vector reshaped [512] → [512,1]. -/
theorem V2_main_v1 : (V2 m outs c main_v1 : S512x1.Idx → BitVec 32)
    = shapeCast S512x1 (m ((c : Thread nD τ).loc main_arg1) : S512.Idx → BitVec 32) shapeCasts_S512_S512x1 := by
  dsimp only [V2, hostOps1]
  after_results
  rw [V1_main_arg1]
  rfl

/-- The label row is the label vector reshaped [512] → [1,512]. -/
theorem V2_main_v2 : (V2 m outs c main_v2 : S1x512.Idx → BitVec 32)
    = shapeCast S1x512 (m ((c : Thread nD τ).loc main_arg1) : S512.Idx → BitVec 32) shapeCasts_S512_S1x512 := by
  dsimp only [V2, hostOps1]
  after_results
  rw [V1_main_arg1]
  rfl

/-- The label column at row `a` is the label vector at `a`. -/
theorem V2_main_v1_apply (a : Fin 512) :
    (V2 m outs c main_v1 : S512x1.Idx → BitVec 32) (ix2 a (0 : Fin 1))
      = (m ((c : Thread nD τ).loc main_arg1) : S512.Idx → BitVec 32) (ix1 a) := by
  rw [V2_main_v1]
  exact shapeCast_apply _ _ _ _ (by
    show (S512.rowMajor (ix1 a)).val = (S512x1.rowMajor (ix2 a (0 : Fin 1))).val
    rw [Shape.rowMajor_val_one, Shape.rowMajor_val_two]
    show a.val = a.val * 1 + 0
    omega)

/-- The label row at column `a` is the label vector at `a`. -/
theorem V2_main_v2_apply (a : Fin 512) :
    (V2 m outs c main_v2 : S1x512.Idx → BitVec 32) (ix2 (0 : Fin 1) a)
      = (m ((c : Thread nD τ).loc main_arg1) : S512.Idx → BitVec 32) (ix1 a) := by
  rw [V2_main_v2]
  exact shapeCast_apply _ _ _ _ (by
    show (S512.rowMajor (ix1 a)).val = (S1x512.rowMajor (ix2 (0 : Fin 1) a)).val
    rw [Shape.rowMajor_val_one, Shape.rowMajor_val_two]
    show a.val = 0 * 512 + a.val
    omega)

/-- The two [1,1] sums are what the second region left when the last host stretch reads them. -/
theorem V3_main_v3_0 : V3 m outs c main_v3_0 = outs 3 main_v3_0 c := by
  show Function.update (Function.update (V2 m outs c) (Proc.devRef .tc main_v3_0) (outs 3 main_v3_0 c)) (Proc.devRef .tc main_v3_1) (outs 3 main_v3_1 c) (Proc.devRef .tc main_v3_0) = _
  rw [Function.update_of_ne (StableHlo.devRef_ne_of_ne (by decide : main_v3_0 ≠ main_v3_1))]
  exact Function.update_self ..
theorem V3_main_v3_1 : V3 m outs c main_v3_1 = outs 3 main_v3_1 c :=
  Function.update_self ..

/-- The final scalar is the host quotient of the two sums reshaped [1,1] → []. -/
theorem V4_main_v6 : (V4 m outs c main_v6 : S_.Idx → F .f32)
    = Host.divf (shapeCast S_ (outs 3 main_v3_0 c : S1x1.Idx → F .f32) shapeCasts_S1x1_S_)
        (shapeCast S_ (outs 3 main_v3_1 c : S1x1.Idx → F .f32) shapeCasts_S1x1_S_) := by
  dsimp only [V4, hostOps2]
  after_results
  rw [V3_main_v3_0, V3_main_v3_1]
  rfl

/-- A [1,1] array reshaped to a scalar reads its one entry. -/
theorem shapeCast_S1x1_S__apply {α : Type} (x : S1x1.Idx → α) :
    shapeCast S_ x shapeCasts_S1x1_S_ ix0 = x (ix2 (0 : Fin 1) (0 : Fin 1)) :=
  shapeCast_apply _ _ _ _ (by
    rw [Shape.rowMajor_val_two]
    show 0 * 1 + 0 = (Shape.rowMajorPi _ _).val
    rw [Shape.rowMajorPi_zero])

/-- The final scalar is the host quotient of the one entry of each of the two sums the second region left. -/
theorem V4_main_v6_apply :
    (V4 m outs c main_v6 : S_.Idx → F .f32) ix0
      = FloatOps.hostDivf ((outs 3 main_v3_0 c : S1x1.Idx → F .f32) (ix2 (0 : Fin 1) (0 : Fin 1)))
          ((outs 3 main_v3_1 c : S1x1.Idx → F .f32) (ix2 (0 : Fin 1) (0 : Fin 1))) := by
  rw [V4_main_v6]
  show FloatOps.hostDivf (shapeCast S_ (outs 3 main_v3_0 c : S1x1.Idx → F .f32) shapeCasts_S1x1_S_ ix0)
      (shapeCast S_ (outs 3 main_v3_1 c : S1x1.Idx → F .f32) shapeCasts_S1x1_S_ ix0) = _
  rw [shapeCast_S1x1_S__apply, shapeCast_S1x1_S__apply]

end Cert.KernelIdeal.Hand

end
-- ==== Proof.R1Value.lean ====
/- REGION 1 of @main (the accumulating kernel), its arrays and block reads: the grid's coordinates and the windows'
   block indices at a point, decided over the grid; each input window's block read at explicit coordinates as an
   entry of its array as the region finds it; each [1,1] output array after the region as what its window's buffer
   holds after the body at the last point (the only point that writes it back, its one block the whole array); the
   input arrays as the region found them. -/
import proofs.«108056_j2293512536517_2_alg».proof.Proof.R1Body
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A point of the second kernel's grid is below 256. -/
theorem t_lt1 (t : Fin cfg1.N) : t.val < 256 := lt_of_lt_of_eq t.isLt N_1

/-- The coordinates of point `t` of the grid (16, 4, 4), the last axis fastest. -/
theorem coords1 : ∀ t : Fin cfg1.N, ((grid1.coords t) 0).val = t.val / 16 ∧ ((grid1.coords t) 1).val = (t.val / 4) % 4
    ∧ ((grid1.coords t) 2).val = t.val % 4 :=
  (by decide +kernel : ∀ t : Fin grid1.N, _)

/-- The printed index maps, decided over the grid: which block of its array each window is on at point `t`. -/
theorem idx_facts1 : ∀ t : Fin cfg1.N,
    win1_0.index t (0 : Fin 2) = t.val / 16 ∧ win1_0.index t (1 : Fin 2) = (t.val / 4) % 4
    ∧ win1_1.index t (0 : Fin 2) = t.val / 16 ∧ win1_1.index t (1 : Fin 2) = t.val % 4
    ∧ win1_2.index t (0 : Fin 2) = t.val / 16 ∧ win1_2.index t (1 : Fin 2) = 0
    ∧ win1_3.index t (0 : Fin 2) = 0 ∧ win1_3.index t (1 : Fin 2) = (t.val / 4) % 4
    ∧ win1_4.index t (0 : Fin 2) = 0 ∧ win1_4.index t (1 : Fin 2) = t.val % 4
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

section Regions
variable (V : (c : Dev nD) → (b : Ref sig .tc) → Buf (Elt F) ((c : Thread nD τ).loc b))

/-! ## The input windows' blocks, read at explicit coordinates -/

/-- Window 0 (the anchor-positive tile of the distance matrix): rows of block `t / 16`, columns of block `(t / 4) % 4`. -/
theorem iblk1_0_apply (c : Dev nD) (t : Fin cfg1.N) (r : Fin 32) (s : Fin 128) :
    (iblk1 V c 0 t : S32x128.Idx → Elt F .f32) (ix2 r s)
      = (V c main_v0 : S512x512.Idx → Elt F .f32) (ix2 (⟨32 * (t.val / 16) + r.val, by have := t_lt1 t; omega⟩ : Fin 512)
          (⟨128 * ((t.val / 4) % 4) + s.val, by have := t_lt1 t; omega⟩ : Fin 512)) := by
  obtain ⟨e0, e1, -⟩ := idx_facts1 t
  show V c main_v0 (((cfg1.win 0).blk t).view.emb (ix2 r s)) = _
  refine congrArg (V c main_v0) ?_
  funext a; apply Fin.ext
  match a with
  | ⟨0, _⟩ => show win1_0.index t (0 : Fin 2) * 32 + 1 * r.val = 32 * (t.val / 16) + r.val; omega
  | ⟨1, _⟩ => show win1_0.index t (1 : Fin 2) * 128 + 1 * s.val = 128 * ((t.val / 4) % 4) + s.val; omega

/-- Window 1 (the anchor-negative tile of the distance matrix): rows of block `t / 16`, columns of block `t % 4`. -/
theorem iblk1_1_apply (c : Dev nD) (t : Fin cfg1.N) (r : Fin 32) (s : Fin 128) :
    (iblk1 V c 1 t : S32x128.Idx → Elt F .f32) (ix2 r s)
      = (V c main_v0 : S512x512.Idx → Elt F .f32) (ix2 (⟨32 * (t.val / 16) + r.val, by have := t_lt1 t; omega⟩ : Fin 512)
          (⟨128 * (t.val % 4) + s.val, by have := t_lt1 t; omega⟩ : Fin 512)) := by
  obtain ⟨-, -, e0, e1, -⟩ := idx_facts1 t
  show V c main_v0 (((cfg1.win 1).blk t).view.emb (ix2 r s)) = _
  refine congrArg (V c main_v0) ?_
  funext a; apply Fin.ext
  match a with
  | ⟨0, _⟩ => show win1_1.index t (0 : Fin 2) * 32 + 1 * r.val = 32 * (t.val / 16) + r.val; omega
  | ⟨1, _⟩ => show win1_1.index t (1 : Fin 2) * 128 + 1 * s.val = 128 * (t.val % 4) + s.val; omega

/-- Window 2 (the anchors' labels, a column): rows of block `t / 16`. -/
theorem iblk1_2_apply (c : Dev nD) (t : Fin cfg1.N) (r : Fin 32) :
    (iblk1 V c 2 t : S32x1.Idx → Elt F .i32) (ix2 r (0 : Fin 1))
      = (V c main_v1 : S512x1.Idx → Elt F .i32) (ix2 (⟨32 * (t.val / 16) + r.val, by have := t_lt1 t; omega⟩ : Fin 512) (0 : Fin 1)) := by
  obtain ⟨-, -, -, -, e0, e1, -⟩ := idx_facts1 t
  show V c main_v1 (((cfg1.win 2).blk t).view.emb (ix2 r (0 : Fin 1))) = _
  refine congrArg (V c main_v1) ?_
  funext a; apply Fin.ext
  match a with
  | ⟨0, _⟩ => show win1_2.index t (0 : Fin 2) * 32 + 1 * r.val = 32 * (t.val / 16) + r.val; omega
  | ⟨1, _⟩ => show win1_2.index t (1 : Fin 2) * 1 + 1 * 0 = 0; omega

/-- Window 3 (the positives' labels, a row): columns of block `(t / 4) % 4`. -/
theorem iblk1_3_apply (c : Dev nD) (t : Fin cfg1.N) (s : Fin 128) :
    (iblk1 V c 3 t : S1x128.Idx → Elt F .i32) (ix2 (0 : Fin 1) s)
      = (V c main_v2 : S1x512.Idx → Elt F .i32) (ix2 (0 : Fin 1) (⟨128 * ((t.val / 4) % 4) + s.val, by have := t_lt1 t; omega⟩ : Fin 512)) := by
  obtain ⟨-, -, -, -, -, -, e0, e1, -⟩ := idx_facts1 t
  show V c main_v2 (((cfg1.win 3).blk t).view.emb (ix2 (0 : Fin 1) s)) = _
  refine congrArg (V c main_v2) ?_
  funext a; apply Fin.ext
  match a with
  | ⟨0, _⟩ => show win1_3.index t (0 : Fin 2) * 1 + 1 * 0 = 0; omega
  | ⟨1, _⟩ => show win1_3.index t (1 : Fin 2) * 128 + 1 * s.val = 128 * ((t.val / 4) % 4) + s.val; omega

/-- Window 4 (the negatives' labels, a row): columns of block `t % 4`. -/
theorem iblk1_4_apply (c : Dev nD) (t : Fin cfg1.N) (s : Fin 128) :
    (iblk1 V c 4 t : S1x128.Idx → Elt F .i32) (ix2 (0 : Fin 1) s)
      = (V c main_v2 : S1x512.Idx → Elt F .i32) (ix2 (0 : Fin 1) (⟨128 * (t.val % 4) + s.val, by have := t_lt1 t; omega⟩ : Fin 512)) := by
  obtain ⟨-, -, -, -, -, -, -, -, e0, e1, -⟩ := idx_facts1 t
  show V c main_v2 (((cfg1.win 4).blk t).view.emb (ix2 (0 : Fin 1) s)) = _
  refine congrArg (V c main_v2) ?_
  funext a; apply Fin.ext
  match a with
  | ⟨0, _⟩ => show win1_4.index t (0 : Fin 2) * 1 + 1 * 0 = 0; omega
  | ⟨1, _⟩ => show win1_4.index t (1 : Fin 2) * 128 + 1 * s.val = 128 * (t.val % 4) + s.val; omega

/-! ## The arrays after the region -/

/-- The grid has a point 255, its last. -/
theorem last_lt1 : 255 < cfg1.N := by rw [show cfg1.N = 256 from N_1]; decide
/-- The last point of the grid. -/
def tlast1 : Fin cfg1.N := ⟨255, last_lt1⟩

/-- A point that writes output window 5 back is the last one. -/
theorem eq_last_of_flush1_5 (t : Fin cfg1.N) (hf : (cfg1.win 5).flush t = true) : t = tlast1 := by
  have h := (flush1_5 t).mp hf; have := t_lt1 t
  apply Fin.ext; show t.val = 255; omega
theorem eq_last_of_flush1_6 (t : Fin cfg1.N) (hf : (cfg1.win 6).flush t = true) : t = tlast1 := by
  have h := (flush1_6 t).mp hf; have := t_lt1 t
  apply Fin.ext; show t.val = 255; omega

/-- What the last point writes back of output window 5 is the whole of what its buffer holds after the body there. -/
theorem flushed1_5_eq (c : Dev nD) (t : Fin cfg1.N) (hf : (cfg1.win 5).flush t = true) :
    (dat1 V c).flushed 5 t = ((cfg1.win 5).blk t).view.read (Elt F) (acc5 V c 255 last_lt1 : Vec F S1x1 .f32) := by
  obtain rfl := eq_last_of_flush1_5 t hf
  show (cfg1.win 5).cut (grid1.coords tlast1) ((dat1 V c).after 5 tlast1) = _
  rw [after1_5]
  obtain ⟨-, -, -, -, -, -, -, -, -, -, e0, e1, -⟩ := idx_facts1 tlast1
  funext j
  show acc5 V c 255 _ j = acc5 V c 255 _ (((cfg1.win 5).blk tlast1).view.emb j)
  refine congrArg (acc5 V c 255 _) ?_
  funext a; apply Fin.ext
  match a with
  | ⟨0, _⟩ => show (j 0).val = win1_5.index tlast1 (0 : Fin 2) * 1 + 1 * (j 0).val; omega
  | ⟨1, _⟩ => show (j 1).val = win1_5.index tlast1 (1 : Fin 2) * 1 + 1 * (j 1).val; omega

theorem flushed1_6_eq (c : Dev nD) (t : Fin cfg1.N) (hf : (cfg1.win 6).flush t = true) :
    (dat1 V c).flushed 6 t = ((cfg1.win 6).blk t).view.read (Elt F) (acc6 V c 255 last_lt1 : Vec F S1x1 .f32) := by
  obtain rfl := eq_last_of_flush1_6 t hf
  show (cfg1.win 6).cut (grid1.coords tlast1) ((dat1 V c).after 6 tlast1) = _
  rw [after1_6]
  obtain ⟨-, -, -, -, -, -, -, -, -, -, -, -, e0, e1⟩ := idx_facts1 tlast1
  funext j
  show acc6 V c 255 _ j = acc6 V c 255 _ (((cfg1.win 6).blk tlast1).view.emb j)
  refine congrArg (acc6 V c 255 _) ?_
  funext a; apply Fin.ext
  match a with
  | ⟨0, _⟩ => show (j 0).val = win1_6.index tlast1 (0 : Fin 2) * 1 + 1 * (j 0).val; omega
  | ⟨1, _⟩ => show (j 1).val = win1_6.index tlast1 (1 : Fin 2) * 1 + 1 * (j 1).val; omega

/-- An index of a [1,1] output array is in a point's block iff each coordinate is in the block's range on its axis. -/
theorem mem_blk1_5 (t : Fin cfg1.N) (i : S1x1.Idx) :
    i ∈ ((cfg1.win 5).blk t).view.set ↔ ∀ a : Fin 2, win1_5.index t a * S1x1.size a ≤ (i a).val ∧ (i a).val < win1_5.index t a * S1x1.size a + S1x1.size a := by
  show i ∈ ((View.whole main_v3_0).slice (win1_5.rect t)).set ↔ _
  rw [View.set_slice_whole, Rect.mem_set_unit]
  exact Iff.rfl
theorem mem_blk1_6 (t : Fin cfg1.N) (i : S1x1.Idx) :
    i ∈ ((cfg1.win 6).blk t).view.set ↔ ∀ a : Fin 2, win1_6.index t a * S1x1.size a ≤ (i a).val ∧ (i a).val < win1_6.index t a * S1x1.size a + S1x1.size a := by
  show i ∈ ((View.whole main_v3_1).slice (win1_6.rect t)).set ↔ _
  rw [View.set_slice_whole, Rect.mem_set_unit]
  exact Iff.rfl

/-- The last point's block covers the [1,1] output array. -/
theorem cover1_5_arr (i : S1x1.Idx) :
    ∃ t : Fin cfg1.N, (cfg1.win 5).flush t = true ∧ i ∈ ((cfg1.win 5).blk t).view.set := by
  refine ⟨tlast1, (flush1_5 tlast1).mpr (by show 255 % 256 = 255; decide), ?_⟩
  obtain ⟨-, -, -, -, -, -, -, -, -, -, e0, e1, -⟩ := idx_facts1 tlast1
  rw [mem_blk1_5]
  intro a
  match a with
  | ⟨0, _⟩ => show win1_5.index tlast1 (0 : Fin 2) * 1 ≤ (i 0).val ∧ (i 0).val < win1_5.index tlast1 (0 : Fin 2) * 1 + 1; have hi0 : (i 0).val < 1 := (i 0).isLt; omega
  | ⟨1, _⟩ => show win1_5.index tlast1 (1 : Fin 2) * 1 ≤ (i 1).val ∧ (i 1).val < win1_5.index tlast1 (1 : Fin 2) * 1 + 1; have hi1 : (i 1).val < 1 := (i 1).isLt; omega
theorem cover1_6_arr (i : S1x1.Idx) :
    ∃ t : Fin cfg1.N, (cfg1.win 6).flush t = true ∧ i ∈ ((cfg1.win 6).blk t).view.set := by
  refine ⟨tlast1, (flush1_6 tlast1).mpr (by show 255 % 256 = 255; decide), ?_⟩
  obtain ⟨-, -, -, -, -, -, -, -, -, -, -, -, e0, e1⟩ := idx_facts1 tlast1
  rw [mem_blk1_6]
  intro a
  match a with
  | ⟨0, _⟩ => show win1_6.index tlast1 (0 : Fin 2) * 1 ≤ (i 0).val ∧ (i 0).val < win1_6.index tlast1 (0 : Fin 2) * 1 + 1; have hi0 : (i 0).val < 1 := (i 0).isLt; omega
  | ⟨1, _⟩ => show win1_6.index tlast1 (1 : Fin 2) * 1 ≤ (i 1).val ∧ (i 1).val < win1_6.index tlast1 (1 : Fin 2) * 1 + 1; have hi1 : (i 1).val < 1 := (i 1).isLt; omega

/-- Output array 5 after the region: what its window's buffer holds after the body at the last point. -/
theorem final1_5 (c : Dev nD) : (dat1 V c).arrAt 5 cfg1.N = (acc5 V c 255 last_lt1 : Vec F S1x1 .f32) :=
  (dat1 V c).arrAt_eq_of_cover 5 (acc5 V c 255 last_lt1 : Vec F S1x1 .f32) (fun t hf => flushed1_5_eq V c t hf) cover1_5_arr
/-- Output array 6 after the region, likewise. -/
theorem final1_6 (c : Dev nD) : (dat1 V c).arrAt 6 cfg1.N = (acc6 V c 255 last_lt1 : Vec F S1x1 .f32) :=
  (dat1 V c).arrAt_eq_of_cover 6 (acc6 V c 255 last_lt1 : Vec F S1x1 .f32) (fun t hf => flushed1_6_eq V c t hf) cover1_6_arr

/-- An input window's array is never written back: after the region it is as the region found it. -/
theorem kept1 (c : Dev nD) (w : Fin cfg1.W) (hw : (cfg1.win w).isOut = false) : (dat1 V c).arrAt w cfg1.N = V c (Pipeline.arrRef spec1 w) :=
  ((dat1 V c).arrAt_in w hw cfg1.N).trans (A_eq1 V c w)
theorem kept1_0 (c : Dev nD) : (dat1 V c).arrAt 0 cfg1.N = V c main_v0 := kept1 V c 0 rfl
theorem kept1_1 (c : Dev nD) : (dat1 V c).arrAt 1 cfg1.N = V c main_v0 := kept1 V c 1 rfl
theorem kept1_2 (c : Dev nD) : (dat1 V c).arrAt 2 cfg1.N = V c main_v1 := kept1 V c 2 rfl
theorem kept1_3 (c : Dev nD) : (dat1 V c).arrAt 3 cfg1.N = V c main_v2 := kept1 V c 3 rfl
theorem kept1_4 (c : Dev nD) : (dat1 V c).arrAt 4 cfg1.N = V c main_v2 := kept1 V c 4 rfl

end Regions

end Cert.KernelIdeal.Hand

end
-- ==== Proof.Spec.lean ====
/-
  The batch-all triplet loss as one function of a distance matrix and a label vector, on the extended reals.
  For an anchor a, a positive p (same label, p ≠ a) and a negative n (different label) the hinge term is
  max (d a p - d a n + 1) 0; the loss is the sum of the hinge terms over all valid triplets (a, p, n) of 512 points,
  the count the number of valid triplets, the result their quotient.
-/
import Idealize.ShloMosaic.PureOps.Ideal
import Idealize.ShloMosaic.Lib.ValueIdx

noncomputable section

namespace Cert.Spec

open Idealize.ShloMosaic

/-- 1 when p is a positive for the anchor a (same label, another point), else 0. -/
def pm (lab : Fin 512 → BitVec 32) (a p : Fin 512) : EReal := if lab a = lab p ∧ a ≠ p then 1 else 0

/-- 1 when n is a negative for the anchor a (another label), else 0. -/
def nm (lab : Fin 512 → BitVec 32) (a n : Fin 512) : EReal := if lab a ≠ lab n then 1 else 0

/-- The hinge term of the triplet (a, p, n): max (d a p - d a n + 1) 0, the literals 1 and 0 as their f32 words. -/
def hinge (d : Fin 512 → Fin 512 → EReal) (a p n : Fin 512) : EReal :=
  max (d a p - d a n + Ideal.ofBits .f32 0x3F800000#32) (Ideal.ofBits .f32 0x00000000#32)

/-- The sum of the hinge terms over the valid triplets. -/
def loss (d : Fin 512 → Fin 512 → EReal) (lab : Fin 512 → BitVec 32) : EReal :=
  ∑ a : Fin 512, ∑ p : Fin 512, ∑ n : Fin 512, hinge d a p n * (pm lab a p * nm lab a n)

/-- The number of valid triplets. -/
def count (lab : Fin 512 → BitVec 32) : EReal :=
  ∑ a : Fin 512, ∑ p : Fin 512, ∑ n : Fin 512, pm lab a p * nm lab a n

/-- The mean hinge term over the valid triplets. -/
def result (d : Fin 512 → Fin 512 → EReal) (lab : Fin 512 → BitVec 32) : EReal :=
  Ideal.div (loss d lab) (count lab)

end Cert.Spec

end
-- ==== Proof.LibLayout3Col.lean ====
/-
  Rank-3 arrays whose last axis is a unit column, and reductions along the last axis, read at an index written by its
  coordinates, for any extents.

  A row quantity kept as a column ([a, b] viewed as [a, b, 1]) and spread along a new last axis ([a, b, 1] to [a, b, c])
  reads the same entry at every position of that axis; one lane of the last axis cut out as a column ([a, b, d] to
  [a, b, 1] at offset o) reads lane o; a column viewed as a matrix again ([a, b, 1] to [a, b]) reads its only lane.
  Row-major positions agree because the unit axis contributes a factor 1 and a coordinate 0.
  On the extended reals a sum along the last axis started at the zero word is the sum over that axis's coordinates, and
  a minimum along the last axis started at the word of plus infinity is the infimum over them.
-/
import Idealize.ShloMosaic.Lib.Pipeline.Value
import Idealize.ShloMosaic.Lib.ValueIdx
import Idealize.ShloMosaic.PureOps.Ideal.Laws

namespace Layout3Col

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) := by
  refine shapeCast_apply x h (ix3 i j u) (ix2 i j) ?_
  have hu : u.val = 0 := by omega
  rw [Shape.rowMajor_val_two, Shape.rowMajor_val_three]
  show i.val * b + j.val = (i.val * b + j.val) * 1 + u.val
  rw [hu, Nat.mul_one, Nat.add_zero]

/-- An `[a, b, 1]` array cast to `[a, b]` reads, at `(i, j)`, the operand's only lane at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) := by
  refine shapeCast_apply x h (ix2 i j) (ix3 i j (0 : Fin 1)) ?_
  rw [Shape.rowMajor_val_two, Shape.rowMajor_val_three]
  show (i.val * b + j.val) * 1 + 0 = i.val * b + j.val
  rw [Nat.mul_one, Nat.add_zero]

/-- An `[a, b, 1]` array broadcast to `[a, b, c]` reads, at `(i, j, k)`, the operand's only lane at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A unit-width slice of the last axis at offset `o` (offset zero on the other axes) reads, at `(i, j, u)`, lane `o`. -/
theorem slice_lane_apply {a b d : ℕ} (x : (⟨3, ![a, b, d]⟩ : Shape).Idx → α) (off : Fin 3 → ℕ)
    (h : (⟨3, ![a, b, d]⟩ : Shape).Slices off ⟨3, ![a, b, 1]⟩) (h0 : off 0 = 0) (h1 : off 1 = 0) (o : Fin d) (h2 : off 2 = o.val)
    (i : Fin a) (j : Fin b) (u : Fin 1) :
    extractStridedSlice ⟨3, ![a, b, 1]⟩ off x h (ix3 i j u) = x (ix3 i j o) := by
  refine extractStridedSlice_apply off x h (ix3 i j u) (ix3 i j o) fun ax => ?_
  match ax with
  | ⟨0, _⟩ => show i.val = off 0 + i.val; rw [h0, Nat.zero_add]
  | ⟨1, _⟩ => show j.val = off 1 + j.val; rw [h1, Nat.zero_add]
  | ⟨2, _⟩ => show o.val = off 2 + u.val; have := u.isLt; omega

/-- The index of an `[a, b, c]` array over `(i, j)` of the reduced `[a, b]` with lane `k` put back is `(i, j, k)`. -/
theorem lift_lane {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext ax; apply Fin.ext
  fin_cases ax <;> rfl

/-- On the extended reals the sum of an `[a, b, c]` array along its last axis is, at `(i, j)`, the sum over `k` of the
    entries `(i, j, k)`. -/
theorem laneSum_apply {a b c : ℕ} (src : FVec Ideal ⟨3, ![a, b, c]⟩ .f32)
    (h : (⟨3, ![a, b, c]⟩ : Shape).Reduces [2] (⟨2, ![a, b]⟩ : Shape)) (hφ : FKind.Formats .f32)
    (hacc : (0x00000000#32 : BitVec 32) = 0x00000000#32) (i : Fin a) (j : Fin b) :
    multiReduction (F := Ideal) .add [2] ⟨2, ![a, b]⟩ src 0x00000000#32 h hφ hacc (ix2 i j) = ∑ k : Fin c, src (ix3 i j k) := by
  refine (Ideal.multiReduction_add_single src 0x00000000#32 h hφ hacc (ix2 i j)).trans ?_
  exact Finset.sum_congr rfl fun k _ => congrArg src (lift_lane h i j k)

/-- A fold of the minimum from plus infinity over a finite set is the infimum over it. -/
theorem fold_minimumf_eq_inf {ι : Type} [DecidableEq ι] (s : Finset ι) (f : ι → EReal) :
    s.fold (FloatOps.minimumf (F := Ideal) (φ := .f32)) (⊤ : EReal) f = s.inf f := by
  induction s using Finset.induction_on with
  | empty => rw [Finset.fold_empty, Finset.inf_empty]
  | insert a s ha ih =>
    rw [Finset.fold_insert ha, Finset.inf_insert, ih]
    show min (f a) (s.inf f) = f a ⊓ s.inf f
    rfl

/-- On the extended reals the minimum of an `[a, b, c]` array along its last axis, started at plus infinity, is, at
    `(i, j)`, the infimum over `k` of the entries `(i, j, k)`. -/
theorem laneMin_apply {a b c : ℕ} (src : FVec Ideal ⟨3, ![a, b, c]⟩ .f32)
    (h : (⟨3, ![a, b, c]⟩ : Shape).Reduces [2] (⟨2, ![a, b]⟩ : Shape)) (hφ : FKind.Formats .f32)
    (hacc : (0x7F800000#32 : BitVec 32) = 0x7F800000#32) (i : Fin a) (j : Fin b) :
    multiReduction (F := Ideal) .minimumf [2] ⟨2, ![a, b]⟩ src 0x7F800000#32 h hφ hacc (ix2 i j)
      = Finset.univ.inf fun k : Fin c => src (ix3 i j k) := by
  refine (multiReduction_minimumf_eq_fold src 0x7F800000#32 h hφ hacc (ix2 i j)).trans ?_
  refine (h.fold_filter_drop_single _ _ src (ix2 i j)).trans ?_
  have htop : (FloatOps.ofBits (F := Ideal) .f32 0x7F800000#32 : EReal) = ⊤ := by simp [Ideal.ofBits, Ideal.ieee]
  rw [htop]
  refine (fold_minimumf_eq_inf _ _).trans ?_
  exact Finset.inf_congr rfl fun k _ => congrArg src (lift_lane h i j k)

end Layout3Col
-- ==== Proof.LibLayout3.lean ====
/-
  Three layout operations on arrays of rank 3, read at an index written by its coordinates, for any extents:
  a matrix `[a, b]` given a unit middle axis `[a, 1, b]` reads the same entry; a `[1, b, c]` array broadcast to
  `[a, b, c]` reads its one slab; an `[a, 1, c]` array broadcast to `[a, b, c]` reads its one row per slab.
  (The row-major position of `(i, 0, j)` in `[a, 1, b]` is `(i·1 + 0)·b + j = i·b + j`, that of `(i, j)` in `[a, b]`.)
-/
import Idealize.ShloMosaic.Lib.Pipeline.Value
import Idealize.ShloMosaic.Lib.ValueIdx

namespace Layout3

open Idealize.ShloMosaic Idealize.ShloMosaic.ValueIdx

variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A `[1, b, c]` array broadcast to `[a, b, c]` reads, at `(i, j, k)`, the operand's one slab at `(j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, 1, c]` array broadcast to `[a, b, c]` reads, at `(i, j, k)`, the operand's one row of slab `i` at `k`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

end Layout3
-- ==== Proof.LibTileReduce.lean ====
/-
  A rank-3 array summed along its first or its middle axis, a column spread along rows, and a one-bit word read as a
  number, each read at an index written by its coordinates, for any extents.

  On the extended reals a sum along one axis started at the zero word is the sum over that axis's coordinates: along the
  middle axis of an [a, b, c] array it is, at (i, k), the sum over j of the entries (i, j, k); along the first axis it
  is, at (j, k), the sum over i of the entries (i, j, k). An [a, 1] column broadcast to [a, b] reads the column's entry
  of the same row at every position of the row. A one-bit word widened with zeros to 32 bits and converted as a signed
  integer is 1 when the bit is set and 0 otherwise. Numbers below 2^32 are equal as 32-bit words exactly when they are equal.
-/
import Idealize.ShloMosaic.Lib.Pipeline.Value
import Idealize.ShloMosaic.Lib.ValueIdx
import Idealize.ShloMosaic.PureOps.Ideal.Laws

namespace TileReduce

open Idealize.ShloMosaic Idealize.ShloMosaic.ValueIdx

variable {α : Type}

/-- An `[a, 1]` column broadcast to `[a, b]` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The index of an `[a, b, c]` array over `(i, k)` of the reduced `[a, c]` with the middle coordinate `j` put back
    is `(i, j, k)`. -/
theorem lift_middle {a b c : ℕ} (h : (⟨3, ![a, b, c]⟩ : Shape).Reduces [1] (⟨2, ![a, c]⟩ : Shape)) (i : Fin a) (k : Fin c)
    (j : Fin ((⟨3, ![a, b, c]⟩ : Shape).size 1)) : h.lift (ix2 i k) j = ix3 i (⟨j.val, j.isLt⟩ : Fin b) k := by
  funext ax; apply Fin.ext
  fin_cases ax <;> rfl

/-- On the extended reals the sum of an `[a, b, c]` array along its middle axis is, at `(i, k)`, the sum over `j` of
    the entries `(i, j, k)`. -/
theorem middleSum_apply {a b c : ℕ} (src : FVec Ideal ⟨3, ![a, b, c]⟩ .f32)
    (h : (⟨3, ![a, b, c]⟩ : Shape).Reduces [1] (⟨2, ![a, c]⟩ : Shape)) (hφ : FKind.Formats .f32)
    (hacc : (0x00000000#32 : BitVec 32) = 0x00000000#32) (i : Fin a) (k : Fin c) :
    multiReduction (F := Ideal) .add [1] ⟨2, ![a, c]⟩ src 0x00000000#32 h hφ hacc (ix2 i k) = ∑ j : Fin b, src (ix3 i j k) := by
  refine (Ideal.multiReduction_add_single src 0x00000000#32 h hφ hacc (ix2 i k)).trans ?_
  exact Finset.sum_congr rfl fun j _ => congrArg src (lift_middle h i k j)

/-- The index of an `[a, b, c]` array over `(j, k)` of the reduced `[b, c]` with the first coordinate `i` put back
    is `(i, j, k)`. -/
theorem lift_first {a b c : ℕ} (h : (⟨3, ![a, b, c]⟩ : Shape).Reduces [0] (⟨2, ![b, c]⟩ : Shape)) (j : Fin b) (k : Fin c)
    (i : Fin ((⟨3, ![a, b, c]⟩ : Shape).size 0)) : h.lift (ix2 j k) i = ix3 (⟨i.val, i.isLt⟩ : Fin a) j k := by
  funext ax; apply Fin.ext
  fin_cases ax <;> rfl

/-- On the extended reals the sum of an `[a, b, c]` array along its first axis is, at `(j, k)`, the sum over `i` of
    the entries `(i, j, k)`. -/
theorem firstSum_apply {a b c : ℕ} (src : FVec Ideal ⟨3, ![a, b, c]⟩ .f32)
    (h : (⟨3, ![a, b, c]⟩ : Shape).Reduces [0] (⟨2, ![b, c]⟩ : Shape)) (hφ : FKind.Formats .f32)
    (hacc : (0x00000000#32 : BitVec 32) = 0x00000000#32) (j : Fin b) (k : Fin c) :
    multiReduction (F := Ideal) .add [0] ⟨2, ![b, c]⟩ src 0x00000000#32 h hφ hacc (ix2 j k) = ∑ i : Fin a, src (ix3 i j k) := by
  refine (Ideal.multiReduction_add_single src 0x00000000#32 h hφ hacc (ix2 j k)).trans ?_
  exact Finset.sum_congr rfl fun i _ => congrArg src (lift_first h j k i)

/-- A one-bit word widened with zeros to 32 bits and converted as a signed integer is, on the extended reals, 1 when the
    bit is set and 0 when it is not. -/
theorem sitofp_setWidth_bit (b : BitVec 1) :
    (FloatOps.sitofp (F := Ideal) .f32 (b.setWidth 32) : EReal) = if b = 1#1 then 1 else 0 := by
  rcases BitVec.eq_zero_or_eq_one b with rfl | rfl
  · show ((((0#1 : BitVec 1).setWidth 32).toInt : ℝ) : EReal) = _
    have h : ((0#1 : BitVec 1).setWidth 32).toInt = 0 := by decide
    rw [h, if_neg (by decide)]
    simp
  · show ((((1#1 : BitVec 1).setWidth 32).toInt : ℝ) : EReal) = _
    have h : ((1#1 : BitVec 1).setWidth 32).toInt = 1 := by decide
    rw [h, if_pos rfl]
    simp

/-- Two numbers below 2^32 are the same 32-bit word exactly when they are equal. -/
theorem ofNat32_eq_iff {m n : ℕ} (hm : m < 2 ^ 32) (hn : n < 2 ^ 32) : BitVec.ofNat 32 m = BitVec.ofNat 32 n ↔ m = n := by
  constructor
  · intro he
    have ht := congrArg BitVec.toNat he
    rw [BitVec.toNat_ofNat, BitVec.toNat_ofNat, Nat.mod_eq_of_lt hm, Nat.mod_eq_of_lt hn] at ht
    exact ht
  · rintro rfl; rfl

end TileReduce
-- ==== Proof.StepValue.lean ====
/-
  One grid point of the triplet-loss kernel, read at the one entry of each of its two accumulators, on the extended reals.

  The body multiplies, entry by entry over its [32, 128, 128] tile (anchor row r, positive column s, negative column u),
  the hinge term max (d_ap - d_an + 1) 0 by the product of the two masks, sums the tile along u, then along s, then along
  r, and adds the result to the first accumulator; the second accumulator receives the sum of the mask products alone.
  Here both are read as the previous value plus a triple sum over the tile, with the masks read as the specification's
  indicator functions of the labels: the positive mask is 1 when the two labels agree and the two global indices differ,
  the negative mask is 1 when the two labels differ.
-/
import proofs.«108056_j2293512536517_2_alg».proof.Proof.Gen.KernelIdeal.Skeleton
import proofs.«108056_j2293512536517_2_alg».proof.Proof.Spec
import proofs.«108056_j2293512536517_2_alg».proof.Proof.LibLayout3Col
import proofs.«108056_j2293512536517_2_alg».proof.Proof.LibLayout3
import proofs.«108056_j2293512536517_2_alg».proof.Proof.LibTileReduce
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.HandValue

open Cert.KernelIdeal Cert.KernelIdeal.Gen Idealize.ShloMosaic Idealize.ShloMosaic.ValueIdx

/-- What one grid point leaves in the first accumulator (the sum of the hinge terms), from the blocks it reads and the
    accumulator's previous value. -/
def step5 (i : grid1.Coords) (x0 x1 : Vec Ideal S32x128 .f32) (x2 : Vec Ideal S32x1 .i32) (x3 x4 : Vec Ideal S1x128 .i32)
    (prev : Vec Ideal S1x1 .f32) : Vec Ideal S1x1 .f32 :=
  k1_pay2 (k1_pay6 x0) (k1_pay7 x1) (k1_pay9 x2 x4) (k1_pay10 i x2 x3) prev

/-- What one grid point leaves in the second accumulator (the number of valid triplets), likewise. -/
def step6 (i : grid1.Coords) (x2 : Vec Ideal S32x1 .i32) (x3 x4 : Vec Ideal S1x128 .i32) (prev : Vec Ideal S1x1 .f32) :
    Vec Ideal S1x1 .f32 :=
  k1_pay3 (k1_pay9 x2 x4) (k1_pay10 i x2 x3) prev

/-! ## The three nested sums over the tile -/

/-- A [32, 128, 128] tile summed along its last axis, then (kept as a column) along its middle axis, then along its
    first axis, and viewed as a [1, 1] array: the body's reduction of a tile to one number. -/
def tileSum (X : FVec Ideal S32x128x128 .f32) : FVec Ideal S1x1 .f32 :=
  shapeCast S1x1 (shapeCast S1x1x1 (multiReduction (F := Ideal) .add [0] S1x1
    (shapeCast S32x1x1 (multiReduction (F := Ideal) .add [1] S32x1
      (shapeCast S32x128x1
        (multiReduction (F := Ideal) .add [2] S32x128 X 0x00000000#32 reduces_S32x128x128_S32x128 (.inl rfl) rfl)
        shapeCasts_S32x128_S32x128x1)
      0x00000000#32 reduces_S32x128x1_S32x1 (.inl rfl) rfl) shapeCasts_S32x1_S32x1x1)
    0x00000000#32 reduces_S32x1x1_S1x1 (.inl rfl) rfl) shapeCasts_S1x1_S1x1x1) shapeCasts_S1x1x1_S1x1

/-- Read at its one entry it is the triple sum of the tile's entries. -/
theorem tileSum_apply (X : FVec Ideal S32x128x128 .f32) :
    tileSum X (ix2 0 0) = ∑ r : Fin 32, ∑ s : Fin 128, ∑ u : Fin 128, X (ix3 r s u) := by
  unfold tileSum
  refine (Layout3Col.shapeCast_ab1_ab_apply _ _ 0 0).trans ?_
  refine (Layout3Col.shapeCast_ab_ab1_apply _ _ 0 0 0).trans ?_
  refine (TileReduce.firstSum_apply _ _ _ _ 0 0).trans ?_
  refine Finset.sum_congr rfl fun r _ => ?_
  refine (Layout3Col.shapeCast_ab_ab1_apply _ _ r 0 0).trans ?_
  refine (TileReduce.middleSum_apply _ _ _ _ r 0).trans ?_
  refine Finset.sum_congr rfl fun s _ => ?_
  refine (Layout3Col.shapeCast_ab_ab1_apply _ _ r s 0).trans ?_
  exact Layout3Col.laneSum_apply _ _ _ _ r s

/-! ## The product of the two masks, and the hinge term, at an entry of the tile -/

/-- The mask product at (r, s, u): the positive mask's column entry (r, s) times the negative mask's entry (r, u). -/
theorem pay1_apply (v38 : FVec Ideal S32x128 .f32) (v39 : FVec Ideal S32x128x1 .f32) (r : Fin 32) (s u : Fin 128) :
    k1_pay1 v38 v39 (ix3 r s u) = v39 (ix3 r s (0 : Fin 1)) * v38 (ix2 r u) := by
  unfold k1_pay1
  show broadcastTo S32x128x128 v39 _ (ix3 r s u) * broadcastTo S32x128x128 (shapeCast S32x1x128 v38 _) _ (ix3 r s u) = _
  rw [Layout3Col.broadcastTo_ab1_abc_apply, Layout3.broadcastTo_a1c_abc_apply, Layout3.shapeCast_ab_a1b_apply]

/-- The tile of hinge terms: max (d_ap - d_an + 1) 0 with the anchor-positive tile spread along the negatives and the
    anchor-negative tile spread along the positives. -/
def hingeTile (v8 v10 : FVec Ideal S32x128 .f32) : FVec Ideal S32x128x128 .f32 :=
  maximumf
    (addf
      (subf (broadcastTo S32x128x128 (shapeCast S32x128x1 v8 shapeCasts_S32x128_S32x128x1) broadcasts_S32x128x1_S32x128x128)
        (broadcastTo S32x128x128 (shapeCast S32x1x128 v10 shapeCasts_S32x128_S32x1x128) broadcasts_S32x1x128_S32x128x128))
      (broadcast S32x128x128 (Scalar.ofBits (F := Ideal) .f32 0x3F800000#32)))
    (broadcast S32x128x128 (Scalar.ofBits (F := Ideal) .f32 0x00000000#32))

/-- The hinge term at (r, s, u). -/
theorem hingeTile_apply (v8 v10 : FVec Ideal S32x128 .f32) (r : Fin 32) (s u : Fin 128) :
    hingeTile v8 v10 (ix3 r s u)
      = max (v8 (ix2 r s) - v10 (ix2 r u) + Ideal.ofBits .f32 0x3F800000#32) (Ideal.ofBits .f32 0x00000000#32) := by
  unfold hingeTile
  show max (broadcastTo S32x128x128 (shapeCast S32x128x1 v8 _) _ (ix3 r s u)
      - broadcastTo S32x128x128 (shapeCast S32x1x128 v10 _) _ (ix3 r s u) + Ideal.ofBits .f32 0x3F800000#32)
      (Ideal.ofBits .f32 0x00000000#32) = _
  rw [Layout3Col.broadcastTo_ab1_abc_apply, Layout3.broadcastTo_a1c_abc_apply, Layout3Col.shapeCast_ab_ab1_apply,
    Layout3.shapeCast_ab_a1b_apply]

/-! ## The two payloads at their one entry, over any masks -/

/-- The second accumulator's new value: the previous one plus the sum of the mask products over the tile. -/
theorem pay3_apply (v38 : FVec Ideal S32x128 .f32) (v39 : FVec Ideal S32x128x1 .f32) (prev : Vec Ideal S1x1 .f32) :
    k1_pay3 v38 v39 prev (ix2 0 0)
      = prev (ix2 0 0) + ∑ r : Fin 32, ∑ s : Fin 128, ∑ u : Fin 128, v39 (ix3 r s (0 : Fin 1)) * v38 (ix2 r u) := by
  show shapeCast S1x1 prev shapeCasts_S1x1_S1x1 (ix2 0 0) + tileSum (k1_pay1 v38 v39) (ix2 0 0) = _
  rw [shapeCast_self, tileSum_apply]
  refine congrArg (prev (ix2 0 0) + ·) ?_
  exact Finset.sum_congr rfl fun r _ => Finset.sum_congr rfl fun s _ => Finset.sum_congr rfl fun u _ =>
    pay1_apply v38 v39 r s u

/-- The first accumulator's new value: the previous one plus the sum over the tile of the hinge terms times the mask
    products. -/
theorem pay2_apply (v8 v10 v38 : FVec Ideal S32x128 .f32) (v39 : FVec Ideal S32x128x1 .f32) (prev : Vec Ideal S1x1 .f32) :
    k1_pay2 v8 v10 v38 v39 prev (ix2 0 0)
      = prev (ix2 0 0) + ∑ r : Fin 32, ∑ s : Fin 128, ∑ u : Fin 128,
          max (v8 (ix2 r s) - v10 (ix2 r u) + Ideal.ofBits .f32 0x3F800000#32) (Ideal.ofBits .f32 0x00000000#32)
            * (v39 (ix3 r s (0 : Fin 1)) * v38 (ix2 r u)) := by
  show shapeCast S1x1 prev shapeCasts_S1x1_S1x1 (ix2 0 0) + tileSum (mulf (hingeTile v8 v10) (k1_pay1 v38 v39)) (ix2 0 0) = _
  rw [shapeCast_self, tileSum_apply]
  refine congrArg (prev (ix2 0 0) + ·) ?_
  refine Finset.sum_congr rfl fun r _ => Finset.sum_congr rfl fun s _ => Finset.sum_congr rfl fun u _ => ?_
  show hingeTile v8 v10 (ix3 r s u) * k1_pay1 v38 v39 (ix3 r s u) = _
  rw [hingeTile_apply, pay1_apply]

/-! ## The masks -/

/-- The label column spread along the tile's columns: entry (r, s) is the label of row r. -/
theorem labelCol_apply (x2 : Vec Ideal S32x1 .i32) (r : Fin 32) (s : Fin 128) :
    broadcastTo S32x128 (k1_pay8 (F := Ideal) x2) broadcasts_S32x1_S32x128 (ix2 r s) = x2 (ix2 r (0 : Fin 1)) := by
  unfold k1_pay8
  rw [TileReduce.broadcastTo_a1_ab_apply, shapeCast_self]

/-- A label row spread along the tile's rows: entry (r, s) is the label of column s. -/
theorem labelRow_apply (x : Vec Ideal S1x128 .i32) (r : Fin 32) (s : Fin 128) :
    broadcastTo S32x128 (shapeCast S1x128 x shapeCasts_S1x128_S1x128) broadcasts_S1x128_S32x128 (ix2 r s)
      = x (ix2 (0 : Fin 1) s) := by
  rw [broadcastTo_1b_ab_apply, shapeCast_self]

/-- The negative mask at (r, u): 1 when the label of row r differs from the label of column u, else 0. -/
theorem pay9_apply (x2 : Vec Ideal S32x1 .i32) (x4 : Vec Ideal S1x128 .i32) (r : Fin 32) (u : Fin 128) :
    k1_pay9 (F := Ideal) x2 x4 (ix2 r u)
      = (if (x2 (ix2 r (0 : Fin 1)) : BitVec 32) ≠ x4 (ix2 (0 : Fin 1) u) then 1 else 0 : EReal) := by
  unfold k1_pay9
  show FloatOps.sitofp (F := Ideal) .f32 (BitVec.setWidth 32 (IntOp.cmpi .ne
      (broadcastTo S32x128 (k1_pay8 (F := Ideal) x2) broadcasts_S32x1_S32x128 (ix2 r u))
      (broadcastTo S32x128 (shapeCast S1x128 x4 shapeCasts_S1x128_S1x128) broadcasts_S1x128_S32x128 (ix2 r u)))) = _
  rw [labelCol_apply, labelRow_apply, TileReduce.sitofp_setWidth_bit]
  exact if_congr IntOp.cmpi_ne rfl rfl

/-- The global row index of the tile's row r as a 32-bit word: the tile's first row plus r. -/
theorem rowWord_apply (w : BitVec 32) (r : Fin 32) (s : Fin 128) :
    broadcastTo S32x128 (addi (broadcast S32x1 w) (iota .tc S32x1 32 [0] iota_S32x1_d0_w32)) broadcasts_S32x1_S32x128 (ix2 r s)
      = w + BitVec.ofNat 32 r.val := by
  rw [TileReduce.broadcastTo_a1_ab_apply]
  show IntOp.addi w (iota .tc S32x1 32 [0] iota_S32x1_d0_w32 (ix2 r (0 : Fin 1))) = _
  rw [iota_single_apply]
  rfl

/-- The global column index of the tile's column s as a 32-bit word: the tile's first column plus s. -/
theorem colWord_apply (w : BitVec 32) (r : Fin 32) (s : Fin 128) :
    broadcastTo S32x128 (addi (broadcast S1x128 w) (iota .tc S1x128 32 [1] iota_S1x128_d1_w32)) broadcasts_S1x128_S32x128 (ix2 r s)
      = w + BitVec.ofNat 32 s.val := by
  rw [broadcastTo_1b_ab_apply]
  show IntOp.addi w (iota .tc S1x128 32 [1] iota_S1x128_d1_w32 (ix2 (0 : Fin 1) s)) = _
  rw [iota_single_apply]
  rfl

/-- The 32-bit index arithmetic does not wrap: the two words differ exactly when row 32 ti + r and column 128 tj + s
    are different points. -/
theorem index_ne_iff (ti : Fin 16) (tj : Fin 4) (r : Fin 32) (s : Fin 128) :
    BitVec.ofNat 32 ti.val * 32#32 + BitVec.ofNat 32 r.val ≠ BitVec.ofNat 32 tj.val * 128#32 + BitVec.ofNat 32 s.val
      ↔ (⟨32 * ti.val + r.val, by omega⟩ : Fin 512) ≠ ⟨128 * tj.val + s.val, by omega⟩ := by
  have e1 : BitVec.ofNat 32 ti.val * 32#32 + BitVec.ofNat 32 r.val = BitVec.ofNat 32 (32 * ti.val + r.val) := by
    apply BitVec.eq_of_toNat_eq
    simp only [BitVec.toNat_add, BitVec.toNat_mul, BitVec.toNat_ofNat]
    omega
  have e2 : BitVec.ofNat 32 tj.val * 128#32 + BitVec.ofNat 32 s.val = BitVec.ofNat 32 (128 * tj.val + s.val) := by
    apply BitVec.eq_of_toNat_eq
    simp only [BitVec.toNat_add, BitVec.toNat_mul, BitVec.toNat_ofNat]
    omega
  rw [e1, e2, Ne, Ne, TileReduce.ofNat32_eq_iff (by omega) (by omega), Fin.mk.injEq]

/-- The positive mask at (r, s): 1 when the label of row r is the label of column s and the two are different points,
    else 0. -/
theorem pay10_apply (i : grid1.Coords) (ti : Fin 16) (tj : Fin 4) (hi0 : (i 0).val = ti.val) (hi1 : (i 1).val = tj.val)
    (x2 : Vec Ideal S32x1 .i32) (x3 : Vec Ideal S1x128 .i32) (r : Fin 32) (s : Fin 128) :
    k1_pay10 (F := Ideal) i x2 x3 (ix3 r s (0 : Fin 1))
      = (if (x2 (ix2 r (0 : Fin 1)) : BitVec 32) = x3 (ix2 (0 : Fin 1) s)
            ∧ (⟨32 * ti.val + r.val, by omega⟩ : Fin 512) ≠ ⟨128 * tj.val + s.val, by omega⟩ then 1 else 0 : EReal) := by
  unfold k1_pay10
  refine (Layout3Col.shapeCast_ab_ab1_apply _ _ r s 0).trans ?_
  show FloatOps.sitofp (F := Ideal) .f32 (BitVec.setWidth 32 (IntOp.andi
      (IntOp.cmpi .eq (broadcastTo S32x128 (k1_pay8 (F := Ideal) x2) broadcasts_S32x1_S32x128 (ix2 r s))
        (broadcastTo S32x128 (shapeCast S1x128 x3 shapeCasts_S1x128_S1x128) broadcasts_S1x128_S32x128 (ix2 r s)))
      (IntOp.cmpi .ne
        (broadcastTo S32x128 (addi (broadcast S32x1 (Scalar.muli (BitVec.ofNat 32 (i 0).val) 32#32))
          (iota .tc S32x1 32 [0] iota_S32x1_d0_w32)) broadcasts_S32x1_S32x128 (ix2 r s))
        (broadcastTo S32x128 (addi (broadcast S1x128 (Scalar.muli (BitVec.ofNat 32 (i 1).val) 128#32))
          (iota .tc S1x128 32 [1] iota_S1x128_d1_w32)) broadcasts_S1x128_S32x128 (ix2 r s))))) = _
  rw [labelCol_apply, labelRow_apply, rowWord_apply, colWord_apply, TileReduce.sitofp_setWidth_bit, hi0, hi1]
  refine if_congr ?_ rfl rfl
  rw [IntOp.andi_eq_one, IntOp.cmpi_eq, IntOp.cmpi_ne]
  exact and_congr Iff.rfl (index_ne_iff ti tj r s)

/-! ## One grid point as sums over its tile -/

/-- The second accumulator after the point (ti, tj, tk): its previous value plus the number of valid triplets of the
    tile (anchor rows 32 ti + r, positive columns 128 tj + s, negative columns 128 tk + u). -/
theorem step6_tile (ti : Fin 16) (tj tk : Fin 4) (i : grid1.Coords) (hi0 : (i 0).val = ti.val) (hi1 : (i 1).val = tj.val)
    (lab : Fin 512 → BitVec 32) (x2 : Vec Ideal S32x1 .i32) (x3 x4 : Vec Ideal S1x128 .i32) (prev : Vec Ideal S1x1 .f32)
    (hx2 : ∀ r : Fin 32, x2 (ix2 r (0 : Fin 1)) = lab ⟨32 * ti.val + r.val, by omega⟩)
    (hx3 : ∀ s : Fin 128, x3 (ix2 (0 : Fin 1) s) = lab ⟨128 * tj.val + s.val, by omega⟩)
    (hx4 : ∀ u : Fin 128, x4 (ix2 (0 : Fin 1) u) = lab ⟨128 * tk.val + u.val, by omega⟩) :
    step6 i x2 x3 x4 prev (ix2 0 0)
      = prev (ix2 0 0) + ∑ r : Fin 32, ∑ s : Fin 128, ∑ u : Fin 128,
          Cert.Spec.pm lab ⟨32 * ti.val + r.val, by omega⟩ ⟨128 * tj.val + s.val, by omega⟩
            * Cert.Spec.nm lab ⟨32 * ti.val + r.val, by omega⟩ ⟨128 * tk.val + u.val, by omega⟩ := by
  unfold step6
  rw [pay3_apply]
  refine congrArg (prev (ix2 0 0) + ·) ?_
  refine Finset.sum_congr rfl fun r _ => Finset.sum_congr rfl fun s _ => Finset.sum_congr rfl fun u _ => ?_
  rw [pay10_apply i ti tj hi0 hi1, pay9_apply, hx2, hx3, hx4]
  rfl

/-- The first accumulator after the point (ti, tj, tk): its previous value plus the sum of the hinge terms of the tile's
    valid triplets. -/
theorem step5_tile (ti : Fin 16) (tj tk : Fin 4) (i : grid1.Coords) (hi0 : (i 0).val = ti.val) (hi1 : (i 1).val = tj.val)
    (d : Fin 512 → Fin 512 → EReal) (lab : Fin 512 → BitVec 32)
    (x0 x1 : Vec Ideal S32x128 .f32) (x2 : Vec Ideal S32x1 .i32) (x3 x4 : Vec Ideal S1x128 .i32) (prev : Vec Ideal S1x1 .f32)
    (hx0 : ∀ (r : Fin 32) (s : Fin 128), x0 (ix2 r s) = d ⟨32 * ti.val + r.val, by omega⟩ ⟨128 * tj.val + s.val, by omega⟩)
    (hx1 : ∀ (r : Fin 32) (u : Fin 128), x1 (ix2 r u) = d ⟨32 * ti.val + r.val, by omega⟩ ⟨128 * tk.val + u.val, by omega⟩)
    (hx2 : ∀ r : Fin 32, x2 (ix2 r (0 : Fin 1)) = lab ⟨32 * ti.val + r.val, by omega⟩)
    (hx3 : ∀ s : Fin 128, x3 (ix2 (0 : Fin 1) s) = lab ⟨128 * tj.val + s.val, by omega⟩)
    (hx4 : ∀ u : Fin 128, x4 (ix2 (0 : Fin 1) u) = lab ⟨128 * tk.val + u.val, by omega⟩) :
    step5 i x0 x1 x2 x3 x4 prev (ix2 0 0)
      = prev (ix2 0 0) + ∑ r : Fin 32, ∑ s : Fin 128, ∑ u : Fin 128,
          Cert.Spec.hinge d ⟨32 * ti.val + r.val, by omega⟩ ⟨128 * tj.val + s.val, by omega⟩ ⟨128 * tk.val + u.val, by omega⟩
            * (Cert.Spec.pm lab ⟨32 * ti.val + r.val, by omega⟩ ⟨128 * tj.val + s.val, by omega⟩
              * Cert.Spec.nm lab ⟨32 * ti.val + r.val, by omega⟩ ⟨128 * tk.val + u.val, by omega⟩) := by
  unfold step5 k1_pay6 k1_pay7
  rw [pay2_apply]
  refine congrArg (prev (ix2 0 0) + ·) ?_
  refine Finset.sum_congr rfl fun r _ => Finset.sum_congr rfl fun s _ => Finset.sum_congr rfl fun u _ => ?_
  rw [pay10_apply i ti tj hi0 hi1, pay9_apply, shapeCast_self, shapeCast_self, hx0, hx1, hx2, hx3, hx4]
  rfl

/-! ## The first point's zeroes -/

/-- The first accumulator starts at zero. -/
theorem pay4_zero : k1_pay4 (F := Ideal) (ix2 0 0) = 0 := Ideal.ofBits_zero_f32

/-- The second accumulator starts at zero. -/
theorem pay5_zero : k1_pay5 (F := Ideal) (ix2 0 0) = 0 := Ideal.ofBits_zero_f32

end Cert.KernelIdeal.HandValue

end
-- ==== Proof.LibSumBlocks.lean ====
/-
  A sum over `n * b` consecutive indices is the sum, over `n` blocks, of the sums over the `b` indices of each
  block: index `e` is `b * j + k` for exactly one block `j < n` and one offset `k < b`. This holds in every additive
  commutative monoid — only commutativity and associativity of the addition are used — so in particular on the
  extended reals, where no finiteness is needed.
-/
import Mathlib.Algebra.BigOperators.Fin
import Mathlib.Logic.Equiv.Fin.Basic

namespace SumBlocks

open Finset

/-- `∑_{e < n·b} f e = ∑_{j < n} ∑_{k < b} f (b·j + k)`: the indices below `n · b` are the pairs (block, offset). -/
theorem sum_mul_eq_sum_blocks {M : Type*} [AddCommMonoid M] (n b : ℕ) (f : ℕ → M) :
    ∑ e : Fin (n * b), f e.val = ∑ j : Fin n, ∑ k : Fin b, f (b * j.val + k.val) := by
  rw [← (finProdFinEquiv (m := n) (n := b)).sum_comp (fun e : Fin (n * b) => f e.val), Fintype.sum_prod_type]
  refine Finset.sum_congr rfl fun j _ => Finset.sum_congr rfl fun k _ => ?_
  exact congrArg f (Nat.add_comm _ _)

/-- Three blocks, with the left-nested grouping in which a running total takes them up one after the other. -/
theorem sum_three_blocks {M : Type*} [AddCommMonoid M] (b : ℕ) (f : ℕ → M) :
    ∑ e : Fin (3 * b), f e.val
      = ((∑ k : Fin b, f (b * 0 + k.val)) + ∑ k : Fin b, f (b * 1 + k.val)) + ∑ k : Fin b, f (b * 2 + k.val) := by
  rw [sum_mul_eq_sum_blocks 3 b f, Fin.sum_univ_three]
  rfl

end SumBlocks
-- ==== Proof.LibBlockSum.lean ====
/-
  A sum over an index type of n · b elements, taken block by block: for any additive commutative monoid and any function on
  Fin N with N = n · b, the total is the sum over the n blocks of the sums over the b elements of each block, element
  (s, r) being the one at position b · s + r.
-/
import Mathlib.Algebra.BigOperators.Fin
import Mathlib.Logic.Equiv.Fin.Basic
import proofs.«108056_j2293512536517_2_alg».proof.Proof.LibSumBlocks

namespace BlockSum

open Finset

theorem pos_lt {n b : ℕ} (s : Fin n) (r : Fin b) : b * s.val + r.val < n * b := by
  have h1 : s.val + 1 ≤ n := s.isLt
  have h2 : r.val < b := r.isLt
  have h3 : b * (s.val + 1) ≤ b * n := Nat.mul_le_mul_left _ h1
  rw [Nat.mul_add_one] at h3
  rw [Nat.mul_comm n b]
  omega

/-- The total over Fin N, N = n · b, block by block. -/
theorem sum_eq_sum_blocks {M : Type*} [AddCommMonoid M] (n b N : ℕ) (hN : n * b = N) (F : Fin N → M) :
    ∑ e : Fin N, F e = ∑ s : Fin n, ∑ r : Fin b, F ⟨b * s.val + r.val, hN ▸ pos_lt s r⟩ := by
  subst hN
  have h := SumBlocks.sum_mul_eq_sum_blocks n b (fun e => if h : e < n * b then F ⟨e, h⟩ else 0)
  have hl : ∑ e : Fin (n * b), F e = ∑ e : Fin (n * b), (fun e => if h : e < n * b then F ⟨e, h⟩ else 0) e.val :=
    Finset.sum_congr rfl fun e _ => by simp only [e.isLt, dite_true]
  rw [hl, h]
  refine Finset.sum_congr rfl fun s _ => Finset.sum_congr rfl fun r _ => ?_
  simp only [pos_lt s r, dite_true]

end BlockSum
-- ==== Proof.LibSumGrid.lean ====
/-
  Sums over a grid of tiles. A sum over an index type of A · (B · C) elements is the triple sum over the three digits
  (i, j, k) of the index written in mixed radix, element (i, j, k) at position (B · C) · i + (C · j + k). A triple sum
  over three index types of A · a, B · b and C · c elements is the sum over all tiles (i, j, k) of the sums over the
  elements (r, s, u) of the tile, element (r, s, u) of tile (i, j, k) at (a · i + r, b · j + s, c · k + u). Both hold
  in every additive commutative monoid: only commutativity and associativity of the addition are used, so in
  particular on the extended reals, where no finiteness is needed. The last statement is the instance for a cube of
  side 512 cut into 16 × 4 × 4 tiles of 32 × 128 × 128 elements, the tile of the point t of a grid of 256 points being
  (t / 16, (t / 4) % 4, t % 4).
-/
import Mathlib.Algebra.BigOperators.Fin
import Mathlib.Logic.Equiv.Fin.Basic
import proofs.«108056_j2293512536517_2_alg».proof.Proof.LibBlockSum

namespace SumGrid

open Finset

variable {M : Type*} [AddCommMonoid M]

/-- Element `r` of block `i` of `n` blocks of `b` elements sits below `n · b`. -/
theorem pos_lt {n b : ℕ} (i : Fin n) (r : Fin b) : b * i.val + r.val < n * b := BlockSum.pos_lt i r

/-- A sum over `A · (B · C)` indices as the triple sum over the digits of the index in mixed radix. -/
theorem sum_digits3 (A B C : ℕ) (H : Fin (A * (B * C)) → M) :
    ∑ t, H t = ∑ i : Fin A, ∑ j : Fin B, ∑ k : Fin C,
        H ⟨(B * C) * i.val + (C * j.val + k.val), pos_lt i ⟨C * j.val + k.val, pos_lt j k⟩⟩ := by
  refine (BlockSum.sum_eq_sum_blocks A (B * C) (A * (B * C)) rfl H).trans ?_
  refine Finset.sum_congr rfl fun i _ => ?_
  exact BlockSum.sum_eq_sum_blocks B C (B * C) rfl fun q : Fin (B * C) => H ⟨(B * C) * i.val + q.val, pos_lt i q⟩

/-- A triple sum over `A · a`, `B · b` and `C · c` indices as the sum over the tiles of the sums inside each tile. -/
theorem sum_tiles3 (A B C a b c : ℕ) (f : Fin (A * a) → Fin (B * b) → Fin (C * c) → M) :
    ∑ x, ∑ y, ∑ z, f x y z
      = ∑ i : Fin A, ∑ j : Fin B, ∑ k : Fin C, ∑ r : Fin a, ∑ s : Fin b, ∑ u : Fin c,
          f ⟨a * i.val + r.val, pos_lt i r⟩ ⟨b * j.val + s.val, pos_lt j s⟩ ⟨c * k.val + u.val, pos_lt k u⟩ := by
  have h1 : ∑ x, ∑ y, ∑ z, f x y z
      = ∑ i : Fin A, ∑ r : Fin a, ∑ j : Fin B, ∑ s : Fin b, ∑ k : Fin C, ∑ u : Fin c,
          f ⟨a * i.val + r.val, pos_lt i r⟩ ⟨b * j.val + s.val, pos_lt j s⟩ ⟨c * k.val + u.val, pos_lt k u⟩ := by
    refine (BlockSum.sum_eq_sum_blocks A a (A * a) rfl fun x => ∑ y, ∑ z, f x y z).trans ?_
    refine Finset.sum_congr rfl fun i _ => Finset.sum_congr rfl fun r _ => ?_
    refine (BlockSum.sum_eq_sum_blocks B b (B * b) rfl fun y => ∑ z, f ⟨a * i.val + r.val, pos_lt i r⟩ y z).trans ?_
    refine Finset.sum_congr rfl fun j _ => Finset.sum_congr rfl fun s _ => ?_
    exact BlockSum.sum_eq_sum_blocks C c (C * c) rfl fun z =>
      f ⟨a * i.val + r.val, pos_lt i r⟩ ⟨b * j.val + s.val, pos_lt j s⟩ z
  refine h1.trans ?_
  refine Finset.sum_congr rfl fun i _ => ?_
  refine Finset.sum_comm.trans ?_
  refine Finset.sum_congr rfl fun j _ => ?_
  refine (Finset.sum_congr rfl fun r _ => Finset.sum_comm).trans ?_
  exact Finset.sum_comm

/-- The cube of side 512 summed tile by tile over a grid of 256 points: point `t` has the tile of rows of block
    `t / 16`, middle indices of block `(t / 4) % 4` and last indices of block `t % 4`. -/
theorem sum_grid_tiles (f : Fin 512 → Fin 512 → Fin 512 → M) :
    ∑ t : Fin 256, ∑ r : Fin 32, ∑ s : Fin 128, ∑ u : Fin 128,
        f ⟨32 * (t.val / 16) + r.val, by omega⟩ ⟨128 * ((t.val / 4) % 4) + s.val, by omega⟩
          ⟨128 * (t.val % 4) + u.val, by omega⟩
      = ∑ a : Fin 512, ∑ p : Fin 512, ∑ n : Fin 512, f a p n := by
  refine Eq.trans ?_ (sum_tiles3 16 4 4 32 128 128 f).symm
  refine (sum_digits3 16 4 4 fun t : Fin 256 => ∑ r : Fin 32, ∑ s : Fin 128, ∑ u : Fin 128,
        f ⟨32 * (t.val / 16) + r.val, by omega⟩ ⟨128 * ((t.val / 4) % 4) + s.val, by omega⟩
          ⟨128 * (t.val % 4) + u.val, by omega⟩).trans ?_
  refine Finset.sum_congr rfl fun i _ => Finset.sum_congr rfl fun j _ => Finset.sum_congr rfl fun k _ => ?_
  refine Finset.sum_congr rfl fun r _ => Finset.sum_congr rfl fun s _ => Finset.sum_congr rfl fun u _ => ?_
  have hi : i.val < 16 := i.isLt
  have hj : j.val < 4 := j.isLt
  have hk : k.val < 4 := k.isLt
  refine congr (congr (congrArg f (Fin.ext ?_)) (Fin.ext ?_)) (Fin.ext ?_)
  · show 32 * ((4 * 4 * i.val + (4 * j.val + k.val)) / 16) + r.val = 32 * i.val + r.val; omega
  · show 128 * ((4 * 4 * i.val + (4 * j.val + k.val)) / 4 % 4) + s.val = 128 * j.val + s.val; omega
  · show 128 * ((4 * 4 * i.val + (4 * j.val + k.val)) % 4) + u.val = 128 * k.val + u.val; omega

end SumGrid
-- ==== Proof.Accum.lean ====
/-
  The accumulation over the 256 grid points of the triplet-loss kernel, on the extended reals.

  Each point adds to the first accumulator the hinge terms of the valid triplets of its tile and to the second their
  number; the first point starts both from zero. So after point n an accumulator holds the sum of the tiles' terms over
  the points up to n, and after the last point, the tiles of the 16 x 4 x 4 grid partitioning the cube of all triplets
  (anchor, positive, negative), it holds the specification's sum over all triplets: the loss's numerator and the count.
-/
import proofs.«108056_j2293512536517_2_alg».proof.Proof.StepValue
import proofs.«108056_j2293512536517_2_alg».proof.Proof.R1Value
import proofs.«108056_j2293512536517_2_alg».proof.Proof.LibSumGrid
import proofs.«108056_j2293512536517_2_alg».proof.Proof.Spec

noncomputable section

namespace Cert.KernelIdeal.HandValue

open Cert.KernelIdeal Cert.KernelIdeal.Gen
open Idealize.ShloMosaic Idealize.ShloMosaic.TcCoe Idealize.ShloMosaic.ValueIdx
open Idealize.SL.Sem

/-- The hinge terms of the valid triplets of the tile of point t: anchor rows of block t / 16, positive columns of
    block (t / 4) % 4, negative columns of block t % 4. -/
def tileLoss (d : Fin 512 → Fin 512 → EReal) (lab : Fin 512 → BitVec 32) (t : Fin 256) : EReal :=
  ∑ r : Fin 32, ∑ s : Fin 128, ∑ u : Fin 128,
    Cert.Spec.hinge d ⟨32 * (t.val / 16) + r.val, by omega⟩ ⟨128 * ((t.val / 4) % 4) + s.val, by omega⟩
        ⟨128 * (t.val % 4) + u.val, by omega⟩
      * (Cert.Spec.pm lab ⟨32 * (t.val / 16) + r.val, by omega⟩ ⟨128 * ((t.val / 4) % 4) + s.val, by omega⟩
        * Cert.Spec.nm lab ⟨32 * (t.val / 16) + r.val, by omega⟩ ⟨128 * (t.val % 4) + u.val, by omega⟩)

/-- The number of valid triplets of the tile of point t. -/
def tileCount (lab : Fin 512 → BitVec 32) (t : Fin 256) : EReal :=
  ∑ r : Fin 32, ∑ s : Fin 128, ∑ u : Fin 128,
    Cert.Spec.pm lab ⟨32 * (t.val / 16) + r.val, by omega⟩ ⟨128 * ((t.val / 4) % 4) + s.val, by omega⟩
      * Cert.Spec.nm lab ⟨32 * (t.val / 16) + r.val, by omega⟩ ⟨128 * (t.val % 4) + u.val, by omega⟩

/-- A function of the points extended by zero to every natural number, so that partial sums run over ranges. -/
def ext0 (g : Fin 256 → EReal) (t : ℕ) : EReal := if h : t < 256 then g ⟨t, h⟩ else 0

theorem ext0_of_lt (g : Fin 256 → EReal) {t : ℕ} (h : t < 256) : ext0 g t = g ⟨t, h⟩ := dif_pos h

/-- The sum of the extension over the first 256 numbers is the sum over the points. -/
theorem sum_range_ext0 (g : Fin 256 → EReal) : ∑ t ∈ Finset.range 256, ext0 g t = ∑ t : Fin 256, g t := by
  rw [Finset.sum_range]
  exact Finset.sum_congr rfl fun t _ => ext0_of_lt g t.isLt

section Points
variable (V : (c : Dev nD) → (b : Ref sig .tc) → Buf (Elt Ideal) ((c : Thread nD τ).loc b)) (c : Dev nD)
  (lab : Fin 512 → BitVec 32)

/-- One point adds its tile's hinge terms to the first accumulator. -/
theorem step5_point (hv1 : ∀ a : Fin 512, (V c main_v1 : S512x1.Idx → BitVec 32) (ix2 a (0 : Fin 1)) = lab a)
    (hv2 : ∀ a : Fin 512, (V c main_v2 : S1x512.Idx → BitVec 32) (ix2 (0 : Fin 1) a) = lab a)
    (t : Fin cfg1.N) (prev : Vec Ideal S1x1 .f32) :
    Hand.step5 (F := Ideal) (grid1.coords t) (Hand.iblk1 V c 0 t) (Hand.iblk1 V c 1 t) (Hand.iblk1 V c 2 t)
        (Hand.iblk1 V c 3 t) (Hand.iblk1 V c 4 t) prev (ix2 0 0)
      = prev (ix2 0 0)
        + tileLoss (fun a p => (V c main_v0 : S512x512.Idx → EReal) (ix2 a p)) lab ⟨t.val, Hand.t_lt1 t⟩ := by
  have ht := Hand.t_lt1 t
  exact step5_tile ⟨t.val / 16, by omega⟩ ⟨(t.val / 4) % 4, by omega⟩ ⟨t.val % 4, by omega⟩ (grid1.coords t)
    (Hand.coords1 t).1 (Hand.coords1 t).2.1 (fun a p => (V c main_v0 : S512x512.Idx → EReal) (ix2 a p)) lab
    (Hand.iblk1 V c 0 t) (Hand.iblk1 V c 1 t) (Hand.iblk1 V c 2 t) (Hand.iblk1 V c 3 t) (Hand.iblk1 V c 4 t) prev
    (fun r s => Hand.iblk1_0_apply V c t r s) (fun r u => Hand.iblk1_1_apply V c t r u)
    (fun r => (Hand.iblk1_2_apply V c t r).trans (hv1 _)) (fun s => (Hand.iblk1_3_apply V c t s).trans (hv2 _))
    (fun u => (Hand.iblk1_4_apply V c t u).trans (hv2 _))

/-- One point adds its tile's number of valid triplets to the second accumulator. -/
theorem step6_point (hv1 : ∀ a : Fin 512, (V c main_v1 : S512x1.Idx → BitVec 32) (ix2 a (0 : Fin 1)) = lab a)
    (hv2 : ∀ a : Fin 512, (V c main_v2 : S1x512.Idx → BitVec 32) (ix2 (0 : Fin 1) a) = lab a)
    (t : Fin cfg1.N) (prev : Vec Ideal S1x1 .f32) :
    Hand.step6 (F := Ideal) (grid1.coords t) (Hand.iblk1 V c 2 t) (Hand.iblk1 V c 3 t) (Hand.iblk1 V c 4 t) prev (ix2 0 0)
      = prev (ix2 0 0) + tileCount lab ⟨t.val, Hand.t_lt1 t⟩ := by
  have ht := Hand.t_lt1 t
  exact step6_tile ⟨t.val / 16, by omega⟩ ⟨(t.val / 4) % 4, by omega⟩ ⟨t.val % 4, by omega⟩ (grid1.coords t)
    (Hand.coords1 t).1 (Hand.coords1 t).2.1 lab
    (Hand.iblk1 V c 2 t) (Hand.iblk1 V c 3 t) (Hand.iblk1 V c 4 t) prev
    (fun r => (Hand.iblk1_2_apply V c t r).trans (hv1 _)) (fun s => (Hand.iblk1_3_apply V c t s).trans (hv2 _))
    (fun u => (Hand.iblk1_4_apply V c t u).trans (hv2 _))

/-- The first accumulator after the first point. -/
theorem acc5_zero (h : 0 < cfg1.N) :
    (Hand.acc5 V c 0 h : Vec Ideal S1x1 .f32)
      = Hand.step5 (F := Ideal) (grid1.coords ⟨0, h⟩) (Hand.iblk1 V c 0 ⟨0, h⟩) (Hand.iblk1 V c 1 ⟨0, h⟩)
          (Hand.iblk1 V c 2 ⟨0, h⟩) (Hand.iblk1 V c 3 ⟨0, h⟩) (Hand.iblk1 V c 4 ⟨0, h⟩) (k1_pay4 (F := Ideal)) := rfl

/-- The first accumulator after a later point, from its value after the point before. -/
theorem acc5_succ (n : ℕ) (h : n + 1 < cfg1.N) :
    (Hand.acc5 V c (n + 1) h : Vec Ideal S1x1 .f32)
      = Hand.step5 (F := Ideal) (grid1.coords ⟨n + 1, h⟩) (Hand.iblk1 V c 0 ⟨n + 1, h⟩) (Hand.iblk1 V c 1 ⟨n + 1, h⟩)
          (Hand.iblk1 V c 2 ⟨n + 1, h⟩) (Hand.iblk1 V c 3 ⟨n + 1, h⟩) (Hand.iblk1 V c 4 ⟨n + 1, h⟩)
          (Hand.acc5 V c n (Nat.lt_of_succ_lt h)) := rfl

/-- The second accumulator after the first point. -/
theorem acc6_zero (h : 0 < cfg1.N) :
    (Hand.acc6 V c 0 h : Vec Ideal S1x1 .f32)
      = Hand.step6 (F := Ideal) (grid1.coords ⟨0, h⟩) (Hand.iblk1 V c 2 ⟨0, h⟩) (Hand.iblk1 V c 3 ⟨0, h⟩)
          (Hand.iblk1 V c 4 ⟨0, h⟩) (k1_pay5 (F := Ideal)) := rfl

/-- The second accumulator after a later point, from its value after the point before. -/
theorem acc6_succ (n : ℕ) (h : n + 1 < cfg1.N) :
    (Hand.acc6 V c (n + 1) h : Vec Ideal S1x1 .f32)
      = Hand.step6 (F := Ideal) (grid1.coords ⟨n + 1, h⟩) (Hand.iblk1 V c 2 ⟨n + 1, h⟩) (Hand.iblk1 V c 3 ⟨n + 1, h⟩)
          (Hand.iblk1 V c 4 ⟨n + 1, h⟩) (Hand.acc6 V c n (Nat.lt_of_succ_lt h)) := rfl

/-- After point n the first accumulator holds the hinge terms of the tiles of the points up to n. -/
theorem acc5_partial (hv1 : ∀ a : Fin 512, (V c main_v1 : S512x1.Idx → BitVec 32) (ix2 a (0 : Fin 1)) = lab a)
    (hv2 : ∀ a : Fin 512, (V c main_v2 : S1x512.Idx → BitVec 32) (ix2 (0 : Fin 1) a) = lab a) :
    ∀ (n : ℕ) (h : n < cfg1.N), (Hand.acc5 V c n h : Vec Ideal S1x1 .f32) (ix2 0 0)
      = ∑ t ∈ Finset.range (n + 1), ext0 (tileLoss (fun a p => (V c main_v0 : S512x512.Idx → EReal) (ix2 a p)) lab) t := by
  intro n
  induction n with
  | zero =>
    intro h
    refine (congrFun (acc5_zero V c h) (ix2 0 0)).trans ?_
    refine (step5_point V c lab hv1 hv2 ⟨0, h⟩ (k1_pay4 (F := Ideal))).trans ?_
    rw [pay4_zero, Finset.sum_range_succ, Finset.sum_range_zero, ext0_of_lt _ (Hand.t_lt1 ⟨0, h⟩)]
  | succ n ih =>
    intro h
    refine (congrFun (acc5_succ V c n h) (ix2 0 0)).trans ?_
    refine (step5_point V c lab hv1 hv2 ⟨n + 1, h⟩ (Hand.acc5 V c n (Nat.lt_of_succ_lt h))).trans ?_
    rw [ih (Nat.lt_of_succ_lt h), Finset.sum_range_succ _ (n + 1), ext0_of_lt _ (Hand.t_lt1 ⟨n + 1, h⟩)]

/-- After point n the second accumulator holds the number of valid triplets of the tiles of the points up to n. -/
theorem acc6_partial (hv1 : ∀ a : Fin 512, (V c main_v1 : S512x1.Idx → BitVec 32) (ix2 a (0 : Fin 1)) = lab a)
    (hv2 : ∀ a : Fin 512, (V c main_v2 : S1x512.Idx → BitVec 32) (ix2 (0 : Fin 1) a) = lab a) :
    ∀ (n : ℕ) (h : n < cfg1.N), (Hand.acc6 V c n h : Vec Ideal S1x1 .f32) (ix2 0 0)
      = ∑ t ∈ Finset.range (n + 1), ext0 (tileCount lab) t := by
  intro n
  induction n with
  | zero =>
    intro h
    refine (congrFun (acc6_zero V c h) (ix2 0 0)).trans ?_
    refine (step6_point V c lab hv1 hv2 ⟨0, h⟩ (k1_pay5 (F := Ideal))).trans ?_
    rw [pay5_zero, Finset.sum_range_succ, Finset.sum_range_zero, ext0_of_lt _ (Hand.t_lt1 ⟨0, h⟩)]
  | succ n ih =>
    intro h
    refine (congrFun (acc6_succ V c n h) (ix2 0 0)).trans ?_
    refine (step6_point V c lab hv1 hv2 ⟨n + 1, h⟩ (Hand.acc6 V c n (Nat.lt_of_succ_lt h))).trans ?_
    rw [ih (Nat.lt_of_succ_lt h), Finset.sum_range_succ _ (n + 1), ext0_of_lt _ (Hand.t_lt1 ⟨n + 1, h⟩)]

/-- After the last point the first accumulator holds the sum of the hinge terms over all valid triplets. -/
theorem acc5_total (hv1 : ∀ a : Fin 512, (V c main_v1 : S512x1.Idx → BitVec 32) (ix2 a (0 : Fin 1)) = lab a)
    (hv2 : ∀ a : Fin 512, (V c main_v2 : S1x512.Idx → BitVec 32) (ix2 (0 : Fin 1) a) = lab a) :
    (Hand.acc5 V c 255 Hand.last_lt1 : Vec Ideal S1x1 .f32) (ix2 0 0)
      = Cert.Spec.loss (fun a p => (V c main_v0 : S512x512.Idx → EReal) (ix2 a p)) lab := by
  rw [acc5_partial V c lab hv1 hv2 255 Hand.last_lt1, sum_range_ext0]
  unfold Cert.Spec.loss tileLoss
  exact SumGrid.sum_grid_tiles fun a p n =>
    Cert.Spec.hinge (fun a p => (V c main_v0 : S512x512.Idx → EReal) (ix2 a p)) a p n
      * (Cert.Spec.pm lab a p * Cert.Spec.nm lab a n)

/-- After the last point the second accumulator holds the number of valid triplets. -/
theorem acc6_total (hv1 : ∀ a : Fin 512, (V c main_v1 : S512x1.Idx → BitVec 32) (ix2 a (0 : Fin 1)) = lab a)
    (hv2 : ∀ a : Fin 512, (V c main_v2 : S1x512.Idx → BitVec 32) (ix2 (0 : Fin 1) a) = lab a) :
    (Hand.acc6 V c 255 Hand.last_lt1 : Vec Ideal S1x1 .f32) (ix2 0 0) = Cert.Spec.count lab := by
  rw [acc6_partial V c lab hv1 hv2 255 Hand.last_lt1, sum_range_ext0]
  unfold Cert.Spec.count tileCount
  exact SumGrid.sum_grid_tiles fun a p n => Cert.Spec.pm lab a p * Cert.Spec.nm lab a n

end Points

end Cert.KernelIdeal.HandValue

end
-- ==== Proof.LibKeepdims.lean ====
/-
  Column vectors read at an index: what a keepdims row reduction needs.

  A row reduction that keeps its axis (a sum along the lanes of an [a, b] array, kept as an [a, 1] column and
  spread back over [a, b]) prints as three operations: the lane sum [a, b] → [a], a shape cast [a] → [a, 1] and
  a broadcast [a, 1] → [a, b]. Each is read here at an index written with explicit coordinates:
    • the sum, at p, is ∑_k of the source at (p, k);
    • the cast, at (p, 0), is the vector at p (row-major position p · 1 + 0 = p on both sides);
    • the broadcast, at (p, q), is the column at (p, 0).
  All three are stated for any extents a and b.
-/
import Idealize.ShloMosaic.Lib.Pipeline.Value
import Idealize.ShloMosaic.Lib.ValueIdx
import Idealize.ShloMosaic.PureOps.Ideal.Laws

namespace Keepdims

open Idealize.ShloMosaic Idealize.ShloMosaic.ValueIdx

variable {α : Type}

/-- A vector of length a viewed as an [a, 1] column reads, at (p, z), the vector at p: the column's second
    coordinate can only be 0, so both indices sit at row-major position p. -/
theorem shapeCast_a_a1_apply {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- An [a, 1] column spread over [a, b] reads, at (p, q), the column at (p, 0): the row coordinate is kept
    (also when a = 1, where it can only be 0) and the unit axis is read at 0. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The index of an [a, b] array that lies over p of the reduced [a] with lane k put back is (p, k). -/
theorem lift_lane {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- On the extended reals the sum of an [a, b] array along its lanes is, at p, the sum over k of the entries
    (p, k): the reduction starts from the zero word, the neutral element of the sum, and there is no rounding
    for the order of the additions to matter. -/
theorem laneSum_apply {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lane h p k)

end Keepdims
-- ==== Proof.LibPlainDot.lean ====
/-
  A plain matrix product read at an entry.

  For the dimension numbers of an `M×K` by `K×N` product (contract the left operand's axis 1 with the right
  operand's axis 0, no batch axes), a `tpu.matmul` into the zero accumulator, read on the extended reals at the
  entry `(p, q)`, is `∑ k, lhs (p, k) · rhs (k, q)`; so is the host's `dot_general`. Any record with these six lists
  is `DotDims.plain M K N` (the well-formedness field is a proposition), so a printed record is rewritten to it by `rfl`.
-/
import Idealize.ShloMosaic.PureOps.Ideal.Laws
import Idealize.ShloMosaic.Lib.ValueIdx

noncomputable section

namespace Cert.PlainDot

open Idealize.ShloMosaic Idealize.ShloMosaic.ValueIdx
open scoped BigOperators

variable {M K N : Nat}

/-- The left operand's index at result entry `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ => exact ((DotDims.plain M K N).lhsIdx_val_of_single rfl j _).trans hk

/-- The right operand's index at result entry `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of a plain product at `(p, q)` is the sum over `k` of `lhs (p, k) · rhs (k, q)`. -/
theorem contraction_eq (lhs : (⟨2, ![M, K]⟩ : Shape).Idx → EReal) (rhs : (⟨2, ![K, N]⟩ : Shape).Idx → EReal) (p : Fin M) (q : Fin N) :
    (∑ k : (DotDims.plain M K N).contr.Idx, lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_eq, rhsIdx_eq]
  rfl

/-- A `tpu.matmul` of plain dimension numbers into the zero accumulator, at `(p, q)`. -/
theorem matmul_zero_apply (prec : Option ContractPrecision) (lhs : FVec Ideal ⟨2, ![M, K]⟩ .f32) (rhs : FVec Ideal ⟨2, ![K, N]⟩ .f32)
    (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact contraction_eq lhs rhs p q

/-- The host's `dot_general` of plain dimension numbers, at `(p, q)`. -/
theorem dotGeneral_apply (prec : Option ContractPrecision) (sched : HostSchedule) (lhs : FVec Ideal ⟨2, ![M, K]⟩ .f32)
    (rhs : FVec Ideal ⟨2, ![K, N]⟩ .f32) (p : Fin M) (q : Fin N) :
    FloatOps.dotGeneral (DotDims.plain M K N) prec sched lhs rhs (ix2 p q) = ∑ k : Fin K, lhs (ix2 p k) * rhs (ix2 k q) := by
  rw [Ideal.dotGeneral_apply]
  exact contraction_eq lhs rhs p q

end Cert.PlainDot

end
-- ==== Proof.RefDist.lean ====
/-
  The reference's distance matrix is the kernel's first payload, on the extended reals.

  Both programs compute, from one [512, 256] array x of points, the matrix of pairwise Euclidean distances
      dist (p, q) = if 0 < d2 (p, q) then √(if 0 < d2 (p, q) then d2 (p, q) else 1) else 0,
      d2 (p, q)   = max (sq p + sq q − 2 · gram (p, q)) 0,
      sq p        = ∑ k, x (p, k) · x (p, k),        gram (p, q) = ∑ k, x (p, k) · x (q, k).
  The reference spells sq as a host sum started from the zero word, spreads it as a column and as a row by two
  broadcasts each, and takes gram as the product of x with its transpose. The kernel spells sq as a lane sum kept as a
  [512, 1] column, gets the row by transposing that column, and takes gram as a matrix product (into the zero
  accumulator) of x with its transpose, after a change of float format that is the identity on the extended reals.
  Each side is read here at an entry (p, q) as the closed form above; the two arrays are then equal entry by entry.
-/
import proofs.«108056_j2293512536517_2_alg».proof.Proof.Gen.ReferenceIdeal.Read
import proofs.«108056_j2293512536517_2_alg».proof.Proof.Gen.KernelIdeal.Skeleton
import proofs.«108056_j2293512536517_2_alg».proof.Proof.LibKeepdims
import proofs.«108056_j2293512536517_2_alg».proof.Proof.LibPlainDot
import Idealize.ShloMosaic.PureOps.Ideal.Laws
import Idealize.ShloMosaic.Lib.ValueIdx
import Idealize.ShloMosaic.Lib.ValueLayout
import Idealize.ShloMosaic.Lib.Pipeline.Value

noncomputable section

namespace Cert.RefValue

open Idealize.ShloMosaic Idealize.ShloMosaic.ValueIdx
open scoped BigOperators

/-- An array of 512 points with 256 coordinates each, on the extended reals. -/
abbrev Pts : Type := (⟨2, ![512, 256]⟩ : Shape).Idx → EReal

/-- The squared norm of point p. -/
def sq (x : Pts) (p : Fin 512) : EReal := ∑ k : Fin 256, x (ix2 p k) * x (ix2 p k)

/-- The inner product of points p and q. -/
def gram (x : Pts) (p q : Fin 512) : EReal := ∑ k : Fin 256, x (ix2 p k) * x (ix2 q k)

/-- The squared distance between points p and q, clamped below at zero. -/
def d2 (x : Pts) (p q : Fin 512) : EReal :=
  max (sq x p + sq x q - Ideal.ofBits .f32 0x40000000#32 * gram x p q) (Ideal.ofBits .f32 0x00000000#32)

/-- The distance between points p and q: the square root where the squared distance is positive (taken of 1 elsewhere,
    and then discarded), zero elsewhere. -/
def dist (x : Pts) (p q : Fin 512) : EReal :=
  Scalar.select (Ideal.cmp .ogt (d2 x p q) (Ideal.ofBits .f32 0x00000000#32))
    (Ideal.sqrt (Scalar.select (Ideal.cmp .ogt (d2 x p q) (Ideal.ofBits .f32 0x00000000#32)) (d2 x p q)
      (Ideal.ofBits .f32 0x3F800000#32)))
    (Ideal.ofBits .f32 0x00000000#32)

/-! ## The reference, stage by stage -/

section Reference
open Cert.ReferenceIdeal Cert.ReferenceIdeal.Read

/-- The reference's row sums of squares: the host sum starts from the zero word, which adds nothing. -/
theorem ref_sq (x0 : (⟨S512x256, .f32⟩ : BufTy).Contents (Elt Ideal)) (p : Fin 512) :
    val_main_v1 (F := Ideal) x0 (ix1 p) = sq x0 p := by
  rw [val_main_v1_apply]
  show Ideal.ofBits .f32 0x00000000#32 + _ = _
  rw [Ideal.ofBits_zero_f32, zero_add]
  refine Finset.sum_congr rfl fun k _ => ?_
  have e : idx_main_v1 (ix1 p) k = ix2 p k :=
    funext fun a => Fin.ext (by match a with | ⟨0, _⟩ => rfl | ⟨1, _⟩ => rfl)
  rw [val_main_v0_apply, e]
  rfl

/-- The reference's product of the points with their transpose, at (p, q). -/
theorem ref_gram (x0 : (⟨S512x256, .f32⟩ : BufTy).Contents (Elt Ideal)) (p q : Fin 512) :
    val_main_v8 (F := Ideal) x0 (ix2 p q) = gram x0 p q := by
  rw [val_main_v8_apply]
  refine Finset.sum_congr rfl fun k _ => ?_
  have el : lidx_main_v8 (ix2 p q) k = ix2 p k :=
    funext fun a => Fin.ext (by match a with | ⟨0, _⟩ => rfl | ⟨1, _⟩ => rfl)
  have er : idx_main_v7 (ridx_main_v8 (ix2 p q) k) = ix2 q k :=
    funext fun a => Fin.ext (by match a with | ⟨0, _⟩ => rfl | ⟨1, _⟩ => rfl)
  rw [val_main_v7_apply, el, er]

/-- The reference's clamped squared distance, at (p, q). -/
theorem ref_d2 (x0 : (⟨S512x256, .f32⟩ : BufTy).Contents (Elt Ideal)) (p q : Fin 512) :
    val_main_v13 (F := Ideal) x0 (ix2 p q) = d2 x0 p q := by
  have e4 : idx_main_v2 (idx_main_v4 (ix2 p q)) = ix1 p :=
    funext fun a => Fin.ext (by match a with | ⟨0, _⟩ => rfl)
  have e5 : idx_main_v3 (idx_main_v5 (ix2 p q)) = ix1 q :=
    funext fun a => Fin.ext (by match a with | ⟨0, _⟩ => rfl)
  rw [val_main_v13_apply, val_main_v12_apply, val_main_cst_1_apply, val_main_v11_apply, val_main_v10_apply,
    val_main_v9_apply, val_main_cst_0_apply, val_main_v6_apply, val_main_v5_apply, val_main_v4_apply,
    val_main_v3_apply, val_main_v2_apply, e4, e5, ref_sq, ref_sq, ref_gram]
  rfl

/-- The reference's distance, at (p, q). -/
theorem ref_dist_at (x0 : (⟨S512x256, .f32⟩ : BufTy).Contents (Elt Ideal)) (p q : Fin 512) :
    val_main_v18 (F := Ideal) x0 (ix2 p q) = dist x0 p q := by
  rw [val_main_v18_apply, val_main_v17_apply, val_main_v16_apply, val_main_v15_apply, val_main_v14_apply,
    val_main_cst_2_apply, val_main_call1_v1_apply, val_main_call1_v0_apply, val_main_cst_4_apply,
    val_main_call0_v1_apply, val_main_call0_v0_apply, val_main_cst_3_apply, ref_d2]
  rfl

end Reference

/-! ## The kernel's payload, operation by operation -/

section Kernel
open Cert.KernelIdeal Cert.KernelIdeal.Gen

/-- The kernel's lane sum of the squares, at p. -/
theorem pay_sq (x0 : FVec Ideal S512x256 .f32) (h : S512x256.Reduces [1] S512) (hφ : FKind.Formats .f32)
    (hacc : (0x00000000#32 : BitVec 32) = 0x00000000#32) (p : Fin 512) :
    multiReduction (F := Ideal) .add [1] S512 (mulf x0 x0) 0x00000000#32 h hφ hacc (ix1 p) = sq x0 p :=
  Keepdims.laneSum_apply (mulf x0 x0) h hφ hacc p

/-- The kernel's matrix product of the points with their transpose into the zero accumulator, at (p, q): the change of
    float format before it is the identity on the extended reals. -/
theorem pay_gram (x0 : FVec Ideal S512x256 .f32) (hb : FTy.bits .bf16 < FTy.bits .f32)
    (ht : S512x256.Transposes [1, 0] S256x512) (p q : Fin 512) :
    matmul (F := Ideal) dot_S512x256_S256x512_S512x512_1_0_0_1_n_n none (truncf .bf16 x0 hb)
      (transpose S256x512 [1, 0] (truncf .bf16 x0 hb) ht) (constant (F := Ideal) S512x512 .f32 0x00000000#32) (ix2 p q)
      = gram x0 p q := by
  refine (Ideal.matmul_constant_zero_apply dot_S512x256_S256x512_S512x512_1_0_0_1_n_n none (truncf .bf16 x0 hb)
    (transpose S256x512 [1, 0] (truncf .bf16 x0 hb) ht) (ix2 p q)).trans ?_
  refine (Cert.PlainDot.contraction_eq (M := 512) (K := 256) (N := 512) _ _ p q).trans ?_
  refine Finset.sum_congr rfl fun k _ => ?_
  exact congrArg (x0 (ix2 p k) * ·) (transpose_ix2_apply (truncf .bf16 x0 hb) ht k q)

/-- The kernel's column of squared norms spread over the columns: at (p, q), the squared norm of point p. -/
theorem pay_col (x0 : FVec Ideal S512x256 .f32) (h : S512x256.Reduces [1] S512) (hφ : FKind.Formats .f32)
    (hacc : (0x00000000#32 : BitVec 32) = 0x00000000#32) (hc : S512.ShapeCasts S512x1)
    (hbr : S512x1.Broadcasts S512x512) (p q : Fin 512) :
    broadcastTo S512x512
      (shapeCast S512x1 (multiReduction (F := Ideal) .add [1] S512 (mulf x0 x0) 0x00000000#32 h hφ hacc) hc) hbr (ix2 p q)
      = sq x0 p := by
  refine (Keepdims.broadcastTo_a1_ab_apply _ hbr p q).trans ?_
  refine (Keepdims.shapeCast_a_a1_apply _ hc p (0 : Fin 1)).trans ?_
  exact pay_sq x0 h hφ hacc p

/-- The same column transposed into a row and spread over the rows: at (p, q), the squared norm of point q. -/
theorem pay_row (x0 : FVec Ideal S512x256 .f32) (h : S512x256.Reduces [1] S512) (hφ : FKind.Formats .f32)
    (hacc : (0x00000000#32 : BitVec 32) = 0x00000000#32) (hc : S512.ShapeCasts S512x1)
    (htr : S512x1.Transposes [1, 0] S1x512) (hbr : S1x512.Broadcasts S512x512) (p q : Fin 512) :
    broadcastTo S512x512
      (transpose S1x512 [1, 0]
        (shapeCast S512x1 (multiReduction (F := Ideal) .add [1] S512 (mulf x0 x0) 0x00000000#32 h hφ hacc) hc) htr)
      hbr (ix2 p q)
      = sq x0 q := by
  refine (broadcastTo_1b_ab_apply _ hbr p q).trans ?_
  refine (transpose_ix2_apply _ htr (0 : Fin 1) q).trans ?_
  refine (Keepdims.shapeCast_a_a1_apply _ hc q (0 : Fin 1)).trans ?_
  exact pay_sq x0 h hφ hacc q

/-- The kernel's clamped squared distances, as the array its payload compares, selects from and takes roots of. -/
def payD2 (x0 : FVec Ideal S512x256 .f32) : FVec Ideal S512x512 .f32 :=
  maximumf
    (subf
      (addf
        (broadcastTo S512x512
          (shapeCast S512x1
            (multiReduction (F := Ideal) .add [1] S512 (mulf x0 x0) 0x00000000#32 reduces_S512x256_S512 (.inl rfl) rfl)
            shapeCasts_S512_S512x1)
          broadcasts_S512x1_S512x512)
        (broadcastTo S512x512
          (transpose S1x512 [1, 0]
            (shapeCast S512x1
              (multiReduction (F := Ideal) .add [1] S512 (mulf x0 x0) 0x00000000#32 reduces_S512x256_S512 (.inl rfl) rfl)
              shapeCasts_S512_S512x1)
            transposes_S512x1_p1_0_S1x512)
          broadcasts_S1x512_S512x512))
      (mulf (broadcast S512x512 (Scalar.ofBits (F := Ideal) .f32 0x40000000#32))
        (matmul (F := Ideal) dot_S512x256_S256x512_S512x512_1_0_0_1_n_n none (truncf .bf16 x0 bitsLt_bf16_f32)
          (transpose S256x512 [1, 0] (truncf .bf16 x0 bitsLt_bf16_f32) transposes_S512x256_p1_0_S256x512)
          (constant (F := Ideal) S512x512 .f32 0x00000000#32))))
    (broadcast S512x512 (Scalar.ofBits (F := Ideal) .f32 0x00000000#32))

/-- The kernel's clamped squared distance, at (p, q). -/
theorem payD2_at (x0 : FVec Ideal S512x256 .f32) (p q : Fin 512) : payD2 x0 (ix2 p q) = d2 x0 p q := by
  unfold payD2 d2
  refine (maximumf_apply _ _ _).trans ?_
  refine congrArg₂ max ?_ rfl
  refine (subf_apply _ _ _).trans ?_
  refine congrArg₂ (· - ·) ?_ ?_
  · refine (addf_apply _ _ _).trans ?_
    exact congrArg₂ (· + ·)
      (pay_col x0 reduces_S512x256_S512 (.inl rfl) rfl shapeCasts_S512_S512x1 broadcasts_S512x1_S512x512 p q)
      (pay_row x0 reduces_S512x256_S512 (.inl rfl) rfl shapeCasts_S512_S512x1 transposes_S512x1_p1_0_S1x512
        broadcasts_S1x512_S512x512 p q)
  · refine (mulf_apply _ _ _).trans ?_
    exact congrArg₂ (· * ·) rfl (pay_gram x0 bitsLt_bf16_f32 transposes_S512x256_p1_0_S256x512 p q)

/-- The kernel's payload, at (p, q): the comparison with zero, the two selections and the square root act entry by
    entry on the clamped squared distance. -/
theorem pay_dist_at (x0 : FVec Ideal S512x256 .f32) (p q : Fin 512) :
    k0_pay1 (F := Ideal) x0 (ix2 p q) = dist x0 p q := by
  have hd := payD2_at x0 p q
  unfold dist
  rw [← hd]
  rfl

end Kernel

/-! ## The two arrays are equal -/

/-- The reference's distance matrix is the kernel's first payload of the same points, entry by entry. -/
theorem ref_dist (x0 : (⟨Cert.ReferenceIdeal.S512x256, .f32⟩ : BufTy).Contents (Elt Ideal)) :
    Cert.ReferenceIdeal.Read.val_main_v18 (F := Ideal) x0 = Cert.KernelIdeal.Gen.k0_pay1 (F := Ideal) x0 := by
  funext j
  obtain ⟨p, q, rfl⟩ : ∃ (p q : Fin 512), j = ix2 p q := ⟨j 0, j 1, eq_ix2 j⟩
  exact (ref_dist_at x0 p q).trans (pay_dist_at x0 p q).symm

end Cert.RefValue

end
-- ==== Proof.RefLoss.lean ====
/-
  The reference's result is the specification, at the ideal instance, with the distance matrix kept as one
  function D of the first argument.

  The reference forms the full 512 × 512 × 512 tensor of hinge terms max (D a p − D a n + 1) 0, replaces by zero those
  of the triplets (a, p, n) that are not valid (valid: label a = label p, a ≠ p, label a ≠ label n), sums everything,
  counts the valid triplets with a 32-bit integer sum, and divides. Here: the tensor at (a, p, n) is the hinge term
  times the two 0/1 masks; the sum over the rank-3 index set is the triple sum over the coordinates; the integer
  count of at most 2²⁷ ones does not wrap, so that, read signed and exactly, it is the sum of the masks' products.
-/
import proofs.«108056_j2293512536517_2_alg».proof.Proof.Gen.ReferenceIdeal.Read
import proofs.«108056_j2293512536517_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.ReduceAll

noncomputable section

namespace Cert.RefValue

open Cert.ReferenceIdeal Cert.ReferenceIdeal.Gen Cert.ReferenceIdeal.Read Idealize.ShloMosaic Idealize.ShloMosaic.ValueIdx

/-! ## Sums over a rank-3 index set, for any extents -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun q := ix3 q.1 q.2.1 q.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A zero initial value plus the sum over a rank-3 index set of a function known at every (a, b, c). -/
theorem zero_add_sum_idx3 {n0 n1 n2 : Nat} (z : EReal) (hz : z = 0) (f : (⟨3, ![n0, n1, n2]⟩ : Shape).Idx → EReal)
    (g : Fin n0 → Fin n1 → Fin n2 → EReal) (hf : ∀ a b c, f (ix3 a b c) = g a b c) :
    z + ∑ i, f i = ∑ a : Fin n0, ∑ b : Fin n1, ∑ c : Fin n2, g a b c := by
  rw [hz, zero_add, sum_idx3]
  exact Finset.sum_congr rfl fun a _ => Finset.sum_congr rfl fun b _ => Finset.sum_congr rfl fun c _ => hf a b c

/-- The coercion of a finite sum of reals to the extended reals is the sum of the coercions. -/
theorem coe_sum {ι : Type*} (s : Finset ι) (g : ι → ℝ) : ((∑ k ∈ s, g k : ℝ) : EReal) = ∑ k ∈ s, (g k : EReal) := by
  classical
  induction s using Finset.induction_on with
  | empty => simp
  | insert a s ha ih => rw [Finset.sum_insert ha, Finset.sum_insert ha, EReal.coe_add, ih]

/-- A triple sum of naturals, as an integer, as a real, as an extended real, is the triple sum of the terms so read. -/
theorem coe_sum3 {n0 n1 n2 : Nat} (g : Fin n0 → Fin n1 → Fin n2 → ℕ) :
    ((((∑ a, ∑ b, ∑ c, g a b c : ℕ) : ℤ) : ℝ) : EReal) = ∑ a, ∑ b, ∑ c, (((g a b c : ℕ) : ℝ) : EReal) := by
  rw [Int.cast_natCast, Nat.cast_sum, coe_sum]
  refine Finset.sum_congr rfl fun a _ => ?_
  rw [Nat.cast_sum, coe_sum]
  refine Finset.sum_congr rfl fun b _ => ?_
  rw [Nat.cast_sum, coe_sum]

/-- A triple sum of terms that are at most one is at most the number of terms. -/
theorem sum3_le {n0 n1 n2 : Nat} (g : Fin n0 → Fin n1 → Fin n2 → ℕ) (hg : ∀ a b c, g a b c ≤ 1) :
    ∑ a, ∑ b, ∑ c, g a b c ≤ n0 * n1 * n2 := by
  have h3 : ∀ a b, ∑ c, g a b c ≤ n2 := fun a b =>
    (Finset.sum_le_sum fun c _ => hg a b c).trans (by simp)
  have h2 : ∀ a, ∑ b, ∑ c, g a b c ≤ n1 * n2 := fun a =>
    (Finset.sum_le_sum fun b _ => h3 a b).trans (by simp)
  exact (Finset.sum_le_sum fun a _ => h2 a).trans (by simp [Nat.mul_assoc])

/-! ## A 32-bit integer sum that does not wrap -/

/-- A fold of the 32-bit addition over a finite set, read unsigned: the sum of the words read unsigned, modulo 2³². -/
theorem fold_addi_toNat {ι : Type} [DecidableEq ι] (s : Finset ι) (b : BitVec 32) (x : ι → BitVec 32) :
    (s.fold IntOp.addi b x).toNat = (b.toNat + ∑ i ∈ s, (x i).toNat) % 2 ^ 32 := by
  induction s using Finset.induction_on with
  | empty => rw [Finset.fold_empty, Finset.sum_empty, Nat.add_zero, Nat.mod_eq_of_lt b.isLt]
  | insert a s ha ih =>
    rw [Finset.fold_insert ha, Finset.sum_insert ha]
    show (x a + s.fold IntOp.addi b x).toNat = _
    rw [BitVec.toNat_add, ih]
    omega

/-- An integer sum-reduce over all axes, read unsigned: the initial word plus the sum of all the operand's words, modulo 2³². -/
theorem reduce_addi_toNat {s t u : Shape} {axes : List (Fin s.rank)} [Subsingleton t.Idx] (x : s.Idx → BitVec 32)
    (init : u.Idx → BitVec 32) (h : s.ReducesTo axes t) (hu : 0 < u.numel) (j : t.Idx) :
    (Host.reduce IntOp.addi x init h hu j).toNat = ((init (Shape.Idx.first hu)).toNat + ∑ i, (x i).toNat) % 2 ^ 32 := by
  classical
  rw [Host.reduce_eq_fold, Finset.filter_true_of_mem fun i _ => Subsingleton.elim _ _]
  exact fold_addi_toNat _ _ _

/-- An integer sum-reduce over all axes of a rank-3 array of words that are each 0 or 1, from the zero word, when the
    array has fewer than 2³¹ entries: read signed, it is the number of ones. -/
theorem reduce_addi_count {n0 n1 n2 : Nat} {t u : Shape} {axes : List (Fin (⟨3, ![n0, n1, n2]⟩ : Shape).rank)}
    [Subsingleton t.Idx] (x : (⟨3, ![n0, n1, n2]⟩ : Shape).Idx → BitVec 32) (init : u.Idx → BitVec 32)
    (h : (⟨3, ![n0, n1, n2]⟩ : Shape).ReducesTo axes t) (hu : 0 < u.numel) (j : t.Idx)
    (g : Fin n0 → Fin n1 → Fin n2 → ℕ) (hinit : init (Shape.Idx.first hu) = 0#32)
    (hx : ∀ a b c, (x (ix3 a b c)).toNat = g a b c) (hg : ∀ a b c, g a b c ≤ 1) (hsmall : n0 * n1 * n2 < 2 ^ 31) :
    (Host.reduce IntOp.addi x init h hu j).toInt = ((∑ a, ∑ b, ∑ c, g a b c : ℕ) : ℤ) := by
  have hN := sum3_le g hg
  have e : (Host.reduce IntOp.addi x init h hu j).toNat = ∑ a, ∑ b, ∑ c, g a b c := by
    have hs : ∑ i, (x i).toNat = ∑ a, ∑ b, ∑ c, g a b c :=
      (sum_idx3 _).trans (Finset.sum_congr rfl fun a _ => Finset.sum_congr rfl fun b _ =>
        Finset.sum_congr rfl fun c _ => hx a b c)
    rw [reduce_addi_toNat, hinit, hs]
    show (0 + _) % 2 ^ 32 = _
    omega
  rw [BitVec.toInt_eq_toNat_of_lt (by rw [e]; omega), e]

/-! ## The masks at (a, p, n) -/

instance : Subsingleton S_.Idx := ⟨fun a b => funext fun d => d.elim0⟩

theorem idx_lab_row (a p : Fin 512) : idx_main_v19 (idx_main_v21 (ix2 a p)) = ix1 a :=
  funext fun d => Fin.ext (by match d with | ⟨0, _⟩ => rfl)
theorem idx_lab_col (a p : Fin 512) : idx_main_v20 (idx_main_v22 (ix2 a p)) = ix1 p :=
  funext fun d => Fin.ext (by match d with | ⟨0, _⟩ => rfl)
theorem idx_pos (a p n : Fin 512) : idx_main_v40 (idx_main_v42 (ix3 a p n)) = ix2 a p :=
  funext fun d => Fin.ext (by match d with | ⟨0, _⟩ => rfl | ⟨1, _⟩ => rfl)
theorem idx_neg (a p n : Fin 512) : idx_main_v41 (idx_main_v43 (ix3 a p n)) = ix2 a n :=
  funext fun d => Fin.ext (by match d with | ⟨0, _⟩ => rfl | ⟨1, _⟩ => rfl)
theorem idx_dpos (a p n : Fin 512) : idx_main_v32 (idx_main_v34 (ix3 a p n)) = ix2 a p :=
  funext fun d => Fin.ext (by match d with | ⟨0, _⟩ => rfl | ⟨1, _⟩ => rfl)
theorem idx_dneg (a p n : Fin 512) : idx_main_v33 (idx_main_v35 (ix3 a p n)) = ix2 a n :=
  funext fun d => Fin.ext (by match d with | ⟨0, _⟩ => rfl | ⟨1, _⟩ => rfl)

/-- The label comparison at (a, p): the two labels compared. -/
theorem same_at (x1 : (⟨S512, .i32⟩ : BufTy).Contents (Elt Ideal)) (a p : Fin 512) :
    val_main_v23 (F := Ideal) x1 (ix2 a p) = IntOp.cmpi .eq (x1 (ix1 a)) (x1 (ix1 p)) := by
  rw [val_main_v23_apply, val_main_v21_apply, val_main_v19_apply, val_main_v22_apply, val_main_v20_apply,
    idx_lab_row, idx_lab_col]

/-- The diagonal test at (a, p): the row number (plus the zero offset) against the column number, as 32-bit words. -/
theorem eye_at (a p : Fin 512) :
    val_main_v28 (F := Ideal) (ix2 a p)
      = IntOp.cmpi .eq (IntOp.addi (BitVec.ofNat 32 a.val) 0#32) (BitVec.ofNat 32 p.val) := by
  rw [val_main_v28_apply, val_main_v27_apply, val_main_v24_apply, val_main_v26_apply, val_main_c_apply,
    val_main_v25_apply]

/-- Row and column numbers below 512 are equal as 32-bit words exactly when they are equal. -/
theorem eye_iff (a p : Fin 512) : IntOp.addi (BitVec.ofNat 32 a.val) 0#32 = BitVec.ofNat 32 p.val ↔ a = p := by
  have ha := a.isLt
  have hp := p.isLt
  show BitVec.ofNat 32 a.val + 0#32 = BitVec.ofNat 32 p.val ↔ a = p
  rw [BitVec.add_zero, ← BitVec.toNat_inj, BitVec.toNat_ofNat, BitVec.toNat_ofNat, Fin.ext_iff]
  omega

/-- The validity bit of the triplet (a, p, n) is set exactly when p is a positive and n a negative for a. -/
theorem valid_iff (x1 : (⟨S512, .i32⟩ : BufTy).Contents (Elt Ideal)) (a p n : Fin 512) :
    val_main_v44 (F := Ideal) x1 (ix3 a p n) = 1#1
      ↔ (x1 (ix1 a) = x1 (ix1 p) ∧ a ≠ p) ∧ x1 (ix1 a) ≠ x1 (ix1 n) := by
  rw [val_main_v44_apply, val_main_v42_apply, val_main_v40_apply, val_main_v43_apply, val_main_v41_apply, idx_pos,
    idx_neg, val_main_v30_apply, val_main_v31_apply, val_main_v29_apply, same_at, same_at, eye_at,
    IntOp.andi_eq_one, IntOp.andi_eq_one, IntOp.not_eq_one, IntOp.not_eq_one, IntOp.cmpi_eq, IntOp.cmpi_eq,
    IntOp.cmpi_eq, eye_iff]

/-- The product of the two masks of the specification is 1 on the valid triplets and 0 elsewhere. -/
theorem masks_eq (lab : Fin 512 → BitVec 32) (a p n : Fin 512) :
    Cert.Spec.pm lab a p * Cert.Spec.nm lab a n
      = if (lab a = lab p ∧ a ≠ p) ∧ lab a ≠ lab n then 1 else 0 := by
  unfold Cert.Spec.pm Cert.Spec.nm
  by_cases h1 : lab a = lab p ∧ a ≠ p
  · by_cases h2 : lab a ≠ lab n
    · rw [if_pos h1, if_pos h2, if_pos ⟨h1, h2⟩, mul_one]
    · have h3 : ¬((lab a = lab p ∧ a ≠ p) ∧ lab a ≠ lab n) := fun h => h2 h.2
      rw [if_pos h1, if_neg h2, if_neg h3, mul_zero]
  · have h3 : ¬((lab a = lab p ∧ a ≠ p) ∧ lab a ≠ lab n) := fun h => h1 h.1
    rw [if_neg h1, if_neg h3, zero_mul]

/-! ## The hinge tensor at (a, p, n), and the loss -/

/-- The rectified margin at (a, p, n) is the hinge term of the distance matrix. -/
theorem hinge_at (x0 : (⟨S512x256, .f32⟩ : BufTy).Contents (Elt Ideal)) (a p n : Fin 512) :
    val_main_v39 (F := Ideal) x0 (ix3 a p n)
      = Cert.Spec.hinge (fun a p => val_main_v18 (F := Ideal) x0 (ix2 a p)) a p n := by
  rw [val_main_v39_apply, val_main_v38_apply, val_main_v36_apply, val_main_v34_apply, val_main_v32_apply,
    val_main_v35_apply, val_main_v33_apply, val_main_v37_apply, val_main_cst_5_apply, val_main_call2_v0_apply,
    val_main_call2_cst_apply, idx_dpos, idx_dneg]
  generalize val_main_v18 (F := Ideal) x0 = D
  rfl

/-- The masked hinge tensor at (a, p, n) is the hinge term times the two masks. -/
theorem masked_at (x0 : (⟨S512x256, .f32⟩ : BufTy).Contents (Elt Ideal))
    (x1 : (⟨S512, .i32⟩ : BufTy).Contents (Elt Ideal)) (a p n : Fin 512) :
    val_main_v45 (F := Ideal) x0 x1 (ix3 a p n)
      = Cert.Spec.hinge (fun a p => val_main_v18 (F := Ideal) x0 (ix2 a p)) a p n
        * (Cert.Spec.pm (fun a => x1 (ix1 a)) a p * Cert.Spec.nm (fun a => x1 (ix1 a)) a n) := by
  rw [val_main_v45_apply, hinge_at, val_main_call3_v1_apply, val_main_call3_v0_apply, val_main_cst_6_apply,
    masks_eq]
  generalize Cert.Spec.hinge (fun a p => val_main_v18 (F := Ideal) x0 (ix2 a p)) a p n = H
  by_cases h : val_main_v44 (F := Ideal) x1 (ix3 a p n) = 1#1
  · rw [h, select_one, if_pos ((valid_iff x1 a p n).1 h), mul_one]
  · rw [eq_zero_of_ne_one h, select_zero, if_neg (mt (valid_iff x1 a p n).2 h), mul_zero]
    exact Ideal.ofBits_zero_f32

/-- The reference's summed hinge terms are the specification's loss of the distance matrix and the labels. -/
theorem ref_loss (x0 : (⟨S512x256, .f32⟩ : BufTy).Contents (Elt Ideal))
    (x1 : (⟨S512, .i32⟩ : BufTy).Contents (Elt Ideal)) :
    val_main_v46 (F := Ideal) x0 x1 ix0
      = Cert.Spec.loss (fun a p => val_main_v18 (F := Ideal) x0 (ix2 a p)) (fun a => x1 (ix1 a)) :=
  (val_main_v46_apply x0 x1 ix0).trans
    (zero_add_sum_idx3 (n0 := 512) (n1 := 512) (n2 := 512) _ Ideal.ofBits_zero_f32 (val_main_v45 (F := Ideal) x0 x1)
      (fun a p n => Cert.Spec.hinge (fun a p => val_main_v18 (F := Ideal) x0 (ix2 a p)) a p n
        * (Cert.Spec.pm (fun a => x1 (ix1 a)) a p * Cert.Spec.nm (fun a => x1 (ix1 a)) a n))
      (masked_at x0 x1))

/-! ## The count -/

/-- The validity bit widened to 32 bits reads, unsigned, as 1 on the valid triplets and 0 elsewhere. -/
theorem wide_at (x1 : (⟨S512, .i32⟩ : BufTy).Contents (Elt Ideal)) (a p n : Fin 512) :
    (val_main_v47 (F := Ideal) x1 (ix3 a p n)).toNat
      = if (x1 (ix1 a) = x1 (ix1 p) ∧ a ≠ p) ∧ x1 (ix1 a) ≠ x1 (ix1 n) then 1 else 0 := by
  rw [val_main_v47_apply]
  by_cases h : val_main_v44 (F := Ideal) x1 (ix3 a p n) = 1#1
  · rw [h, if_pos ((valid_iff x1 a p n).1 h)]; rfl
  · rw [eq_zero_of_ne_one h, if_neg (mt (valid_iff x1 a p n).2 h)]; rfl

/-- The reference's count, converted to a float, is the specification's number of valid triplets. -/
theorem ref_count (x1 : (⟨S512, .i32⟩ : BufTy).Contents (Elt Ideal)) :
    val_main_v49 (F := Ideal) x1 ix0 = Cert.Spec.count (fun a => x1 (ix1 a)) := by
  have e := reduce_addi_count (n0 := 512) (n1 := 512) (n2 := 512) (val_main_v47 (F := Ideal) x1)
    (val_main_c_8 (F := Ideal)) reducesTo_S512x512x512_S_d0_1_2 h_S_ ix0
    (fun a p n => if (x1 (ix1 a) = x1 (ix1 p) ∧ a ≠ p) ∧ x1 (ix1 a) ≠ x1 (ix1 n) then 1 else 0)
    rfl (wide_at x1) (fun a p n => by split_ifs <;> omega) (by norm_num)
  refine (val_main_v49_apply x1 ix0).trans ?_
  show ((((val_main_v48 (F := Ideal) x1 ix0).toInt : ℝ)) : EReal) = _
  unfold val_main_v48
  rw [e, coe_sum3]
  unfold Cert.Spec.count
  refine Finset.sum_congr rfl fun a _ => Finset.sum_congr rfl fun p _ => Finset.sum_congr rfl fun n _ => ?_
  rw [masks_eq]
  split_ifs <;> simp

/-! ## The result -/

/-- The reference's result is the specification's: the loss over the count. -/
theorem ref_result (x0 : (⟨Cert.ReferenceIdeal.S512x256, .f32⟩ : BufTy).Contents (Elt Ideal))
    (x1 : (⟨Cert.ReferenceIdeal.S512, .i32⟩ : BufTy).Contents (Elt Ideal)) :
    Cert.ReferenceIdeal.Read.val_main_v50 (F := Ideal) x0 x1 ix0
      = Cert.Spec.result (fun a p => Cert.ReferenceIdeal.Read.val_main_v18 (F := Ideal) x0 (ix2 a p))
          (fun a => x1 (ix1 a)) := by
  rw [val_main_v50_apply, ref_loss, ref_count]
  rfl

end Cert.RefValue

end
-- ==== Proof.Bridge.lean ====
/- The bridge at the ideal instance. The idealized kernel's result, read off its run: the last host stretch divides the
   one entries of the two [1,1] sums the second region left; those are the loss and the count of the specification
   over the distance matrix the second region was entered with and the label vector, its column and row being the
   label vector reshaped; that distance matrix is what the first region left, the first kernel's payload of the
   embedding array. The idealized reference's result is the same specification over the same payload. So the two
   results agree, and the claims follow from the two runs. -/
import proofs.«108056_j2293512536517_2_alg».proof.Defs
import proofs.«108056_j2293512536517_2_alg».proof.Proof.Run
import proofs.«108056_j2293512536517_2_alg».proof.Proof.HostReads
import proofs.«108056_j2293512536517_2_alg».proof.Proof.R0Value
import proofs.«108056_j2293512536517_2_alg».proof.Proof.R1Value
import proofs.«108056_j2293512536517_2_alg».proof.Proof.Accum
import proofs.«108056_j2293512536517_2_alg».proof.Proof.RefDist
import proofs.«108056_j2293512536517_2_alg».proof.Proof.RefLoss
import proofs.«108056_j2293512536517_2_alg».proof.Proof.Gen.ReferenceIdeal.Run
import proofs.«108056_j2293512536517_2_alg».proof.Proof.Gen.ReferenceIdeal.Read
import proofs.«108056_j2293512536517_2_alg».proof.Proof.Gen.Pre_finite_inputs

noncomputable section

namespace Cert.KernelIdeal.HandValue

open Cert.KernelIdeal Cert.KernelIdeal.Gen
open Idealize.ShloMosaic Idealize.ShloMosaic.TcCoe Idealize.ShloMosaic.ValueIdx
open Idealize.SL.Sem

section Kernel
variable (m : (ℓ : Loc nD τ sig) → Buf (Elt Ideal) ℓ) (c : Dev nD)

/-- The label vector as launched, entry by entry. -/
abbrev labOf : Fin 512 → BitVec 32 := fun a => (m ((c : Thread nD τ).loc main_arg1) : S512.Idx → BitVec 32) (ix1 a)

/-- The distance matrix the second region is entered with is the first kernel's payload of the embedding array as
    launched: the host stretch between the regions does not write it, and the first region's one point writes the
    whole of it. -/
theorem VB_main_v0 : (Hand.VB m c main_v0 : S512x512.Idx → EReal) = k0_pay1 (F := Ideal) (m ((c : Thread nD τ).loc main_arg0)) := by
  show V2 m (Hand.outsA m) c main_v0 = _
  rw [Hand.V2_main_v0, Hand.outsA_v0]
  unfold Hand.o1
  exact Hand.final0 (Hand.VA m) c

/-- The idealized kernel's result is the specification's, over the first kernel's payload of the embedding array and
    the label vector. -/
theorem result_ix0 : (V4 m (Hand.outs m) c main_v6 : S_.Idx → EReal) ix0
    = Cert.Spec.result (fun a p => k0_pay1 (F := Ideal) (m ((c : Thread nD τ).loc main_arg0)) (ix2 a p))
        (fun a => (m ((c : Thread nD τ).loc main_arg1) : S512.Idx → BitVec 32) (ix1 a)) := by
  have hv1 : ∀ a : Fin 512, (Hand.VB m c main_v1 : S512x1.Idx → BitVec 32) (ix2 a (0 : Fin 1)) = labOf m c a :=
    fun a => Hand.V2_main_v1_apply m (Hand.outsA m) c a
  have hv2 : ∀ a : Fin 512, (Hand.VB m c main_v2 : S1x512.Idx → BitVec 32) (ix2 (0 : Fin 1) a) = labOf m c a :=
    fun a => Hand.V2_main_v2_apply m (Hand.outsA m) c a
  have h5 : (Hand.outs m 3 main_v3_0 c : S1x1.Idx → EReal) (ix2 (0 : Fin 1) (0 : Fin 1))
      = Cert.Spec.loss (fun a p => k0_pay1 (F := Ideal) (m ((c : Thread nD τ).loc main_arg0)) (ix2 a p)) (labOf m c) := by
    rw [Hand.outs_v3_0]; unfold Hand.o5
    rw [Hand.final1_5 (Hand.VB m) c]
    exact (acc5_total (Hand.VB m) c (labOf m c) hv1 hv2).trans
      (congrArg (fun d : S512x512.Idx → EReal => Cert.Spec.loss (fun a p => d (ix2 a p)) (labOf m c)) (VB_main_v0 m c))
  have h6 : (Hand.outs m 3 main_v3_1 c : S1x1.Idx → EReal) (ix2 (0 : Fin 1) (0 : Fin 1)) = Cert.Spec.count (labOf m c) := by
    rw [Hand.outs_v3_1]; unfold Hand.o6
    rw [Hand.final1_6 (Hand.VB m) c]
    exact acc6_total (Hand.VB m) c (labOf m c) hv1 hv2
  rw [Hand.V4_main_v6_apply, h5, h6]
  rfl

end Kernel

/-- The two idealized programs' results agree, from memories that agree on the arguments: both are the specification's
    result over the first kernel's payload of the embedding array and the label vector. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.Value.res_main_v50 m' c = V4 m (Hand.outs m) c main_v6 := by
  rw [Cert.ReferenceIdeal.Read.val_main_v50_eq, h0, h1]
  funext i
  obtain rfl : i = ix0 := funext fun d => d.elim0
  rw [Cert.RefValue.ref_result, Cert.RefValue.ref_dist]
  exact (result_ix0 m c).symm

end Cert.KernelIdeal.HandValue

/-! ## The claims at the ideal instance -/

namespace Cert.Proof.Claims

open Idealize.ShloMosaic Idealize.ShloMosaic.TcCoe Idealize.SL.Sem

/-- The idealized kernel runs and its arguments end as launched. -/
theorem frame_ki : Cert.frame_KernelIdeal := fun m ρ _ =>
  (θ_run Cert.KernelIdeal.defs _ _).mono (fun _ h c => (h c).2) (Cert.KernelIdeal.Hand.run_main (F := Ideal) m ρ)

/-- The idealized reference runs and its arguments end as launched. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal instance the two programs, run from memories agreeing on the arguments, end with equal results. -/
theorem algebraic : Cert.algebraic_KernelIdeal_ReferenceIdeal := fun m ρ m' ρ' _ hagree =>
  ⟨fun c => Cert.KernelIdeal.Gen.V4 m (Cert.KernelIdeal.Hand.outs m) c Cert.KernelIdeal.main_v6,
    Cert.KernelIdeal.Hand.run_main (F := Ideal) m ρ,
    (θ_run Cert.ReferenceIdeal.defs _ _).mono
      (fun _ h c => ⟨(h c).1.trans (Cert.KernelIdeal.HandValue.result_eq m m' c (hagree c).1 (hagree c).2), (h c).2⟩)
      (Cert.ReferenceIdeal.Value.run (F := Ideal) m' ρ')⟩

end Cert.Proof.Claims

end
-- ==== Proof.lean ====
/-
  The batch-all triplet loss of 512 embeddings, computed by two kernels, against its plain reference.
  The first kernel writes the matrix of pairwise Euclidean distances, d(p,q) = sqrt(max(|e_p|² + |e_q|² − 2 e_p·e_q, 0))
  (0 where that maximum is 0). The second kernel walks the 16 × 4 × 4 grid of (anchor, positive, negative) tiles and adds
  to two scalars the tile's sum of max(d(a,p) − d(a,n) + 1, 0) over its valid triplets (p another point with a's label,
  n a point with another label) and the tile's number of valid triplets; the result is the quotient of the two scalars.
  The reference forms the whole 512³ tensor and sums it. On the extended reals the distance matrices are the same
  function of the embeddings (a product into a zero accumulator is the product; a change of float format is the identity),
  every mask is 0 or 1 so that selecting and multiplying by the mask agree, the 256 tiles partition the 512³ triplets and
  addition is commutative and associative, and the reference's integer count does not wrap and is the kernel's float
  count; no finiteness of the inputs is used. Each program's frame — it runs to the end, nothing faults, the two
  arguments end as launched — is read off its run: for the kernels' program the run over its two regions
  (Proof/Run.lean, and the same text for the word-level program), for the reference its run as a list of host operations.
  The ideal pass rewrote nothing, so the idealization claim is trivial.
-/
import proofs.«108056_j2293512536517_2_alg».proof.Defs
import proofs.«108056_j2293512536517_2_alg».proof.Proof.Gen.Kernel
import proofs.«108056_j2293512536517_2_alg».proof.Proof.Gen.KernelIdeal
import proofs.«108056_j2293512536517_2_alg».proof.Proof.Gen.ReferenceIdeal
import proofs.«108056_j2293512536517_2_alg».proof.Proof.Gen.Pre_finite_inputs
import proofs.«108056_j2293512536517_2_alg».proof.Proof.KRun
import proofs.«108056_j2293512536517_2_alg».proof.Proof.Bridge

noncomputable section

namespace Cert.Proof

open Idealize.ShloMosaic Idealize.SL.Sem

/-- The word-level program runs to the end and leaves its arguments as launched: its run over the two regions, read at the
    bit-exact instance, with the result dropped. -/
theorem frame_k : Cert.frame_Kernel := fun m ρ _ =>
  (θ_run Cert.Kernel.defs _ _).mono (fun _ h c => (h c).2) (Cert.Kernel.Hand.run_main (F := Bits) m ρ)

theorem claim : Cert.Claim :=
  ⟨Cert.Kernel.Gen.facts, Cert.KernelIdeal.Gen.facts, Cert.ReferenceIdeal.Gen.facts, Cert.Pre_finite_inputs.Gen.facts,
    frame_k, Cert.Proof.Claims.frame_ki, Cert.Proof.Claims.frame_ri, Cert.Proof.Claims.preserves, Cert.Proof.Claims.algebraic⟩

end Cert.Proof

end
